-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256 : Shape := ⟨1, ![256]⟩
abbrev S256x256 : Shape := ⟨2, ![256, 256]⟩
abbrev S768x768 : Shape := ⟨2, ![768, 768]⟩
abbrev S768 : Shape := ⟨1, ![768]⟩
abbrev S768x512 : Shape := ⟨2, ![768, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S768 .f32) (main_arg12 : FVec F S768x512 .f32) (main_arg13 : FVec F S512 .f32) (main_v48 : IVec S_ 1) (main_v49 : FVec F S768x768 .f32) (main_v50 : FVec F S768x768 .f32) : IVec S_ 1 :=
  let main_v51 : IVec S768x768 1 := cmpf .olt main_v49 main_v50
  let main_c_19 : IVec S_ 1 := constantI S_ 1 1#1
  let main_v52 : IVec S_ 1 := (fun x v => Host.reduce IntOp.andi x v reducesTo_S768x768_S_d0_1 h_S_) main_v51 main_c_19
  let main_v53 : IVec S_ 1 := andi main_v48 main_v52
  let main_v54 : FVec F S768 .f32 := Host.absf main_arg11
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  let main_v59 : FVec F S768x512 .f32 := Host.absf main_arg12
  let main_cst_22 : FVec F S_ .f32 := constant S_ .f32 0x7F800000#32
  let main_v60 : FVec F S768x512 .f32 := broadcastInDim S768x512 ![] bcast_S_S768x512 main_cst_22
  let main_v61 : IVec S768x512 1 := cmpf .olt main_v59 main_v60
  let main_c_23 : IVec S_ 1 := constantI S_ 1 1#1
  let main_v62 : IVec S_ 1 := (fun x v => Host.reduce IntOp.andi x v reducesTo_S768x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg7 : FVec F S256 .f32) (main_arg8 : FVec F S768x768 .f32) (main_arg9 : FVec F S768 .f32) (main_arg10 : FVec F S768x768 .f32) (main_arg11 : FVec F S768 .f32) (main_arg12 : FVec F S768x512 .f32) (main_arg13 : FVec F S512 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S768x768 .f32 := Host.absf main_arg8
  let main_cst_14 : FVec F S_ .f32 := constant S_ .f32 0x7F800000#32
  let main_v40 : FVec F S768x768 .f32 := broadcastInDim S768x768 ![] bcast_S_S768x768 main_cst_14
  let main_v41 : IVec S768x768 1 := cmpf .olt main_v39 main_v40
  let main_c_15 : IVec S_ 1 := constantI S_ 1 1#1
  let main_v42 : IVec S_ 1 := (fun x v => Host.reduce IntOp.andi x v reducesTo_S768x768_S_d0_1 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768x768 .f32 := Host.absf main_arg10
  let main_cst_18 : FVec F S_ .f32 := constant S_ .f32 0x7F800000#32
  let main_v50 : FVec F S768x768 .f32 := broadcastInDim S768x768 ![] bcast_S_S768x768 main_cst_18
  fn_part3 (F := F) main_arg11 main_arg12 main_arg13 main_v48 main_v49 main_v50

def fn_part1 {F : FTy → Type} [FloatOps F] (main_arg4 : FVec F S512x256 .f32) (main_arg5 : FVec F S256 .f32) (main_arg6 : FVec F S256x256 .f32) (main_arg7 : FVec F S256 .f32) (main_arg8 : FVec F S768x768 .f32) (main_arg9 : FVec F S768 .f32) (main_arg10 : FVec F S768x768 .f32) (main_arg11 : FVec F S768 .f32) (main_arg12 : FVec F S768x512 .f32) (main_arg13 : FVec F S512 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x512 .f32) (main_arg1 : FVec F S8192x512 .f32) (main_arg2 : FVec F S8192x8192 .f32) (main_arg3 : FVec F S8192x8192 .f32) (main_arg4 : FVec F S512x256 .f32) (main_arg5 : FVec F S256 .f32) (main_arg6 : FVec F S256x256 .f32) (main_arg7 : FVec F S256 .f32) (main_arg8 : FVec F S768x768 .f32) (main_arg9 : FVec F S768 .f32) (main_arg10 : FVec F S768x768 .f32) (main_arg11 : FVec F S768 .f32) (main_arg12 : FVec F S768x512 .f32) (main_arg13 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256 : Shape := ⟨1, ![256]⟩
abbrev S256x256 : Shape := ⟨2, ![256, 256]⟩
abbrev S768x768 : Shape := ⟨2, ![768, 768]⟩
abbrev S768 : Shape := ⟨1, ![768]⟩
abbrev S768x512 : Shape := ⟨2, ![768, 512]⟩
abbrev S512 : Shape := ⟨1, ![512]⟩
abbrev S8192x256 : Shape := ⟨2, ![8192, 256]⟩
abbrev S1024x512 : Shape := ⟨2, ![1024, 512]⟩
abbrev S1024x256 : Shape := ⟨2, ![1024, 256]⟩
abbrev S1x256 : Shape := ⟨2, ![1, 256]⟩
abbrev S2048x1024 : Shape := ⟨2, ![2048, 1024]⟩
abbrev S2048x256 : Shape := ⟨2, ![2048, 256]⟩
abbrev S256x768 : Shape := ⟨2, ![256, 768]⟩
abbrev S512x768 : Shape := ⟨2, ![512, 768]⟩
abbrev S1x768 : Shape := ⟨2, ![1, 768]⟩
abbrev S1x512 : Shape := ⟨2, ![1, 512]⟩
abbrev S512x512 : Shape := ⟨2, ![512, 512]⟩
abbrev S512x1 : Shape := ⟨2, ![512, 1]⟩

abbrev nBuf : Space → Nat
  | .hbm => 25
  | .vmem => 35
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .f32⟩
  | .hbm, ⟨3, _⟩ => ⟨S8192x8192, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S768x768, .f32⟩
  | .hbm, ⟨9, _⟩ => ⟨S768, .f32⟩
  | .hbm, ⟨10, _⟩ => ⟨S768x768, .f32⟩
  | .hbm, ⟨11, _⟩ => ⟨S768, .f32⟩
  | .hbm, ⟨12, _⟩ => ⟨S768x512, .f32⟩
  | .hbm, ⟨13, _⟩ => ⟨S512, .f32⟩
  | .hbm, ⟨14, _⟩ => ⟨S8192x256, .bf16⟩
  | .hbm, ⟨15, _⟩ => ⟨S1x256, .f32⟩
  | .hbm, ⟨16, _⟩ => ⟨S8192x256, .bf16⟩
  | .hbm, ⟨17, _⟩ => ⟨S1x256, .f32⟩
  | .hbm, ⟨18, _⟩ => ⟨S8192x256, .bf16⟩
  | .hbm, ⟨19, _⟩ => ⟨S256x768, .f32⟩
  | .hbm, ⟨20, _⟩ => ⟨S512x768, .f32⟩
  | .hbm, ⟨21, _⟩ => ⟨S1x768, .f32⟩
  | .hbm, ⟨22, _⟩ => ⟨S1x768, .f32⟩
  | .hbm, ⟨23, _⟩ => ⟨S1x512, .f32⟩
  | .hbm, ⟨24, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x256, .bf16⟩
  | .local _ .vmem, ⟨4, _⟩ => ⟨S1024x256, .bf16⟩
  | .local _ .vmem, ⟨5, _⟩ => ⟨S2048x1024, .f32⟩
  | .local _ .vmem, ⟨6, _⟩ => ⟨S2048x1024, .f32⟩
  | .local _ .vmem, ⟨7, _⟩ => ⟨S1024x256, .bf16⟩
  | .local _ .vmem, ⟨8, _⟩ => ⟨S1024x256, .bf16⟩
  | .local _ .vmem, ⟨9, _⟩ => ⟨S1x256, .f32⟩
  | .local _ .vmem, ⟨10, _⟩ => ⟨S256x256, .f32⟩
  | .local _ .vmem, ⟨11, _⟩ => ⟨S2048x256, .bf16⟩
  | .local _ .vmem, ⟨12, _⟩ => ⟨S2048x256, .bf16⟩
  | .local _ .vmem, ⟨13, _⟩ => ⟨S2048x256, .f32⟩
  | .local _ .vmem, ⟨14, _⟩ => ⟨S2048x1024, .f32⟩
  | .local _ .vmem, ⟨15, _⟩ => ⟨S2048x1024, .f32⟩
  | .local _ .vmem, ⟨16, _⟩ => ⟨S1024x256, .bf16⟩
  | .local _ .vmem, ⟨17, _⟩ => ⟨S1024x256, .bf16⟩
  | .local _ .vmem, ⟨18, _⟩ => ⟨S1x256, .f32⟩
  | .local _ .vmem, ⟨19, _⟩ => ⟨S2048x256, .bf16⟩
  | .local _ .vmem, ⟨20, _⟩ => ⟨S2048x256, .bf16⟩
  | .local _ .vmem, ⟨21, _⟩ => ⟨S2048x256, .f32⟩
  | .local _ .vmem, ⟨22, _⟩ => ⟨S512x256, .bf16⟩
  | .local _ .vmem, ⟨23, _⟩ => ⟨S512x256, .bf16⟩
  | .local _ .vmem, ⟨24, _⟩ => ⟨S512x512, .f32⟩
  | .local _ .vmem, ⟨25, _⟩ => ⟨S512x512, .f32⟩
  | .local _ .vmem, ⟨26, _⟩ => ⟨S256x768, .f32⟩
  | .local _ .vmem, ⟨27, _⟩ => ⟨S512x768, .f32⟩
  | .local _ .vmem, ⟨28, _⟩ => ⟨S1x768, .f32⟩
  | .local _ .vmem, ⟨29, _⟩ => ⟨S768x768, .f32⟩
  | .local _ .vmem, ⟨30, _⟩ => ⟨S1x768, .f32⟩
  | .local _ .vmem, ⟨31, _⟩ => ⟨S768x512, .f32⟩
  | .local _ .vmem, ⟨32, _⟩ => ⟨S1x512, .f32⟩
  | .local _ .vmem, ⟨33, _⟩ => ⟨S512x512, .f32⟩
  | .local _ .vmem, ⟨34, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg9_0 : Ref sig .tc := ⟨.vmem, 33, rfl⟩
abbrev cc3_stg9_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem8_0 : DmaSem sig := 30
abbrev cc3_sem9_0 : DmaSem sig := 31
abbrev cc3_sem9_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x768 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x768 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S768x768 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x768 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S768x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S512x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  packedbf16_S2048x256_S2048x256_0_0 : (Rect.unit (s := S2048x256) ![0, 0] S2048x256.size inb_S2048x256_S2048x256_0_0).PackedRows (EltTy.packing .bf16)
  slices_S768x768_S256x768_0_0 : S768x768.Slices ![0, 0] S256x768
  slices_S768x768_S512x768_256_0 : S768x768.Slices ![256, 0] S512x768
  shapeCasts_S768_S1x768 : S768.ShapeCasts S1x768
  shapeCasts_S512_S1x512 : S512.ShapeCasts S1x512
  shapeCasts_S512x256_S512x256 : S512x256.ShapeCasts S512x256
  inb_S512x512_S512x512_0_0 : ∀ a, (![0, 0] : Fin 2 → Nat) a + S512x512.size a ≤ S512x512.size a
  h_S512x512 : 0 < S512x512.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S768x768_S768x768_0_0 : ∀ a, (![0, 0] : Fin 2 → Nat) a + S768x768.size a ≤ S768x768.size a
  h_S768x768 : 0 < S768x768.numel
  inb_S768x512_S768x512_0_0 : ∀ a, (![0, 0] : Fin 2 → Nat) a + S768x512.size a ≤ S768x512.size a
  h_S768x512 : 0 < S768x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  dot_S1024x512_S512x256_S1024x256_1_0_0_1_n_n_wf : DotDims.WF S1024x512 S512x256 S1024x256 [1] [0] [0] [1] [] []
  dot_S2048x1024_S1024x256_S2048x256_1_0_0_1_n_n_wf : DotDims.WF S2048x1024 S1024x256 S2048x256 [1] [0] [0] [1] [] []
  dot_S2048x256_S256x256_S2048x256_1_0_0_1_n_n_wf : DotDims.WF S2048x256 S256x256 S2048x256 [1] [0] [0] [1] [] []
  dot_S512x256_S256x768_S512x768_1_0_0_1_n_n_wf : DotDims.WF S512x256 S256x768 S512x768 [1] [0] [0] [1] [] []
  dot_S512x512_S512x768_S512x768_1_0_0_1_n_n_wf : DotDims.WF S512x512 S512x768 S512x768 [1] [0] [0] [1] [] []
  dot_S512x768_S768x768_S512x768_1_0_0_1_n_n_wf : DotDims.WF S512x768 S768x768 S512x768 [1] [0] [0] [1] [] []
  dot_S512x768_S768x512_S512x512_1_0_0_1_n_n_wf : DotDims.WF S512x768 S768x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .bf16 = 32 ∨ (Rect.block (s := S8192x256) S1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S8192x256.size a
  hwx1_4 : ∀ i : grid1.Coords, EltTy.bits .bf16 = 32 ∨ (Rect.block (s := S8192x256) S2048x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .f32 = 32 ∨ (Rect.block (s := S8192x8192) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .bf16 = 32 ∨ (Rect.block (s := S8192x256) S1024x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S8192x256.size a
  hwx2_3 : ∀ i : grid2.Coords, EltTy.bits .bf16 = 32 ∨ (Rect.block (s := S8192x256) S2048x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S8192x256.size a
  hwx3_0 : ∀ i : grid3.Coords, EltTy.bits .bf16 = 32 ∨ (Rect.block (s := S8192x256) S512x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S8192x512.size a
  hwx3_1 : ∀ i : grid3.Coords, EltTy.bits .f32 = 32 ∨ (Rect.block (s := S8192x512) S512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x768.size a ≤ S256x768.size a
  hwx3_2 : ∀ i : grid3.Coords, EltTy.bits .f32 = 32 ∨ (Rect.block (s := S256x768) S256x768.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x768.size a ≤ S512x768.size a
  hwx3_3 : ∀ i : grid3.Coords, EltTy.bits .f32 = 32 ∨ (Rect.block (s := S512x768) S512x768.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x768.size a ≤ S1x768.size a
  hwx3_4 : ∀ i : grid3.Coords, EltTy.bits .f32 = 32 ∨ (Rect.block (s := S1x768) S1x768.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S768x768.size a ≤ S768x768.size a
  hwx3_5 : ∀ i : grid3.Coords, EltTy.bits .f32 = 32 ∨ (Rect.block (s := S768x768) S768x768.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x768.size a ≤ S1x768.size a
  hwx3_6 : ∀ i : grid3.Coords, EltTy.bits .f32 = 32 ∨ (Rect.block (s := S1x768) S1x768.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S768x512.size a ≤ S768x512.size a
  hwx3_7 : ∀ i : grid3.Coords, EltTy.bits .f32 = 32 ∨ (Rect.block (s := S768x512) S768x512.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x512.size a ≤ S1x512.size a
  hwx3_8 : ∀ i : grid3.Coords, EltTy.bits .f32 = 32 ∨ (Rect.block (s := S1x512) S1x512.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S512x512.size a ≤ S8192x512.size a
  hwx3_9 : ∀ i : grid3.Coords, EltTy.bits .f32 = 32 ∨ (Rect.block (s := S8192x512) S512x512.size (cc3_transform_9 i) (hinb3_9 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg3) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v4) S512x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S512x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S256x768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S512x768.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v7) S1x768.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S768x768.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v8) S1x768.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg12) S768x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v9) S1x512.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v10) S512x512.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256 : Shape := ⟨1, ![256]⟩
abbrev S256x256 : Shape := ⟨2, ![256, 256]⟩
abbrev S768x768 : Shape := ⟨2, ![768, 768]⟩
abbrev S768 : Shape := ⟨1, ![768]⟩
abbrev S768x512 : Shape := ⟨2, ![768, 512]⟩
abbrev S512 : Shape := ⟨1, ![512]⟩
abbrev S8192x256 : Shape := ⟨2, ![8192, 256]⟩
abbrev S1x256 : Shape := ⟨2, ![1, 256]⟩
abbrev S_ : Shape := ⟨0, ![]⟩
abbrev S8192x768 : Shape := ⟨2, ![8192, 768]⟩
abbrev S1x768 : Shape := ⟨2, ![1, 768]⟩
abbrev S1x512 : Shape := ⟨2, ![1, 512]⟩
abbrev S8192 : Shape := ⟨1, ![8192]⟩
abbrev S8192x1 : Shape := ⟨2, ![8192, 1]⟩

abbrev nBuf : Space → Nat
  | .hbm => 61
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .f32⟩
  | .hbm, ⟨3, _⟩ => ⟨S8192x8192, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S768x768, .f32⟩
  | .hbm, ⟨9, _⟩ => ⟨S768, .f32⟩
  | .hbm, ⟨10, _⟩ => ⟨S768x768, .f32⟩
  | .hbm, ⟨11, _⟩ => ⟨S768, .f32⟩
  | .hbm, ⟨12, _⟩ => ⟨S768x512, .f32⟩
  | .hbm, ⟨13, _⟩ => ⟨S512, .f32⟩
  | .hbm, ⟨14, _⟩ => ⟨S8192x256, .f32⟩
  | .hbm, ⟨15, _⟩ => ⟨S8192x256, .f32⟩
  | .hbm, ⟨16, _⟩ => ⟨S1x256, .f32⟩
  | .hbm, ⟨17, _⟩ => ⟨S8192x256, .f32⟩
  | .hbm, ⟨18, _⟩ => ⟨S8192x256, .f32⟩
  | .hbm, ⟨19, _⟩ => ⟨S_, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S1x256, .f32⟩
  | .hbm, ⟨25, _⟩ => ⟨S8192x256, .f32⟩
  | .hbm, ⟨26, _⟩ => ⟨S8192x256, .f32⟩
  | .hbm, ⟨27, _⟩ => ⟨S8192x768, .f32⟩
  | .hbm, ⟨28, _⟩ => ⟨S8192x768, .f32⟩
  | .hbm, ⟨29, _⟩ => ⟨S1x768, .f32⟩
  | .hbm, ⟨30, _⟩ => ⟨S8192x768, .f32⟩
  | .hbm, ⟨31, _⟩ => ⟨S8192x768, .f32⟩
  | .hbm, ⟨32, _⟩ => ⟨S_, .f32⟩
  | .hbm, ⟨33, _⟩ => ⟨S8192x768, .f32⟩
  | .hbm, ⟨34, _⟩ => ⟨S8192x768, .f32⟩
  | .hbm, ⟨35, _⟩ => ⟨S8192x768, .f32⟩
  | .hbm, ⟨36, _⟩ => ⟨S1x768, .f32⟩
  | .hbm, ⟨37, _⟩ => ⟨S8192x768, .f32⟩
  | .hbm, ⟨38, _⟩ => ⟨S8192x768, .f32⟩
  | .hbm, ⟨39, _⟩ => ⟨S_, .f32⟩
  | .hbm, ⟨40, _⟩ => ⟨S8192x768, .f32⟩
  | .hbm, ⟨41, _⟩ => ⟨S8192x768, .f32⟩
  | .hbm, ⟨42, _⟩ => ⟨S8192x512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1, .f32⟩
  | .hbm, ⟨59, _⟩ => ⟨S8192x512, .f32⟩
  | .hbm, ⟨60, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_cst : Ref sig .tc := ⟨.hbm, 32, rfl⟩
abbrev main_call1_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call2_cst : Ref sig .tc := ⟨.hbm, 39, rfl⟩
abbrev main_call2_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call3_cst : Ref sig .tc := ⟨.hbm, 46, rfl⟩
abbrev main_call3_v0 : Ref sig .tc := ⟨.hbm, 47, rfl⟩
abbrev main_call3_cst_0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_v6 : Ref sig .tc := ⟨.hbm, 54, rfl⟩
abbrev main_call3_cst_1 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_v26 : Ref sig .tc := ⟨.hbm, 60, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  concatenates_S8192x256_S8192x512_S8192x768_d1 : Shape.Concatenates [S8192x256, S8192x512] S8192x768 1
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  bcast_S_S8192x768 : S_.BroadcastsInDim S8192x768 (![] : Fin 0 → Fin S8192x768.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S8192_d1 : S8192x512.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []
  dot_S8192x768_S768x768_S8192x768_1_0_0_1_n_n_wf : DotDims.WF S8192x768 S768x768 S8192x768 [1] [0] [0] [1] [] []
  dot_S8192x768_S768x512_S8192x512_1_0_0_1_n_n_wf : DotDims.WF S8192x768 S768x512 S8192x512 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x768_S768x768_S8192x768_1_0_0_1_n_n : DotDims S8192x768 S768x768 S8192x768 where
  lhsContracting := [1]
  rhsContracting := [0]
  lhsNonContracting := [0]
  rhsNonContracting := [1]
  lhsBatch := []
  rhsBatch := []
  wf := dot_S8192x768_S768x768_S8192x768_1_0_0_1_n_n_wf
def dot_S8192x768_S768x512_S8192x512_1_0_0_1_n_n : DotDims S8192x768 S768x512 S8192x512 where
  lhsContracting := [1]
  rhsContracting := [0]
  lhsNonContracting := [0]
  rhsNonContracting := [1]
  lhsBatch := []
  rhsBatch := []
  wf := dot_S8192x768_S768x512_S8192x512_1_0_0_1_n_n_wf

class Facts : Prop extends Facts₀ where

variable [Facts]
-- ==== Proof.Kernel.Region0.lean ====
/-
  The first product, T0 = X·W1, one block of 1024 rows at a grid point.

  At point t the body reads the t-th block of 1024 rows of X and the whole of W1, and writes their product (rounded
  to the narrower float format, which at the exact values is the identity) over its output block, having read that
  block once first. What the output block holds afterwards is therefore a function of the two input blocks alone; the
  inputs are left as found, and nothing else is touched.
-/
import proofs.«130687_j53085795778708_2_alg».proof.Proof.Gen.Kernel.Launch
import proofs.«130687_j53085795778708_2_alg».proof.Proof.Gen.Kernel.Skeleton
import proofs.«130687_j53085795778708_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of X: the buffer holds the point's block whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W1, fetched once: the buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S1024x512 := Rect.unit (s := S1024x512) ![0, 0] S1024x512.size inb_S1024x512_S1024x512_0_0
abbrev r0_w : Rect S512x256 := Rect.unit (s := S512x256) ![0, 0] S512x256.size inb_S512x256_S512x256_0_0
abbrev r0_o : Rect S1024x256 := Rect.unit (s := S1024x256) ![0, 0] S1024x256.size inb_S1024x256_S1024x256_0_0

/-- The output block after the body: its one store, of the product of the two input blocks. -/
def out0_2 (x0 : Vec F S1024x512 .f32) (x1 : Vec F S512x256 .f32) : Vec F S1024x256 .bf16 :=
  View.canon [⟨r0_o, k0_pay1 (View.ld x0 r0_x) (View.ld x1 r0_w)⟩]

/-- The one store covers the block. -/
theorem cover0_2 (p0 : Vec F S1024x256 .bf16) (y : S1024x256.Idx) :
    ∃ pc ∈ ([⟨r0_o, p0⟩] : List (View.Piece (Elt F) S1024x256 .bf16)), y ∈ pc.1.set :=
  View.cover_of_tiled [⟨r0_o, p0⟩] S1024x256.size (by rfl) y

/-! ## The body's triple -/

set_option maxHeartbeats 1000000 in
/-- The body on whole buffers: the inputs at x0, x1 and the output at anything run to the inputs as they were and the
    output at the product block. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1024x256 .bf16) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The arrays as the region finds them; after the body each input's buffer at its block and the output's at the
    product block; the invariant is the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.Kernel.Hand

end
-- ==== Proof.Kernel.Region1.lean ====
/-
  The second pallas_call of the program: a K-blocked matrix product with an epilogue, on a grid of 4 × 8 points
  (point t = 8·i + k, the column-block coordinate k running fastest).

  At every point the body adds the product of the current 2048 × 1024 block of the left operand and the current
  1024 × 256 block of the right operand into a 2048 × 256 accumulator kept in a scratch buffer that lives across
  points. Where k = 0 the accumulator is first set to zero; where k = 7 the body afterwards stores into the output
  block the epilogue  relu(acc + bias row) · W2.  Elsewhere the output's staging buffer is left as it was found and is
  not written back.

  So there are three control cases (k = 0; 0 < k < 7; k = 7). What the accumulator holds after point n is a recursion
  on n: the product added to zero where n ≡ 0 (mod 8), to what the point before left otherwise. The region invariant
  after the first point is the scratch buffer at that named value, beside the other scoped buffers (unopened) and
  the generator register.
-/
import proofs.«130687_j53085795778708_2_alg».proof.Proof.Gen.Kernel.Launch
import proofs.«130687_j53085795778708_2_alg».proof.Proof.Gen.Kernel.Skeleton
import proofs.«130687_j53085795778708_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two conditions of the body, in closed form over the grid -/

/-- The first conditional's guard: the column-block coordinate is 0. -/
abbrev isFirst1 (i : grid1.Coords) : Prop :=
  (Scalar.cmpi .ne (Scalar.extui (Scalar.cmpi .eq (BitVec.ofNat 32 (i 1).val) 0#32)) 0#32) = 1#1
/-- It holds at the points ≡ 0 (mod 8). -/
theorem isFirst1_iff : ∀ t : Fin cfg1.N, isFirst1 (grid1.coords t) ↔ t.val % 8 = 0 :=
  (by decide +kernel : ∀ t : Fin grid1.N, isFirst1 (grid1.coords t) ↔ t.val % 8 = 0)

/-- The second conditional's guard: the column-block coordinate is 7. -/
abbrev isLast1 (i : grid1.Coords) : Prop := k1_cond2 i = 1#1
/-- It holds at the points ≡ 7 (mod 8). -/
theorem isLast1_iff : ∀ t : Fin cfg1.N, isLast1 (grid1.coords t) ↔ t.val % 8 = 7 :=
  (by decide +kernel : ∀ t : Fin grid1.N, isLast1 (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- Away from k = 7 the output window is idle: nothing is stored into it, -/
theorem idle1_4 : ∀ t : Fin cfg1.N, ¬ t.val % 8 = 7 → cfg1.idle 4 (grid1.coords t) = true := by decide +kernel
/-- and its block is not written back. -/
theorem noFlush1_4 : ∀ t : Fin cfg1.N, ¬ t.val % 8 = 7 → (cfg1.win 4).flush t = false := by decide +kernel
/-- At k = 7 it is live. -/
theorem live1_4 : ∀ t : Fin cfg1.N, t.val % 8 = 7 → cfg1.idle 4 (grid1.coords t) = false := by decide +kernel

/-! ## The accumulator, point by point -/

/-- The scratch accumulator, whole. -/
abbrev scM1 : Memref sig .tc .vmem S2048x256 .f32 := Memref.whole cc1_scratch0

/-- What the accumulator holds after the body at position n: the product of the point's two blocks added to zero
    where n ≡ 0 (mod 8), to what the point before left otherwise. -/
def acc1 (c : Dev nD) : (n : ℕ) → n < cfg1.N → Vec F S2048x256 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At a point with k = 0 the accumulator restarts from zero. -/
theorem acc1_first (c : Dev nD) (t : Fin cfg1.N) (h0 : t.val % 8 = 0) :
    acc1 V c t.val t.isLt = k1_pay2 (iblk1 V c 0 t) (iblk1 V c 1 t) (k1_pay1 (F := F)) := by
  obtain ⟨n, hn⟩ := t
  cases n with
  | zero => rfl
  | succ n => exact (if_pos h0).trans rfl

/-- At a point with k ≠ 0 it adds to what the point before left. -/
theorem acc1_next (c : Dev nD) (t : Fin cfg1.N) (h0 : ¬ t.val % 8 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The output block the epilogue stores, from the accumulator after the point and the point's bias row and weights. -/
def out1_4 (c : Dev nD) (t : Fin cfg1.N) : Vec F S2048x256 .bf16 :=
  k1_pay3 (acc1 V c t.val t.isLt) (iblk1 V c 2 t) (iblk1 V c 3 t)

/-! ## The region invariant -/

/-- The launch's invariant with the scratch accumulator split off the other scoped buffers. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

/-- Before position n: at the first point what the launch hands over; afterwards the accumulator at what the point
    before left, the other scoped buffers and the generator register as they come. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0])
      ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-! ## The proof data -/

/-- The proof data of the pipeline on core c: the arrays as the region finds them; after the body each input's
    buffer at its block and the output's at the epilogue of the accumulator; the invariant above; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-! ## The body, case by case -/

/-- The offsets of every load and store of the body are zero. -/
theorem zero_off1 : (![0, 0] : Fin 2 → Nat) = fun _ => 0 := funext fun a => by fin_cases a <;> rfl

set_option maxHeartbeats 1000000 in
/-- The body where k = 0 (and k ≠ 7): on whole memrefs, the inputs at their contents, the output's buffer at any contents
    (handed back untouched), the accumulator at anything, it runs to the continuation holding the inputs and the output's
    buffer as they were and the accumulator at the product of the two blocks added to zero: the zero store is shadowed by
    the accumulating store, and the reload between them reads the zeros. -/
theorem run1_first (c : Dev nD) (i : grid1.Coords)
    (arg2 : Memref sig .tc .vmem S2048x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S256x256 .f32) (harg5 : arg5.IsWhole)
    (arg6 : Memref sig .tc .vmem S2048x256 .bf16) (harg6 : arg6.IsWhole) (arg7 : Memref sig .tc .vmem S2048x256 .f32) (harg7 : arg7.IsWhole)
    (hc0 : isFirst1 i) (hc1 : ¬ isLast1 i) (x0 : Vec F S2048x1024 .f32) (x1 : Vec F S1024x256 .bf16) (x2 : Vec F S1x256 .f32) (x3 : Vec F S256x256 .f32)
    (xi : Vec F S2048x256 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
            ∗ owns (c : Thread nD τ) arg7 fullShare (k1_pay2 x0 x1 (k1_pay1 (F := F)))) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  rw [View.read_writes_eq_canon _ _ _ (fun y => ⟨_, List.mem_cons_self, View.mem_set_unit_zero zero_off1 inb_S2048x256_S2048x256_0_0 y⟩),
    View.canon_cons_unit_zero zero_off1]
  sl_unfold_run_names
  rw [View.readCov_unit_zero _ zero_off1, View.readAt_eq_ld, View.readAt_eq_ld, hf0, hf1,
    View.ld_unit_zero zero_off1, View.ld_unit_zero zero_off1]

set_option maxHeartbeats 1000000 in
/-- The body where 0 < k < 7: the same, the accumulator coming in at what the point before left and going out at the
    product added to it; the output's buffer is handed back untouched. -/
theorem run1_mid (c : Dev nD) (i : grid1.Coords)
    (arg2 : Memref sig .tc .vmem S2048x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S256x256 .f32) (harg5 : arg5.IsWhole)
    (arg6 : Memref sig .tc .vmem S2048x256 .bf16) (harg6 : arg6.IsWhole) (arg7 : Memref sig .tc .vmem S2048x256 .f32) (harg7 : arg7.IsWhole)
    (hc0 : ¬ isFirst1 i) (hc1 : ¬ isLast1 i) (x0 : Vec F S2048x1024 .f32) (x1 : Vec F S1024x256 .bf16) (x2 : Vec F S1x256 .f32) (x3 : Vec F S256x256 .f32)
    (xi : Vec F S2048x256 .bf16) (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
            ∗ owns (c : Thread nD τ) arg7 fullShare (k1_pay2 x0 x1 xs)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  rw [View.read_writes_eq_canon _ _ _ (fun y => ⟨_, List.mem_cons_self, View.mem_set_unit_zero zero_off1 inb_S2048x256_S2048x256_0_0 y⟩),
    View.canon_cons_unit_zero zero_off1]
  sl_unfold_run_names
  rw [View.readAt_eq_ld, View.readAt_eq_ld, View.readAt_eq_ld, hf0, hf1, hfs,
    View.ld_unit_zero zero_off1, View.ld_unit_zero zero_off1, View.ld_unit_zero zero_off1]

set_option maxHeartbeats 1000000 in
/-- The body where k = 7 (and k ≠ 0): the accumulator as in the case before; then the epilogue reloads it (reading what
    was just stored), loads the bias row and the weights, and stores its result over the output's buffer, whatever that
    held. -/
theorem run1_last (c : Dev nD) (i : grid1.Coords)
    (arg2 : Memref sig .tc .vmem S2048x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S256x256 .f32) (harg5 : arg5.IsWhole)
    (arg6 : Memref sig .tc .vmem S2048x256 .bf16) (harg6 : arg6.IsWhole) (arg7 : Memref sig .tc .vmem S2048x256 .f32) (harg7 : arg7.IsWhole)
    (hc0 : ¬ isFirst1 i) (hc1 : isLast1 i) (x0 : Vec F S2048x1024 .f32) (x1 : Vec F S1024x256 .bf16) (x2 : Vec F S1x256 .f32) (x3 : Vec F S256x256 .f32)
    (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k1_pay3 (k1_pay2 x0 x1 xs) x2 x3)
            ∗ owns (c : Thread nD τ) arg7 fullShare (k1_pay2 x0 x1 xs)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    rw [View.read_writes_eq_canon _ _ _ (fun y => ⟨_, List.mem_cons_self, View.mem_set_unit_zero zero_off1 inb_S2048x256_S2048x256_0_0 y⟩),
    View.canon_cons_unit_zero zero_off1]
    rw [View.readCov_unit_zero _ zero_off1, View.readAt_eq_ld, View.readAt_eq_ld, View.readAt_eq_ld, View.readAt_eq_ld,
      View.readAt_eq_ld, hf0, hf1, hfs, hf2, hf3,
      View.ld_unit_zero zero_off1, View.ld_unit_zero zero_off1, View.ld_unit_zero zero_off1, View.ld_unit_zero zero_off1,
      View.ld_unit_zero zero_off1]
  iexists _; isplitr
  swap; · iexact HS
  ipureintro
  sl_unfold_run_names
  rw [View.read_writes_eq_canon _ _ _ (fun y => ⟨_, List.mem_cons_self, View.mem_set_unit_zero zero_off1 inb_S2048x256_S2048x256_0_0 y⟩),
    View.canon_cons_unit_zero zero_off1]
  rw [View.readAt_eq_ld, View.readAt_eq_ld, View.readAt_eq_ld, hf0, hf1, hfs,
    View.ld_unit_zero zero_off1, View.ld_unit_zero zero_off1, View.ld_unit_zero zero_off1]

/-! ## The body obligation -/

/-- Each window's current staging memref at point t, spelled as the pipeline passes it, and its wholeness. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x256 .bf16 := win1_4.stage (cfg1.slots t 4)
abbrev hs1_4 (t : Fin cfg1.N) : (ms1_4 t).IsWhole := hstage1_4 ((cfg1.slots t 4).cast nbuf1_4)

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 V c t := by dsimp only [dat1]

/-- Each input's current staging buffer holds its block at every point, fetched there or not: unfetched, the block
    index has not moved, and the body leaves every input in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the position mod 8 says which case the point is in;
    the invariant hands the body the accumulator at what the point before left (at anything at the very first point)
    and takes it back at this point's value, the other scoped buffers and the generator register passing through;
    away from k = 7 the output's buffer goes back as it came, at k = 7 it holds the epilogue of the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  by_cases h0 : t.val % 8 = 0
  · have h1 : ¬ t.val % 8 = 7 := by omega
    rw [Dat.leavesExact_idle (dat1 V c) 4 t (idle1_4 t h1) (noFlush1_4 t h1)]
    rw [acc1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply (run1_first c (grid1.coords t) (ms1_0 t) (hs1_0 t) (ms1_1 t) (hs1_1 t) (ms1_2 t) (hs1_2 t) (ms1_3 t) (hs1_3 t) (ms1_4 t) (hs1_4 t) scM1 (Memref.isWhole_whole _)
        ((isFirst1_iff t).mpr h0) (fun h => h1 ((isLast1_iff t).mp h)) (iblk1 V c 0 t) (iblk1 V c 1 t) (iblk1 V c 2 t) (iblk1 V c 3 t) ((dat1 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run1_first c (grid1.coords t) (ms1_0 t) (hs1_0 t) (ms1_1 t) (hs1_1 t) (ms1_2 t) (hs1_2 t) (ms1_3 t) (hs1_3 t) (ms1_4 t) (hs1_4 t) scM1 (Memref.isWhole_whole _)
        ((isFirst1_iff t).mpr h0) (fun h => h1 ((isLast1_iff t).mp h)) (iblk1 V c 0 t) (iblk1 V c 1 t) (iblk1 V c 2 t) (iblk1 V c 3 t) ((dat1 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [acc1_next V c t h0]
    rw [PhiS1_castSucc V c t, PhiS1_pos V c _ _ hz]
    by_cases h1 : t.val % 8 = 7
    · rw [show (dat1 V c).leavesExact 4 t = owns (c : Thread nD τ) (ms1_4 t) fullShare ((dat1 V c).after 4 t) from by
        unfold Dat.leavesExact; rw [live1_4 t h1], after1_4]
      unfold out1_4
      rw [acc1_next V c t h0]
      iintro ⟨⟨⟨HS, HR⟩, Hg⟩, Ho, ⟨%d0, H0⟩, ⟨%d1, H1⟩, ⟨%d2, H2⟩, ⟨%d3, H3⟩, ⟨%d4, H4⟩⟩
      iapply (run1_last c (grid1.coords t) (ms1_0 t) (hs1_0 t) (ms1_1 t) (hs1_1 t) (ms1_2 t) (hs1_2 t) (ms1_3 t) (hs1_3 t) (ms1_4 t) (hs1_4 t) scM1 (Memref.isWhole_whole _)
        (fun h => h0 ((isFirst1_iff t).mp h)) ((isLast1_iff t).mpr h1) (iblk1 V c 0 t) (iblk1 V c 1 t) (iblk1 V c 2 t) (iblk1 V c 3 t)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idle1_4 t h1) (noFlush1_4 t h1)]
      iintro ⟨⟨⟨HS, HR⟩, Hg⟩, Ho, ⟨%d0, H0⟩, ⟨%d1, H1⟩, ⟨%d2, H2⟩, ⟨%d3, H3⟩, ⟨%d4, H4⟩⟩
      iapply (run1_mid c (grid1.coords t) (ms1_0 t) (hs1_0 t) (ms1_1 t) (hs1_1 t) (ms1_2 t) (hs1_2 t) (ms1_3 t) (hs1_3 t) (ms1_4 t) (hs1_4 t) scM1 (Memref.isWhole_whole _)
        (fun h => h0 ((isFirst1_iff t).mp h)) (fun h => h1 ((isLast1_iff t).mp h)) (iblk1 V c 0 t) (iblk1 V c 1 t) (iblk1 V c 2 t) (iblk1 V c 3 t) ((dat1 V c).before 4 t d4)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.LibReadBack.lean ====
/-
  Reading a buffer back after stores that covered it. A list of stores is kept last first; when the LAST store wrote
  the whole buffer (the rectangle of the buffer's own extents at zero offsets), a load of the whole buffer reads that
  store's payload, whatever the earlier stores were: every index lies in the last store's rectangle, so the earlier
  ones are shadowed everywhere. This is the accumulator pattern "zero the buffer, add into it, read it again".
-/
import Idealize.ShloMosaic.Lib.Pipeline.Value

noncomputable section

namespace Idealize.ShloMosaic.View

variable {Val : EltTy → Type} {S : Shape} {e : EltTy}

/-- A load of the whole buffer after a list of stores whose last one wrote the whole buffer reads that store's
    payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.Kernel.Region2.lean ====
/-
  Region 2 of the program: the second neighbourhood aggregation, H2 = A1 · T1 + b2, computed block by block on a
  grid of 4 × 8 points. Point (i, k) multiplies block (i, k) of A1 (2048 × 1024) with row block k of T1
  (1024 × 256) and adds the product into an accumulator (2048 × 256) that lives in a scratch buffer carried from
  point to point: the accumulator is zeroed at k = 0, and at k = 7 the bias row is added to it and the sum is
  stored as row block i of the result. So there are three control cases — k = 0, 0 < k < 7, k = 7 — and the
  result's window is left untouched (and not written back) at every point with k ≠ 7.
  Everything here is generic in the float instance.
-/
import proofs.«130687_j53085795778708_2_alg».proof.Proof.Gen.Kernel.Launch
import proofs.«130687_j53085795778708_2_alg».proof.Proof.Gen.Kernel.Skeleton
import proofs.«130687_j53085795778708_2_alg».proof.Proof.Gen.Kernel.Points
import proofs.«130687_j53085795778708_2_alg».proof.Proof.LibReadBack
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the point fetched it or not
    (an unfetched block has not moved): the A1 block, -/
theorem found2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- the T1 row block, -/
theorem found2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- and the bias row. -/
theorem found2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions on the column coordinate -/

/-- "k = 0", as the body computes it from the point's coordinates: the accumulator is zeroed. -/
abbrev atFirstCol2 (i : grid2.Coords) : Prop :=
  (Scalar.cmpi .ne (Scalar.extui (Scalar.cmpi .eq (BitVec.ofNat 32 (i 1).val) 0#32)) 0#32) = 1#1
/-- Point t = 8·i + k has k = 0 iff t ≡ 0 (mod 8). -/
theorem atFirstCol2_iff : ∀ t : Fin cfg2.N, atFirstCol2 (grid2.coords t) ↔ t.val % 8 = 0 :=
  (by decide +kernel : ∀ t : Fin grid2.N, atFirstCol2 (grid2.coords t) ↔ t.val % 8 = 0)

/-- "k = 7": the row block is finished and stored. -/
abbrev atLastCol2 (i : grid2.Coords) : Prop := k2_cond2 i = 1#1
/-- Point t = 8·i + k has k = 7 iff t ≡ 7 (mod 8). -/
theorem atLastCol2_iff : ∀ t : Fin cfg2.N, atLastCol2 (grid2.coords t) ↔ t.val % 8 = 7 :=
  (by decide +kernel : ∀ t : Fin grid2.N, atLastCol2 (grid2.coords t) ↔ t.val % 8 = 7)

/-! ## Where the windows are idle -/

theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl
/-- The result's window is idle away from k = 7: nothing is stored into it there, -/
theorem idle2_3 : ∀ t : Fin cfg2.N, ¬atLastCol2 (grid2.coords t) → cfg2.idle 3 (grid2.coords t) = true := by decide +kernel
/-- and it is not written back there; -/
theorem noFlush2_3 : ∀ t : Fin cfg2.N, ¬atLastCol2 (grid2.coords t) → (cfg2.win 3).flush t = false := by decide +kernel
/-- at k = 7 it is live. -/
theorem live2_3 : ∀ t : Fin cfg2.N, atLastCol2 (grid2.coords t) → cfg2.idle 3 (grid2.coords t) = false := by decide +kernel

/-! ## The accumulator -/

/-- The scratch buffer that carries the accumulator from point to point. -/
abbrev acc2M : Memref sig .tc .vmem S2048x256 .f32 := Memref.whole cc2_scratch0

/-- THE ACCUMULATION. The accumulator after the body at position `n` (point n = 8·i + k): at k = 0 the product of
    this point's blocks added to the zero block; otherwise added to what the point before left. -/
def acc2 (c : Dev nD) : (n : ℕ) → n < cfg2.N → Vec F S2048x256 .f32
  | 0, hn => Gen.k2_pay2 (iblk2 V c 0 ⟨0, hn⟩) (iblk2 V c 1 ⟨0, hn⟩) (Gen.k2_pay1 (F := F))
  | n + 1, hn =>
    if (n + 1) % 8 = 0 then Gen.k2_pay2 (iblk2 V c 0 ⟨n + 1, hn⟩) (iblk2 V c 1 ⟨n + 1, hn⟩) (Gen.k2_pay1 (F := F))
    else Gen.k2_pay2 (iblk2 V c 0 ⟨n + 1, hn⟩) (iblk2 V c 1 ⟨n + 1, hn⟩) (acc2 c n (Nat.lt_of_succ_lt hn))

/-- At a point with k = 0 the accumulator restarts from zero. -/
theorem acc2_restart (c : Dev nD) (t : Fin cfg2.N) (h : t.val % 8 = 0) :
    acc2 V c t.val t.isLt = Gen.k2_pay2 (iblk2 V c 0 t) (iblk2 V c 1 t) (Gen.k2_pay1 (F := F)) := by
  obtain ⟨n, hn⟩ := t
  cases n with
  | zero => rfl
  | succ n => exact if_pos h

/-- At a point with k ≠ 0 it continues from the point before. -/
theorem acc2_continue (c : Dev nD) (t : Fin cfg2.N) (h : ¬t.val % 8 = 0) :
    acc2 V c t.val t.isLt = Gen.k2_pay2 (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h
  | succ n => exact if_neg h

/-! ## The body's triple, case by case -/

/-- The zero offsets of a whole-buffer access, however spelt. -/
theorem zeroOff2 : (![0, 0] : Fin 2 → Nat) = fun _ => 0 := funext fun a => by fin_cases a <;> rfl

/-- After stores the last of which wrote the whole buffer, the buffer holds that store's value. -/
theorem read_afterWholeStore2 {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A load of a whole buffer reads the buffer's contents. -/
theorem readAt_whole2 {sp : Space} {S : Shape} {e : EltTy} (v : View sig .tc sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

/-- k = 0: the accumulator is zeroed and this point's product added; the result's buffer is handed back as found. -/
theorem kernel2_first (c : Dev nD) (E : Set ℕ) (i : grid2.Coords)
    (arg2 : Memref sig .tc .vmem S2048x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S2048x256 .bf16) (harg5 : arg5.IsWhole)
    (arg6 : Memref sig .tc .vmem S2048x256 .f32) (harg6 : arg6.IsWhole) (h1 : atFirstCol2 i) (h2 : ¬atLastCol2 i)
    (x0 : Vec F S2048x1024 .f32) (x1 : Vec F S1024x256 .bf16) (x2 : Vec F S1x256 .f32) (x3 : Vec F S2048x256 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (Gen.k2_pay2 x0 x1 (Gen.k2_pay1 (F := F)))) -∗ K ⟨⟩))
      ⊢ wp frame (wpE (defs₀ (F := F)) Variants.none c none) E (cc2_kernel i arg2 harg2 arg3 harg3 arg4 harg4 arg5 harg5 arg6 harg6) K := by
  simp only [Gen.cc2_kernel_eq_skeleton]; unfold Gen.cc2_kernel_skel
  unfold owns
  iintro ⟨⟨%f0, %hf0, H0⟩, ⟨%f1, %hf1, H1⟩, ⟨%f2, %hf2, H2⟩, ⟨%f3, %hf3, H3⟩, ⟨%da, %fa, -, HA⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HA
  ipureintro
  sl_unfold_run_names
  rw [read_afterWholeStore2 arg6.view fa zeroOff2, View.readCov_unit_zero arg6.view zeroOff2,
    readAt_whole2 arg2.view f0 zeroOff2, readAt_whole2 arg3.view f1 zeroOff2]

/-- 0 < k < 7: this point's product is added to the accumulator; the result's buffer is handed back as found. -/
theorem kernel2_middle (c : Dev nD) (E : Set ℕ) (i : grid2.Coords)
    (arg2 : Memref sig .tc .vmem S2048x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S2048x256 .bf16) (harg5 : arg5.IsWhole)
    (arg6 : Memref sig .tc .vmem S2048x256 .f32) (harg6 : arg6.IsWhole) (h1 : ¬atFirstCol2 i) (h2 : ¬atLastCol2 i)
    (x0 : Vec F S2048x1024 .f32) (x1 : Vec F S1024x256 .bf16) (x2 : Vec F S1x256 .f32) (x3 : Vec F S2048x256 .bf16)
    (xa : Vec F S2048x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xa
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (Gen.k2_pay2 x0 x1 xa)) -∗ K ⟨⟩))
      ⊢ wp frame (wpE (defs₀ (F := F)) Variants.none c none) E (cc2_kernel i arg2 harg2 arg3 harg3 arg4 harg4 arg5 harg5 arg6 harg6) K := by
  simp only [Gen.cc2_kernel_eq_skeleton]; unfold Gen.cc2_kernel_skel
  unfold owns
  iintro ⟨⟨%f0, %hf0, H0⟩, ⟨%f1, %hf1, H1⟩, ⟨%f2, %hf2, H2⟩, ⟨%f3, %hf3, H3⟩, ⟨%fa, %hfa, HA⟩, Hk⟩
  subst hf0; subst hf1; subst hf2; subst hf3; subst hfa
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HA
  ipureintro
  rw [read_afterWholeStore2 arg6.view fa zeroOff2,
    readAt_whole2 arg2.view f0 zeroOff2, readAt_whole2 arg3.view f1 zeroOff2, readAt_whole2 arg6.view fa zeroOff2]

/-- k = 7: this point's product is added to the accumulator, and the accumulator plus the bias row is stored into
    the result's buffer. -/
theorem kernel2_last (c : Dev nD) (E : Set ℕ) (i : grid2.Coords)
    (arg2 : Memref sig .tc .vmem S2048x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S2048x256 .bf16) (harg5 : arg5.IsWhole)
    (arg6 : Memref sig .tc .vmem S2048x256 .f32) (harg6 : arg6.IsWhole) (h1 : ¬atFirstCol2 i) (h2 : atLastCol2 i)
    (x0 : Vec F S2048x1024 .f32) (x1 : Vec F S1024x256 .bf16) (x2 : Vec F S1x256 .f32)
    (xa : Vec F S2048x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xa
        ∗ (iprop(owns (c : Thread nD τ) arg2 fullShare x0 ∗ owns (c : Thread nD τ) arg3 fullShare x1 ∗ owns (c : Thread nD τ) arg4 fullShare x2
            ∗ owns (c : Thread nD τ) arg5 fullShare (Gen.k2_pay3 (Gen.k2_pay2 x0 x1 xa) x2)
            ∗ owns (c : Thread nD τ) arg6 fullShare (Gen.k2_pay2 x0 x1 xa)) -∗ K ⟨⟩))
      ⊢ wp frame (wpE (defs₀ (F := F)) Variants.none c none) E (cc2_kernel i arg2 harg2 arg3 harg3 arg4 harg4 arg5 harg5 arg6 harg6) K := by
  simp only [Gen.cc2_kernel_eq_skeleton]; unfold Gen.cc2_kernel_skel
  unfold owns
  iintro ⟨⟨%f0, %hf0, H0⟩, ⟨%f1, %hf1, H1⟩, ⟨%f2, %hf2, H2⟩, ⟨%d3, %f3, -, H3⟩, ⟨%fa, %hfa, HA⟩, Hk⟩
  subst hf0; subst hf1; subst hf2; subst hfa
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_afterWholeStore2 arg5.view f3 zeroOff2, View.readCov_unit_zero arg6.view zeroOff2,
      readAt_whole2 arg2.view f0 zeroOff2, readAt_whole2 arg3.view f1 zeroOff2, readAt_whole2 arg6.view fa zeroOff2,
      readAt_whole2 arg4.view f2 zeroOff2]
  iexists _; isplitr
  swap; · iexact HA
  ipureintro
  sl_unfold_run_names
  rw [read_afterWholeStore2 arg6.view fa zeroOff2,
    readAt_whole2 arg2.view f0 zeroOff2, readAt_whole2 arg3.view f1 zeroOff2, readAt_whole2 arg6.view fa zeroOff2]

/-! ## The region's invariant -/

/-- Before the first point: what the launch hands the region (every scoped buffer that is no staging buffer at some
    contents, and the generator register). Before any later point: the same with the accumulator's buffer at what
    the point before left in it; the other scoped buffers are carried along unopened. -/
def Phi2 (c : Dev nD) : (n : ℕ) → n ≤ cfg2.N → sProp 𝕄
  | 0, _ => Pipeline.ΦA spec2 c
  | n + 1, hn => iprop(iprop(owns (c : Thread nD τ) acc2M fullShare (acc2 V c n hn) ∗ Pipeline.scopedRestBut spec2 c [cc2_scratch0]) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) acc2M fullShare (acc2 V c n hn) ∗ Pipeline.scopedRestBut spec2 c [cc2_scratch0]) ∗ (∃ r, prngReg c r)) := rfl

theorem Phi2_pos (c : Dev nD) (n : ℕ) (h : n ≤ cfg2.N) (hz : n ≠ 0) :
    Phi2 V c n h = iprop(iprop(owns (c : Thread nD τ) acc2M fullShare (acc2 V c (n - 1) (by omega)) ∗ Pipeline.scopedRestBut spec2 c [cc2_scratch0]) ∗ (∃ r, prngReg c r)) := by
  cases n with
  | zero => exact absurd rfl hz
  | succ n => rfl

/-- What the launch hands the region, with the accumulator's buffer split off the other scoped buffers. -/
theorem PhiA2_eq (c : Dev nD) :
    (Pipeline.ΦA spec2 c : sProp 𝕄)
      = iprop(iprop((∃ d, owns (c : Thread nD τ) acc2M fullShare d) ∗ Pipeline.scopedRestBut spec2 c [cc2_scratch0]) ∗ (∃ r, prngReg c r)) := by
  unfold Pipeline.ΦA; rw [Gen.scopedRest2_split]; simp only [acc2M, owns_whole]; try rfl

/-! ## The proof data -/

/-- The arrays as the region finds them; after the body each input's buffer at its block, and the result's buffer at
    the accumulator plus the bias row (consulted only at k = 7: elsewhere the window is idle and not written back);
    the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => Gen.k2_pay3 (acc2 V c t.val t.isLt) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
/-- The result's buffer after the body: the accumulator plus the bias row. -/
theorem after2_3 (c : Dev nD) (t : Fin cfg2.N) :
    (dat2 V c).after 3 t = Gen.k2_pay3 (acc2 V c t.val t.isLt) (iblk2 V c 2 t) := by dsimp only [dat2]

theorem found2_0 (c : Dev nD) (t : Fin cfg2.N) (d) : (dat2 V c).before 0 t d = iblk2 V c 0 t :=
  found2_0_of V (dat2 V c) (A_eq2 V c 0) (after2_0 V c) t d
theorem found2_1 (c : Dev nD) (t : Fin cfg2.N) (d) : (dat2 V c).before 1 t d = iblk2 V c 1 t :=
  found2_1_of V (dat2 V c) (A_eq2 V c 1) (after2_1 V c) t d
theorem found2_2 (c : Dev nD) (t : Fin cfg2.N) (d) : (dat2 V c).before 2 t d = iblk2 V c 2 t :=
  found2_2_of V (dat2 V c) (A_eq2 V c 2) (after2_2 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (Gen.st2_0 t) fullShare ((dat2 V c).before 0 t d))
    ∗ (∃ d, owns (c : Thread nD τ) (Gen.st2_1 t) fullShare ((dat2 V c).before 1 t d))
    ∗ (∃ d, owns (c : Thread nD τ) (Gen.st2_2 t) fullShare ((dat2 V c).before 2 t d))
    ∗ (∃ d, owns (c : Thread nD τ) (Gen.st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- The body at any point. The inputs' buffers hold their blocks; the column coordinate says which case the point is
    in. The invariant hands the body the accumulator's buffer at what the point before left (at anything at the very
    first point) and takes it back at this point's accumulator; the other scoped buffers, the generator register and
    what the core owes pass through untouched. Away from k = 7 the result's buffer is handed back as found. -/
theorem sound_body2 (c : Dev nD) (t : Fin cfg2.N) :
    bodyPre2 V c t ⊢ wp frame (wpE (defs₀ (F := F)) Variants.none c none) Set.univ (Gen.bodyAt2 t) (fun _ => bodyPost2 V c t) := by
  unfold bodyPre2 bodyPost2 Gen.bodyAt2
  simp only [found2_0, found2_1, found2_2]
  rw [show (dat2 V c).owesAt () t.succ = (dat2 V c).owesAt () t.castSucc from rfl]
  rw [show (dat2 V c).Φ t.succ = Phi2 V c (t.val + 1) t.isLt from rfl, Phi2_succ]
  have hN : t.val < 32 := lt_of_lt_of_eq t.isLt (show cfg2.N = 32 from Gen.N_2)
  rw [show (dat2 V c).leavesExact 0 t = owns (c : Thread nD τ) (Gen.st2_0 t) fullShare ((dat2 V c).after 0 t) from by
    unfold Dat.leavesExact; rw [live2_0 t], after2_0]
  rw [show (dat2 V c).leavesExact 1 t = owns (c : Thread nD τ) (Gen.st2_1 t) fullShare ((dat2 V c).after 1 t) from by
    unfold Dat.leavesExact; rw [live2_1 t], after2_1]
  rw [show (dat2 V c).leavesExact 2 t = owns (c : Thread nD τ) (Gen.st2_2 t) fullShare ((dat2 V c).after 2 t) from by
    unfold Dat.leavesExact; rw [live2_2 t], after2_2]
  by_cases h0 : t.val % 8 = 0
  · -- k = 0
    have hF : atFirstCol2 (grid2.coords t) := (atFirstCol2_iff t).mpr h0
    have hL : ¬atLastCol2 (grid2.coords t) := fun h => by have := (atLastCol2_iff t).mp h; omega
    rw [Dat.leavesExact_idle (dat2 V c) 3 t (idle2_3 t hL) (noFlush2_3 t hL)]
    rw [acc2_restart V c t h0]
    by_cases hz : t.val = 0
    · rw [Phi2_castSucc V c t, Phi2_zero V c _ _ hz, PhiA2_eq]
      iintro ⟨⟨⟨HS, HR⟩, Hg⟩, Ho, ⟨%d0, H0⟩, ⟨%d1, H1⟩, ⟨%d2, H2⟩, ⟨%d3, H3⟩⟩
      iapply (kernel2_first c Set.univ (grid2.coords t) _ _ _ _ _ _ _ _ _ _ hF hL (iblk2 V c 0 t) (iblk2 V c 1 t) (iblk2 V c 2 t) ((dat2 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi2_castSucc V c t, Phi2_pos V c _ _ hz]
      iintro ⟨⟨⟨HS, HR⟩, Hg⟩, Ho, ⟨%d0, H0⟩, ⟨%d1, H1⟩, ⟨%d2, H2⟩, ⟨%d3, H3⟩⟩
      iapply (kernel2_first c Set.univ (grid2.coords t) _ _ _ _ _ _ _ _ _ _ hF hL (iblk2 V c 0 t) (iblk2 V c 1 t) (iblk2 V c 2 t) ((dat2 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hF : ¬atFirstCol2 (grid2.coords t) := fun h => h0 ((atFirstCol2_iff t).mp h)
    have hz : t.val ≠ 0 := fun e => h0 (by rw [e])
    rw [acc2_continue V c t h0]
    rw [Phi2_castSucc V c t, Phi2_pos V c _ _ hz]
    by_cases h7 : t.val % 8 = 7
    · -- k = 7
      have hL : atLastCol2 (grid2.coords t) := (atLastCol2_iff t).mpr h7
      rw [show (dat2 V c).leavesExact 3 t = owns (c : Thread nD τ) (Gen.st2_3 t) fullShare ((dat2 V c).after 3 t) from by
        unfold Dat.leavesExact; rw [live2_3 t hL], after2_3, acc2_continue V c t h0]
      iintro ⟨⟨⟨HS, HR⟩, Hg⟩, Ho, ⟨%d0, H0⟩, ⟨%d1, H1⟩, ⟨%d2, H2⟩, ⟨%d3, H3⟩⟩
      iapply (kernel2_last c Set.univ (grid2.coords t) _ _ _ _ _ _ _ _ _ _ hF hL (iblk2 V c 0 t) (iblk2 V c 1 t) (iblk2 V c 2 t)
        (acc2 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- 0 < k < 7
      have hL : ¬atLastCol2 (grid2.coords t) := fun h => h7 ((atLastCol2_iff t).mp h)
      rw [Dat.leavesExact_idle (dat2 V c) 3 t (idle2_3 t hL) (noFlush2_3 t hL)]
      iintro ⟨⟨⟨HS, HR⟩, Hg⟩, Ho, ⟨%d0, H0⟩, ⟨%d1, H1⟩, ⟨%d2, H2⟩, ⟨%d3, H3⟩⟩
      iapply (kernel2_middle c Set.univ (grid2.coords t) _ _ _ _ _ _ _ _ _ _ hF hL (iblk2 V c 0 t) (iblk2 V c 1 t) (iblk2 V c 2 t) ((dat2 V c).before 3 t d3)
        (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [Gen.bigSep_W2, Gen.bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point the invariant gives the launch's back: what the accumulator holds is forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, HR⟩, Hg⟩
  isplitl [HS HR]
  · isplitl [HS]
    · iexists _; iexact HS
    iexact HR
  iexact Hg

theorem hout2 (c : Dev nD) : (dat2 V c).Φ (Fin.last cfg2.N) ⊢ Pipeline.ΦA spec2 c :=
  Phi2_out V c _ (by rw [Fin.val_last]; have : cfg2.N = 32 := Gen.N_2; omega)

end Cert.Kernel.Hand

end
-- ==== Proof.Kernel.Region3.lean ====
/-
  The fourth pallas_call: the three-layer perceptron and the row-wise log-softmax, on a grid of 16 points.
  At point t the body reads rows 512·t … 512·t + 511 of H2 and of the target features, the two halves La, Lb
  of the first weight matrix, the weight matrices L2, L3 and the three bias rows c1, c2, c3 (each of these a
  whole array), and writes rows 512·t … of the output. Every point behaves alike: one control case.

  This file gives, for any float instance, each window's block at a point, what every staging buffer holds when
  the body starts and when it ends, and the body's triple; the value of the output block is a pure function
  (the payloads of the skeleton) of the nine input blocks.
-/
import proofs.«130687_j53085795778708_2_alg».proof.Proof.Gen.Kernel.Launch
import proofs.«130687_j53085795778708_2_alg».proof.Proof.Gen.Kernel.Skeleton
import proofs.«130687_j53085795778708_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point, whether the point fetched it or not: a
    window that is not fetched has not moved, so the block the previous point left there is this point's block.
    The two row-block windows are fetched at every point; the seven whole windows at the first point only. -/

/-- Input window 0 (the row block of H2). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the row block of the target features). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (La (the first 256 rows of L1)). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 (Lb (the last 512 rows of L1)). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4 (the bias row c1). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5 (L2). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6 (the bias row c2). -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7 (L3). -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8 (the bias row c3). -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a buffer whole -/

abbrev rect3_0 : Rect S512x256 := Rect.unit (s := S512x256) ![0, 0] S512x256.size inb_S512x256_S512x256_0_0
abbrev rect3_1 : Rect S512x512 := Rect.unit (s := S512x512) ![0, 0] S512x512.size inb_S512x512_S512x512_0_0
abbrev rect3_2 : Rect S256x768 := Rect.unit (s := S256x768) ![0, 0] S256x768.size inb_S256x768_S256x768_0_0
abbrev rect3_3 : Rect S512x768 := Rect.unit (s := S512x768) ![0, 0] S512x768.size inb_S512x768_S512x768_0_0
abbrev rect3_4 : Rect S1x768 := Rect.unit (s := S1x768) ![0, 0] S1x768.size inb_S1x768_S1x768_0_0
abbrev rect3_5 : Rect S768x768 := Rect.unit (s := S768x768) ![0, 0] S768x768.size inb_S768x768_S768x768_0_0
abbrev rect3_6 : Rect S1x768 := Rect.unit (s := S1x768) ![0, 0] S1x768.size inb_S1x768_S1x768_0_0
abbrev rect3_7 : Rect S768x512 := Rect.unit (s := S768x512) ![0, 0] S768x512.size inb_S768x512_S768x512_0_0
abbrev rect3_8 : Rect S1x512 := Rect.unit (s := S1x512) ![0, 0] S1x512.size inb_S1x512_S1x512_0_0
abbrev rect3_9 : Rect S512x512 := Rect.unit (s := S512x512) ![0, 0] S512x512.size inb_S512x512_S512x512_0_0

/-! ## What the body leaves in the output's buffer -/

/-- The output block as a function of the nine input blocks: the log-softmax payload of the logits
    (the three dense layers on the block's rows) and the last bias row, stored over the whole buffer. -/
def out3_9 (x0 : Vec F S512x256 .bf16) (x1 : Vec F S512x512 .f32) (x2 : Vec F S256x768 .f32) (x3 : Vec F S512x768 .f32) (x4 : Vec F S1x768 .f32) (x5 : Vec F S768x768 .f32) (x6 : Vec F S1x768 .f32) (x7 : Vec F S768x512 .f32) (x8 : Vec F S1x512 .f32) : Vec F S512x512 .f32 :=
  View.canon [⟨rect3_9, k3_pay1 (k3_pay2 (View.ld x0 rect3_0) (View.ld x1 rect3_1) (View.ld x2 rect3_2) (View.ld x3 rect3_3) (View.ld x4 rect3_4) (View.ld x5 rect3_5) (View.ld x6 rect3_6) (View.ld x7 rect3_7)) (k3_pay3 (View.ld x8 rect3_8))⟩]

/-- The one store covers the buffer. -/
theorem cover3_9 (p0 : Vec F S512x512 .f32) (y : S512x512.Idx) :
    ∃ pc ∈ ([⟨rect3_9, p0⟩] : List (View.Piece (Elt F) S512x512 .f32)), y ∈ pc.1.set :=
  View.cover_of_tiled [⟨rect3_9, p0⟩] S512x512.size (by rfl) y

/-! ## The body's triple -/

set_option maxHeartbeats 1000000 in
/-- The body on whole staging buffers, the nine inputs at contents `x·` and the output at anything, runs to a
    state with the inputs unchanged and the output at `out3_9` of the inputs: nine whole loads (in the part that
    computes the logits), a whole load of the output buffer whose value is not used, and one whole store. -/
theorem sound_kernel3 (c : Dev nD) (E : Set ℕ) (i : grid3.Coords) (arg1 : Memref sig .tc .vmem S512x256 .bf16) (harg1 : arg1.IsWhole) (arg2 : Memref sig .tc .vmem S512x512 .f32) (harg2 : arg2.IsWhole) (arg3 : Memref sig .tc .vmem S256x768 .f32) (harg3 : arg3.IsWhole) (arg4 : Memref sig .tc .vmem S512x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x512 .f32) (harg8 : arg8.IsWhole) (arg9 : Memref sig .tc .vmem S1x512 .f32) (harg9 : arg9.IsWhole) (arg10 : Memref sig .tc .vmem S512x512 .f32) (harg10 : arg10.IsWhole)
    (x0 : Vec F S512x256 .bf16) (x1 : Vec F S512x512 .f32) (x2 : Vec F S256x768 .f32) (x3 : Vec F S512x768 .f32) (x4 : Vec F S1x768 .f32) (x5 : Vec F S768x768 .f32) (x6 : Vec F S1x768 .f32) (x7 : Vec F S768x512 .f32) (x8 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8)) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9 arg10 harg10) K := by
  simp only [cc3_kernel_eq_skeleton]; unfold cc3_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-! ## The pipeline's proof data -/

/-- The proof data of this pipeline on core `c`: the arrays as the region finds them; after the body at point `t`
    each input's buffer still at its block and the output's at `out3_9` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends: it is the class invariant itself at every point -/

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.Kernel.Hand

end
-- ==== Proof.Kernel.Run.lean ====
/-
  The whole program run: four kernel regions among three short stretches of host operations (a bias vector laid out
  as a row; the two row slices of L1; three more bias rows).

  Between two items a core holds every buffer that outlives a region at known contents: the launch contents, then,
  item by item, what a host stretch computes or what a region's write-backs leave in its arrays (its inputs as
  found). Each region is entered from those contents and left at the next ones; no item writes an argument array, so
  each ends as launched, and the last region's result array ends at what its blocks wrote.
-/
import proofs.«130687_j53085795778708_2_alg».proof.Proof.Kernel.Region0
import proofs.«130687_j53085795778708_2_alg».proof.Proof.Kernel.Region1
import proofs.«130687_j53085795778708_2_alg».proof.Proof.Kernel.Region2
import proofs.«130687_j53085795778708_2_alg».proof.Proof.Kernel.Region3
import proofs.«130687_j53085795778708_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch that follows (the next region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After region 1: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host stretch that follows (the next region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After region 2: its arrays at what its write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the host stretch that follows (the next region's entry). -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

/-- After region 3: its arrays at what its write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-! ## What each item leaves unchanged -/

/-- Region 0 changes only its result array: an input array is read back as it was found, a bypassing buffer is untouched. -/
theorem W1_step (c : Dev nD) (b : Ref sig .tc) (hb : b ≠ main_v0) :
    W1 m ρ c (Proc.devRef .tc b) = W0 m ρ c (Proc.devRef .tc b) := by
  by_cases h : ∃ w, Pipeline.arrRef spec0 w = b
  · obtain ⟨w, rfl⟩ := h
    rw [W1_arr]
    match w with
    | ⟨0, _⟩ => exact ((dat0 (V0 m ρ) c).arrAt_in ⟨0, by decide⟩ rfl _).trans (A_eq0 (V0 m ρ) c ⟨0, by decide⟩)
    | ⟨1, _⟩ => exact ((dat0 (V0 m ρ) c).arrAt_in ⟨1, by decide⟩ rfl _).trans (A_eq0 (V0 m ρ) c ⟨1, by decide⟩)
    | ⟨2, _⟩ => exact absurd rfl hb
  · exact W1_of_ne m ρ c b (fun w e => h ⟨w, e⟩)

/-- Region 1 changes only its result array: an input array is read back as it was found, a bypassing buffer is untouched. -/
theorem W3_step (c : Dev nD) (b : Ref sig .tc) (hb : b ≠ main_v2) :
    W3 m ρ c (Proc.devRef .tc b) = W2 m ρ c (Proc.devRef .tc b) := by
  by_cases h : ∃ w, Pipeline.arrRef spec1 w = b
  · obtain ⟨w, rfl⟩ := h
    rw [W3_arr]
    match w with
    | ⟨0, _⟩ => exact ((dat1 (V2 m ρ) c).arrAt_in ⟨0, by decide⟩ rfl _).trans (A_eq1 (V2 m ρ) c ⟨0, by decide⟩)
    | ⟨1, _⟩ => exact ((dat1 (V2 m ρ) c).arrAt_in ⟨1, by decide⟩ rfl _).trans (A_eq1 (V2 m ρ) c ⟨1, by decide⟩)
    | ⟨2, _⟩ => exact ((dat1 (V2 m ρ) c).arrAt_in ⟨2, by decide⟩ rfl _).trans (A_eq1 (V2 m ρ) c ⟨2, by decide⟩)
    | ⟨3, _⟩ => exact ((dat1 (V2 m ρ) c).arrAt_in ⟨3, by decide⟩ rfl _).trans (A_eq1 (V2 m ρ) c ⟨3, by decide⟩)
    | ⟨4, _⟩ => exact absurd rfl hb
  · exact W3_of_ne m ρ c b (fun w e => h ⟨w, e⟩)

/-- Region 2 changes only its result array: an input array is read back as it was found, a bypassing buffer is untouched. -/
theorem W5_step (c : Dev nD) (b : Ref sig .tc) (hb : b ≠ main_v4) :
    W5 m ρ c (Proc.devRef .tc b) = W4 m ρ c (Proc.devRef .tc b) := by
  by_cases h : ∃ w, Pipeline.arrRef spec2 w = b
  · obtain ⟨w, rfl⟩ := h
    rw [W5_arr]
    match w with
    | ⟨0, _⟩ => exact ((dat2 (V4 m ρ) c).arrAt_in ⟨0, by decide⟩ rfl _).trans (A_eq2 (V4 m ρ) c ⟨0, by decide⟩)
    | ⟨1, _⟩ => exact ((dat2 (V4 m ρ) c).arrAt_in ⟨1, by decide⟩ rfl _).trans (A_eq2 (V4 m ρ) c ⟨1, by decide⟩)
    | ⟨2, _⟩ => exact ((dat2 (V4 m ρ) c).arrAt_in ⟨2, by decide⟩ rfl _).trans (A_eq2 (V4 m ρ) c ⟨2, by decide⟩)
    | ⟨3, _⟩ => exact absurd rfl hb
  · exact W5_of_ne m ρ c b (fun w e => h ⟨w, e⟩)

/-- Region 3 changes only its result array: an input array is read back as it was found, a bypassing buffer is untouched. -/
theorem W7_step (c : Dev nD) (b : Ref sig .tc) (hb : b ≠ main_v10) :
    W7 m ρ c (Proc.devRef .tc b) = W6 m ρ c (Proc.devRef .tc b) := by
  by_cases h : ∃ w, Pipeline.arrRef spec3 w = b
  · obtain ⟨w, rfl⟩ := h
    rw [W7_arr]
    match w with
    | ⟨0, _⟩ => exact ((dat3 (V6 m ρ) c).arrAt_in ⟨0, by decide⟩ rfl _).trans (A_eq3 (V6 m ρ) c ⟨0, by decide⟩)
    | ⟨1, _⟩ => exact ((dat3 (V6 m ρ) c).arrAt_in ⟨1, by decide⟩ rfl _).trans (A_eq3 (V6 m ρ) c ⟨1, by decide⟩)
    | ⟨2, _⟩ => exact ((dat3 (V6 m ρ) c).arrAt_in ⟨2, by decide⟩ rfl _).trans (A_eq3 (V6 m ρ) c ⟨2, by decide⟩)
    | ⟨3, _⟩ => exact ((dat3 (V6 m ρ) c).arrAt_in ⟨3, by decide⟩ rfl _).trans (A_eq3 (V6 m ρ) c ⟨3, by decide⟩)
    | ⟨4, _⟩ => exact ((dat3 (V6 m ρ) c).arrAt_in ⟨4, by decide⟩ rfl _).trans (A_eq3 (V6 m ρ) c ⟨4, by decide⟩)
    | ⟨5, _⟩ => exact ((dat3 (V6 m ρ) c).arrAt_in ⟨5, by decide⟩ rfl _).trans (A_eq3 (V6 m ρ) c ⟨5, by decide⟩)
    | ⟨6, _⟩ => exact ((dat3 (V6 m ρ) c).arrAt_in ⟨6, by decide⟩ rfl _).trans (A_eq3 (V6 m ρ) c ⟨6, by decide⟩)
    | ⟨7, _⟩ => exact ((dat3 (V6 m ρ) c).arrAt_in ⟨7, by decide⟩ rfl _).trans (A_eq3 (V6 m ρ) c ⟨7, by decide⟩)
    | ⟨8, _⟩ => exact ((dat3 (V6 m ρ) c).arrAt_in ⟨8, by decide⟩ rfl _).trans (A_eq3 (V6 m ρ) c ⟨8, by decide⟩)
    | ⟨9, _⟩ => exact absurd rfl hb
  · exact W7_of_ne m ρ c b (fun w e => h ⟨w, e⟩)

/-- A buffer no earlier item writes is, at each boundary, as launched. -/
theorem W1_arg (c : Dev nD) (b : Ref sig .tc) (h0 : b ≠ main_v0) : W1 m ρ c (Proc.devRef .tc b) = m ((c : Thread nD τ).loc b) :=
  (W1_step m ρ c b h0).trans rfl
theorem W2_arg (c : Dev nD) (b : Ref sig .tc) (h0 : b ≠ main_v0) (h1 : b ∉ hostOps1_W) :
    W2 m ρ c (Proc.devRef .tc b) = m ((c : Thread nD τ).loc b) :=
  (StableHlo.after_of_writes_sub hostOps1 _ hostOps1_writes h1).trans (W1_arg m ρ c b h0)
theorem W3_arg (c : Dev nD) (b : Ref sig .tc) (h0 : b ≠ main_v0) (h1 : b ∉ hostOps1_W) (h2 : b ≠ main_v2) :
    W3 m ρ c (Proc.devRef .tc b) = m ((c : Thread nD τ).loc b) :=
  (W3_step m ρ c b h2).trans (W2_arg m ρ c b h0 h1)
theorem W4_arg (c : Dev nD) (b : Ref sig .tc) (h0 : b ≠ main_v0) (h1 : b ∉ hostOps1_W) (h2 : b ≠ main_v2) (h3 : b ∉ hostOps2_W) :
    W4 m ρ c (Proc.devRef .tc b) = m ((c : Thread nD τ).loc b) :=
  (StableHlo.after_of_writes_sub hostOps2 _ hostOps2_writes h3).trans (W3_arg m ρ c b h0 h1 h2)
theorem W5_arg (c : Dev nD) (b : Ref sig .tc) (h0 : b ≠ main_v0) (h1 : b ∉ hostOps1_W) (h2 : b ≠ main_v2) (h3 : b ∉ hostOps2_W)
    (h4 : b ≠ main_v4) : W5 m ρ c (Proc.devRef .tc b) = m ((c : Thread nD τ).loc b) :=
  (W5_step m ρ c b h4).trans (W4_arg m ρ c b h0 h1 h2 h3)
theorem W6_arg (c : Dev nD) (b : Ref sig .tc) (h0 : b ≠ main_v0) (h1 : b ∉ hostOps1_W) (h2 : b ≠ main_v2) (h3 : b ∉ hostOps2_W)
    (h4 : b ≠ main_v4) (h5 : b ∉ hostOps3_W) : W6 m ρ c (Proc.devRef .tc b) = m ((c : Thread nD τ).loc b) :=
  (StableHlo.after_of_writes_sub hostOps3 _ hostOps3_writes h5).trans (W5_arg m ρ c b h0 h1 h2 h3 h4)
/-- A buffer that no region writes back and no host stretch writes reaches the end as launched. -/
theorem W7_keeps (c : Dev nD) (b : Ref sig .tc) (h0 : b ≠ main_v0) (h1 : b ∉ hostOps1_W) (h2 : b ≠ main_v2) (h3 : b ∉ hostOps2_W)
    (h4 : b ≠ main_v4) (h5 : b ∉ hostOps3_W) (h6 : b ≠ main_v10) :
    W7 m ρ c (Proc.devRef .tc b) = m ((c : Thread nD τ).loc b) :=
  (W7_step m ρ c b h6).trans (W6_arg m ρ c b h0 h1 h2 h3 h4 h5)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the buffers that outlive regions. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every such buffer at the last contents, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0: entered from every buffer at the contents before it, left at the contents after it. Its arrays are split
    out of the buffers and put back at what the write-backs leave; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every buffer at the contents before it, left at the contents after it. Its arrays are split
    out of the buffers and put back at what the write-backs leave; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every buffer at the contents before it, left at the contents after it. Its arrays are split
    out of the buffers and put back at what the write-backs leave; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine BIBase.Entails.trans (hout2 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every buffer at the contents before it, left at the contents after it. Its arrays are split
    out of the buffers and put back at what the write-backs leave; the generator register goes into the invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V6 m ρ) c)
    unfold Pipeline.ΦA
    iintro ⟨Hp, -, Hr⟩
    isplitl [Hr]; · iexact Hr
    iexact Hp
  hout c := by
    rw [Pipeline.ownSems0_none]
    refine BIBase.Entails.trans (hout3 (V6 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]
/-- @main is the run of those items. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every buffer that outlives a region at the last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame claim, at any values: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W7_keeps m ρ c main_arg0 (by decide) (by decide) (by decide) (by decide) (by decide) (by decide) (by decide)),
      (h c _ (mem_uc main_arg1 (by decide))).trans (W7_keeps m ρ c main_arg1 (by decide) (by decide) (by decide) (by decide) (by decide) (by decide) (by decide)),
      (h c _ (mem_uc main_arg2 (by decide))).trans (W7_keeps m ρ c main_arg2 (by decide) (by decide) (by decide) (by decide) (by decide) (by decide) (by decide)),
      (h c _ (mem_uc main_arg3 (by decide))).trans (W7_keeps m ρ c main_arg3 (by decide) (by decide) (by decide) (by decide) (by decide) (by decide) (by decide)),
      (h c _ (mem_uc main_arg4 (by decide))).trans (W7_keeps m ρ c main_arg4 (by decide) (by decide) (by decide) (by decide) (by decide) (by decide) (by decide)),
      (h c _ (mem_uc main_arg5 (by decide))).trans (W7_keeps m ρ c main_arg5 (by decide) (by decide) (by decide) (by decide) (by decide) (by decide) (by decide)),
      (h c _ (mem_uc main_arg6 (by decide))).trans (W7_keeps m ρ c main_arg6 (by decide) (by decide) (by decide) (by decide) (by decide) (by decide) (by decide)),
      (h c _ (mem_uc main_arg7 (by decide))).trans (W7_keeps m ρ c main_arg7 (by decide) (by decide) (by decide) (by decide) (by decide) (by decide) (by decide)),
      (h c _ (mem_uc main_arg8 (by decide))).trans (W7_keeps m ρ c main_arg8 (by decide) (by decide) (by decide) (by decide) (by decide) (by decide) (by decide)),
      (h c _ (mem_uc main_arg9 (by decide))).trans (W7_keeps m ρ c main_arg9 (by decide) (by decide) (by decide) (by decide) (by decide) (by decide) (by decide)),
      (h c _ (mem_uc main_arg10 (by decide))).trans (W7_keeps m ρ c main_arg10 (by decide) (by decide) (by decide) (by decide) (by decide) (by decide) (by decide)),
      (h c _ (mem_uc main_arg11 (by decide))).trans (W7_keeps m ρ c main_arg11 (by decide) (by decide) (by decide) (by decide) (by decide) (by decide) (by decide)),
      (h c _ (mem_uc main_arg12 (by decide))).trans (W7_keeps m ρ c main_arg12 (by decide) (by decide) (by decide) (by decide) (by decide) (by decide) (by decide)),
      (h c _ (mem_uc main_arg13 (by decide))).trans (W7_keeps m ρ c main_arg13 (by decide) (by decide) (by decide) (by decide) (by decide) (by decide) (by decide))⟩) (run_main m ρ)

/-- The result array ends at what the last region's write-backs leave, and every argument array as launched. -/
theorem run_result : θ_run defs (onTc (τ := τ) (main (F := F))) ⟨m, fun _ => 0, ρ⟩ (fun r => ∀ c : Dev nD,
      r.2.mem ((c.tc : Thread nD τ).loc main_v10) = (dat3 (V6 m ρ) c).arrAt 9 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v10 (by decide))).trans (W7_arr m ρ c 9),
      (h c _ (mem_uc main_arg0 (by decide))).trans (W7_keeps m ρ c main_arg0 (by decide) (by decide) (by decide) (by decide) (by decide) (by decide) (by decide)),
      (h c _ (mem_uc main_arg1 (by decide))).trans (W7_keeps m ρ c main_arg1 (by decide) (by decide) (by decide) (by decide) (by decide) (by decide) (by decide)),
      (h c _ (mem_uc main_arg2 (by decide))).trans (W7_keeps m ρ c main_arg2 (by decide) (by decide) (by decide) (by decide) (by decide) (by decide) (by decide)),
      (h c _ (mem_uc main_arg3 (by decide))).trans (W7_keeps m ρ c main_arg3 (by decide) (by decide) (by decide) (by decide) (by decide) (by decide) (by decide)),
      (h c _ (mem_uc main_arg4 (by decide))).trans (W7_keeps m ρ c main_arg4 (by decide) (by decide) (by decide) (by decide) (by decide) (by decide) (by decide)),
      (h c _ (mem_uc main_arg5 (by decide))).trans (W7_keeps m ρ c main_arg5 (by decide) (by decide) (by decide) (by decide) (by decide) (by decide) (by decide)),
      (h c _ (mem_uc main_arg6 (by decide))).trans (W7_keeps m ρ c main_arg6 (by decide) (by decide) (by decide) (by decide) (by decide) (by decide) (by decide)),
      (h c _ (mem_uc main_arg7 (by decide))).trans (W7_keeps m ρ c main_arg7 (by decide) (by decide) (by decide) (by decide) (by decide) (by decide) (by decide)),
      (h c _ (mem_uc main_arg8 (by decide))).trans (W7_keeps m ρ c main_arg8 (by decide) (by decide) (by decide) (by decide) (by decide) (by decide) (by decide)),
      (h c _ (mem_uc main_arg9 (by decide))).trans (W7_keeps m ρ c main_arg9 (by decide) (by decide) (by decide) (by decide) (by decide) (by decide) (by decide)),
      (h c _ (mem_uc main_arg10 (by decide))).trans (W7_keeps m ρ c main_arg10 (by decide) (by decide) (by decide) (by decide) (by decide) (by decide) (by decide)),
      (h c _ (mem_uc main_arg11 (by decide))).trans (W7_keeps m ρ c main_arg11 (by decide) (by decide) (by decide) (by decide) (by decide) (by decide) (by decide)),
      (h c _ (mem_uc main_arg12 (by decide))).trans (W7_keeps m ρ c main_arg12 (by decide) (by decide) (by decide) (by decide) (by decide) (by decide) (by decide)),
      (h c _ (mem_uc main_arg13 (by decide))).trans (W7_keeps m ρ c main_arg13 (by decide) (by decide) (by decide) (by decide) (by decide) (by decide) (by decide))⟩) (run_main m ρ)

end Cert.Kernel.Hand

end
-- ==== Proof.KernelIdeal.Region0.lean ====
/-
  The first product, T0 = X·W1, one block of 1024 rows at a grid point.

  At point t the body reads the t-th block of 1024 rows of X and the whole of W1, and writes their product (rounded
  to the narrower float format, which at the exact values is the identity) over its output block, having read that
  block once first. What the output block holds afterwards is therefore a function of the two input blocks alone; the
  inputs are left as found, and nothing else is touched.
-/
import proofs.«130687_j53085795778708_2_alg».proof.Proof.Gen.KernelIdeal.Launch
import proofs.«130687_j53085795778708_2_alg».proof.Proof.Gen.KernelIdeal.Skeleton
import proofs.«130687_j53085795778708_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of X: the buffer holds the point's block whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W1, fetched once: the buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S1024x512 := Rect.unit (s := S1024x512) ![0, 0] S1024x512.size inb_S1024x512_S1024x512_0_0
abbrev r0_w : Rect S512x256 := Rect.unit (s := S512x256) ![0, 0] S512x256.size inb_S512x256_S512x256_0_0
abbrev r0_o : Rect S1024x256 := Rect.unit (s := S1024x256) ![0, 0] S1024x256.size inb_S1024x256_S1024x256_0_0

/-- The output block after the body: its one store, of the product of the two input blocks. -/
def out0_2 (x0 : Vec F S1024x512 .f32) (x1 : Vec F S512x256 .f32) : Vec F S1024x256 .bf16 :=
  View.canon [⟨r0_o, k0_pay1 (View.ld x0 r0_x) (View.ld x1 r0_w)⟩]

/-- The one store covers the block. -/
theorem cover0_2 (p0 : Vec F S1024x256 .bf16) (y : S1024x256.Idx) :
    ∃ pc ∈ ([⟨r0_o, p0⟩] : List (View.Piece (Elt F) S1024x256 .bf16)), y ∈ pc.1.set :=
  View.cover_of_tiled [⟨r0_o, p0⟩] S1024x256.size (by rfl) y

/-! ## The body's triple -/

set_option maxHeartbeats 1000000 in
/-- The body on whole buffers: the inputs at x0, x1 and the output at anything run to the inputs as they were and the
    output at the product block. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1024x256 .bf16) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The arrays as the region finds them; after the body each input's buffer at its block and the output's at the
    product block; the invariant is the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Hand

end
-- ==== Proof.KernelIdeal.Region1.lean ====
/-
  The second pallas_call of the program: a K-blocked matrix product with an epilogue, on a grid of 4 × 8 points
  (point t = 8·i + k, the column-block coordinate k running fastest).

  At every point the body adds the product of the current 2048 × 1024 block of the left operand and the current
  1024 × 256 block of the right operand into a 2048 × 256 accumulator kept in a scratch buffer that lives across
  points. Where k = 0 the accumulator is first set to zero; where k = 7 the body afterwards stores into the output
  block the epilogue  relu(acc + bias row) · W2.  Elsewhere the output's staging buffer is left as it was found and is
  not written back.

  So there are three control cases (k = 0; 0 < k < 7; k = 7). What the accumulator holds after point n is a recursion
  on n: the product added to zero where n ≡ 0 (mod 8), to what the point before left otherwise. The region invariant
  after the first point is the scratch buffer at that named value, beside the other scoped buffers (unopened) and
  the generator register.
-/
import proofs.«130687_j53085795778708_2_alg».proof.Proof.Gen.KernelIdeal.Launch
import proofs.«130687_j53085795778708_2_alg».proof.Proof.Gen.KernelIdeal.Skeleton
import proofs.«130687_j53085795778708_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two conditions of the body, in closed form over the grid -/

/-- The first conditional's guard: the column-block coordinate is 0. -/
abbrev isFirst1 (i : grid1.Coords) : Prop :=
  (Scalar.cmpi .ne (Scalar.extui (Scalar.cmpi .eq (BitVec.ofNat 32 (i 1).val) 0#32)) 0#32) = 1#1
/-- It holds at the points ≡ 0 (mod 8). -/
theorem isFirst1_iff : ∀ t : Fin cfg1.N, isFirst1 (grid1.coords t) ↔ t.val % 8 = 0 :=
  (by decide +kernel : ∀ t : Fin grid1.N, isFirst1 (grid1.coords t) ↔ t.val % 8 = 0)

/-- The second conditional's guard: the column-block coordinate is 7. -/
abbrev isLast1 (i : grid1.Coords) : Prop := k1_cond2 i = 1#1
/-- It holds at the points ≡ 7 (mod 8). -/
theorem isLast1_iff : ∀ t : Fin cfg1.N, isLast1 (grid1.coords t) ↔ t.val % 8 = 7 :=
  (by decide +kernel : ∀ t : Fin grid1.N, isLast1 (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- Away from k = 7 the output window is idle: nothing is stored into it, -/
theorem idle1_4 : ∀ t : Fin cfg1.N, ¬ t.val % 8 = 7 → cfg1.idle 4 (grid1.coords t) = true := by decide +kernel
/-- and its block is not written back. -/
theorem noFlush1_4 : ∀ t : Fin cfg1.N, ¬ t.val % 8 = 7 → (cfg1.win 4).flush t = false := by decide +kernel
/-- At k = 7 it is live. -/
theorem live1_4 : ∀ t : Fin cfg1.N, t.val % 8 = 7 → cfg1.idle 4 (grid1.coords t) = false := by decide +kernel

/-! ## The accumulator, point by point -/

/-- The scratch accumulator, whole. -/
abbrev scM1 : Memref sig .tc .vmem S2048x256 .f32 := Memref.whole cc1_scratch0

/-- What the accumulator holds after the body at position n: the product of the point's two blocks added to zero
    where n ≡ 0 (mod 8), to what the point before left otherwise. -/
def acc1 (c : Dev nD) : (n : ℕ) → n < cfg1.N → Vec F S2048x256 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At a point with k = 0 the accumulator restarts from zero. -/
theorem acc1_first (c : Dev nD) (t : Fin cfg1.N) (h0 : t.val % 8 = 0) :
    acc1 V c t.val t.isLt = k1_pay2 (iblk1 V c 0 t) (iblk1 V c 1 t) (k1_pay1 (F := F)) := by
  obtain ⟨n, hn⟩ := t
  cases n with
  | zero => rfl
  | succ n => exact (if_pos h0).trans rfl

/-- At a point with k ≠ 0 it adds to what the point before left. -/
theorem acc1_next (c : Dev nD) (t : Fin cfg1.N) (h0 : ¬ t.val % 8 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The output block the epilogue stores, from the accumulator after the point and the point's bias row and weights. -/
def out1_4 (c : Dev nD) (t : Fin cfg1.N) : Vec F S2048x256 .bf16 :=
  k1_pay3 (acc1 V c t.val t.isLt) (iblk1 V c 2 t) (iblk1 V c 3 t)

/-! ## The region invariant -/

/-- The launch's invariant with the scratch accumulator split off the other scoped buffers. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

/-- Before position n: at the first point what the launch hands over; afterwards the accumulator at what the point
    before left, the other scoped buffers and the generator register as they come. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0])
      ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-! ## The proof data -/

/-- The proof data of the pipeline on core c: the arrays as the region finds them; after the body each input's
    buffer at its block and the output's at the epilogue of the accumulator; the invariant above; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-! ## The body, case by case -/

/-- The offsets of every load and store of the body are zero. -/
theorem zero_off1 : (![0, 0] : Fin 2 → Nat) = fun _ => 0 := funext fun a => by fin_cases a <;> rfl

set_option maxHeartbeats 1000000 in
/-- The body where k = 0 (and k ≠ 7): on whole memrefs, the inputs at their contents, the output's buffer at any contents
    (handed back untouched), the accumulator at anything, it runs to the continuation holding the inputs and the output's
    buffer as they were and the accumulator at the product of the two blocks added to zero: the zero store is shadowed by
    the accumulating store, and the reload between them reads the zeros. -/
theorem run1_first (c : Dev nD) (i : grid1.Coords)
    (arg2 : Memref sig .tc .vmem S2048x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S256x256 .f32) (harg5 : arg5.IsWhole)
    (arg6 : Memref sig .tc .vmem S2048x256 .bf16) (harg6 : arg6.IsWhole) (arg7 : Memref sig .tc .vmem S2048x256 .f32) (harg7 : arg7.IsWhole)
    (hc0 : isFirst1 i) (hc1 : ¬ isLast1 i) (x0 : Vec F S2048x1024 .f32) (x1 : Vec F S1024x256 .bf16) (x2 : Vec F S1x256 .f32) (x3 : Vec F S256x256 .f32)
    (xi : Vec F S2048x256 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
            ∗ owns (c : Thread nD τ) arg7 fullShare (k1_pay2 x0 x1 (k1_pay1 (F := F)))) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  rw [View.read_writes_eq_canon _ _ _ (fun y => ⟨_, List.mem_cons_self, View.mem_set_unit_zero zero_off1 inb_S2048x256_S2048x256_0_0 y⟩),
    View.canon_cons_unit_zero zero_off1]
  sl_unfold_run_names
  rw [View.readCov_unit_zero _ zero_off1, View.readAt_eq_ld, View.readAt_eq_ld, hf0, hf1,
    View.ld_unit_zero zero_off1, View.ld_unit_zero zero_off1]

set_option maxHeartbeats 1000000 in
/-- The body where 0 < k < 7: the same, the accumulator coming in at what the point before left and going out at the
    product added to it; the output's buffer is handed back untouched. -/
theorem run1_mid (c : Dev nD) (i : grid1.Coords)
    (arg2 : Memref sig .tc .vmem S2048x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S256x256 .f32) (harg5 : arg5.IsWhole)
    (arg6 : Memref sig .tc .vmem S2048x256 .bf16) (harg6 : arg6.IsWhole) (arg7 : Memref sig .tc .vmem S2048x256 .f32) (harg7 : arg7.IsWhole)
    (hc0 : ¬ isFirst1 i) (hc1 : ¬ isLast1 i) (x0 : Vec F S2048x1024 .f32) (x1 : Vec F S1024x256 .bf16) (x2 : Vec F S1x256 .f32) (x3 : Vec F S256x256 .f32)
    (xi : Vec F S2048x256 .bf16) (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
            ∗ owns (c : Thread nD τ) arg7 fullShare (k1_pay2 x0 x1 xs)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  rw [View.read_writes_eq_canon _ _ _ (fun y => ⟨_, List.mem_cons_self, View.mem_set_unit_zero zero_off1 inb_S2048x256_S2048x256_0_0 y⟩),
    View.canon_cons_unit_zero zero_off1]
  sl_unfold_run_names
  rw [View.readAt_eq_ld, View.readAt_eq_ld, View.readAt_eq_ld, hf0, hf1, hfs,
    View.ld_unit_zero zero_off1, View.ld_unit_zero zero_off1, View.ld_unit_zero zero_off1]

set_option maxHeartbeats 1000000 in
/-- The body where k = 7 (and k ≠ 0): the accumulator as in the case before; then the epilogue reloads it (reading what
    was just stored), loads the bias row and the weights, and stores its result over the output's buffer, whatever that
    held. -/
theorem run1_last (c : Dev nD) (i : grid1.Coords)
    (arg2 : Memref sig .tc .vmem S2048x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S256x256 .f32) (harg5 : arg5.IsWhole)
    (arg6 : Memref sig .tc .vmem S2048x256 .bf16) (harg6 : arg6.IsWhole) (arg7 : Memref sig .tc .vmem S2048x256 .f32) (harg7 : arg7.IsWhole)
    (hc0 : ¬ isFirst1 i) (hc1 : isLast1 i) (x0 : Vec F S2048x1024 .f32) (x1 : Vec F S1024x256 .bf16) (x2 : Vec F S1x256 .f32) (x3 : Vec F S256x256 .f32)
    (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k1_pay3 (k1_pay2 x0 x1 xs) x2 x3)
            ∗ owns (c : Thread nD τ) arg7 fullShare (k1_pay2 x0 x1 xs)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    rw [View.read_writes_eq_canon _ _ _ (fun y => ⟨_, List.mem_cons_self, View.mem_set_unit_zero zero_off1 inb_S2048x256_S2048x256_0_0 y⟩),
    View.canon_cons_unit_zero zero_off1]
    rw [View.readCov_unit_zero _ zero_off1, View.readAt_eq_ld, View.readAt_eq_ld, View.readAt_eq_ld, View.readAt_eq_ld,
      View.readAt_eq_ld, hf0, hf1, hfs, hf2, hf3,
      View.ld_unit_zero zero_off1, View.ld_unit_zero zero_off1, View.ld_unit_zero zero_off1, View.ld_unit_zero zero_off1,
      View.ld_unit_zero zero_off1]
  iexists _; isplitr
  swap; · iexact HS
  ipureintro
  sl_unfold_run_names
  rw [View.read_writes_eq_canon _ _ _ (fun y => ⟨_, List.mem_cons_self, View.mem_set_unit_zero zero_off1 inb_S2048x256_S2048x256_0_0 y⟩),
    View.canon_cons_unit_zero zero_off1]
  rw [View.readAt_eq_ld, View.readAt_eq_ld, View.readAt_eq_ld, hf0, hf1, hfs,
    View.ld_unit_zero zero_off1, View.ld_unit_zero zero_off1, View.ld_unit_zero zero_off1]

/-! ## The body obligation -/

/-- Each window's current staging memref at point t, spelled as the pipeline passes it, and its wholeness. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x256 .bf16 := win1_4.stage (cfg1.slots t 4)
abbrev hs1_4 (t : Fin cfg1.N) : (ms1_4 t).IsWhole := hstage1_4 ((cfg1.slots t 4).cast nbuf1_4)

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 V c t := by dsimp only [dat1]

/-- Each input's current staging buffer holds its block at every point, fetched there or not: unfetched, the block
    index has not moved, and the body leaves every input in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the position mod 8 says which case the point is in;
    the invariant hands the body the accumulator at what the point before left (at anything at the very first point)
    and takes it back at this point's value, the other scoped buffers and the generator register passing through;
    away from k = 7 the output's buffer goes back as it came, at k = 7 it holds the epilogue of the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  by_cases h0 : t.val % 8 = 0
  · have h1 : ¬ t.val % 8 = 7 := by omega
    rw [Dat.leavesExact_idle (dat1 V c) 4 t (idle1_4 t h1) (noFlush1_4 t h1)]
    rw [acc1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply (run1_first c (grid1.coords t) (ms1_0 t) (hs1_0 t) (ms1_1 t) (hs1_1 t) (ms1_2 t) (hs1_2 t) (ms1_3 t) (hs1_3 t) (ms1_4 t) (hs1_4 t) scM1 (Memref.isWhole_whole _)
        ((isFirst1_iff t).mpr h0) (fun h => h1 ((isLast1_iff t).mp h)) (iblk1 V c 0 t) (iblk1 V c 1 t) (iblk1 V c 2 t) (iblk1 V c 3 t) ((dat1 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run1_first c (grid1.coords t) (ms1_0 t) (hs1_0 t) (ms1_1 t) (hs1_1 t) (ms1_2 t) (hs1_2 t) (ms1_3 t) (hs1_3 t) (ms1_4 t) (hs1_4 t) scM1 (Memref.isWhole_whole _)
        ((isFirst1_iff t).mpr h0) (fun h => h1 ((isLast1_iff t).mp h)) (iblk1 V c 0 t) (iblk1 V c 1 t) (iblk1 V c 2 t) (iblk1 V c 3 t) ((dat1 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [acc1_next V c t h0]
    rw [PhiS1_castSucc V c t, PhiS1_pos V c _ _ hz]
    by_cases h1 : t.val % 8 = 7
    · rw [show (dat1 V c).leavesExact 4 t = owns (c : Thread nD τ) (ms1_4 t) fullShare ((dat1 V c).after 4 t) from by
        unfold Dat.leavesExact; rw [live1_4 t h1], after1_4]
      unfold out1_4
      rw [acc1_next V c t h0]
      iintro ⟨⟨⟨HS, HR⟩, Hg⟩, Ho, ⟨%d0, H0⟩, ⟨%d1, H1⟩, ⟨%d2, H2⟩, ⟨%d3, H3⟩, ⟨%d4, H4⟩⟩
      iapply (run1_last c (grid1.coords t) (ms1_0 t) (hs1_0 t) (ms1_1 t) (hs1_1 t) (ms1_2 t) (hs1_2 t) (ms1_3 t) (hs1_3 t) (ms1_4 t) (hs1_4 t) scM1 (Memref.isWhole_whole _)
        (fun h => h0 ((isFirst1_iff t).mp h)) ((isLast1_iff t).mpr h1) (iblk1 V c 0 t) (iblk1 V c 1 t) (iblk1 V c 2 t) (iblk1 V c 3 t)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idle1_4 t h1) (noFlush1_4 t h1)]
      iintro ⟨⟨⟨HS, HR⟩, Hg⟩, Ho, ⟨%d0, H0⟩, ⟨%d1, H1⟩, ⟨%d2, H2⟩, ⟨%d3, H3⟩, ⟨%d4, H4⟩⟩
      iapply (run1_mid c (grid1.coords t) (ms1_0 t) (hs1_0 t) (ms1_1 t) (hs1_1 t) (ms1_2 t) (hs1_2 t) (ms1_3 t) (hs1_3 t) (ms1_4 t) (hs1_4 t) scM1 (Memref.isWhole_whole _)
        (fun h => h0 ((isFirst1_iff t).mp h)) (fun h => h1 ((isLast1_iff t).mp h)) (iblk1 V c 0 t) (iblk1 V c 1 t) (iblk1 V c 2 t) (iblk1 V c 3 t) ((dat1 V c).before 4 t d4)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KernelIdeal.Region2.lean ====
/-
  Region 2 of the program: the second neighbourhood aggregation, H2 = A1 · T1 + b2, computed block by block on a
  grid of 4 × 8 points. Point (i, k) multiplies block (i, k) of A1 (2048 × 1024) with row block k of T1
  (1024 × 256) and adds the product into an accumulator (2048 × 256) that lives in a scratch buffer carried from
  point to point: the accumulator is zeroed at k = 0, and at k = 7 the bias row is added to it and the sum is
  stored as row block i of the result. So there are three control cases — k = 0, 0 < k < 7, k = 7 — and the
  result's window is left untouched (and not written back) at every point with k ≠ 7.
  Everything here is generic in the float instance.
-/
import proofs.«130687_j53085795778708_2_alg».proof.Proof.Gen.KernelIdeal.Launch
import proofs.«130687_j53085795778708_2_alg».proof.Proof.Gen.KernelIdeal.Skeleton
import proofs.«130687_j53085795778708_2_alg».proof.Proof.Gen.KernelIdeal.Points
import proofs.«130687_j53085795778708_2_alg».proof.Proof.LibReadBack
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the point fetched it or not
    (an unfetched block has not moved): the A1 block, -/
theorem found2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- the T1 row block, -/
theorem found2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- and the bias row. -/
theorem found2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions on the column coordinate -/

/-- "k = 0", as the body computes it from the point's coordinates: the accumulator is zeroed. -/
abbrev atFirstCol2 (i : grid2.Coords) : Prop :=
  (Scalar.cmpi .ne (Scalar.extui (Scalar.cmpi .eq (BitVec.ofNat 32 (i 1).val) 0#32)) 0#32) = 1#1
/-- Point t = 8·i + k has k = 0 iff t ≡ 0 (mod 8). -/
theorem atFirstCol2_iff : ∀ t : Fin cfg2.N, atFirstCol2 (grid2.coords t) ↔ t.val % 8 = 0 :=
  (by decide +kernel : ∀ t : Fin grid2.N, atFirstCol2 (grid2.coords t) ↔ t.val % 8 = 0)

/-- "k = 7": the row block is finished and stored. -/
abbrev atLastCol2 (i : grid2.Coords) : Prop := k2_cond2 i = 1#1
/-- Point t = 8·i + k has k = 7 iff t ≡ 7 (mod 8). -/
theorem atLastCol2_iff : ∀ t : Fin cfg2.N, atLastCol2 (grid2.coords t) ↔ t.val % 8 = 7 :=
  (by decide +kernel : ∀ t : Fin grid2.N, atLastCol2 (grid2.coords t) ↔ t.val % 8 = 7)

/-! ## Where the windows are idle -/

theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl
/-- The result's window is idle away from k = 7: nothing is stored into it there, -/
theorem idle2_3 : ∀ t : Fin cfg2.N, ¬atLastCol2 (grid2.coords t) → cfg2.idle 3 (grid2.coords t) = true := by decide +kernel
/-- and it is not written back there; -/
theorem noFlush2_3 : ∀ t : Fin cfg2.N, ¬atLastCol2 (grid2.coords t) → (cfg2.win 3).flush t = false := by decide +kernel
/-- at k = 7 it is live. -/
theorem live2_3 : ∀ t : Fin cfg2.N, atLastCol2 (grid2.coords t) → cfg2.idle 3 (grid2.coords t) = false := by decide +kernel

/-! ## The accumulator -/

/-- The scratch buffer that carries the accumulator from point to point. -/
abbrev acc2M : Memref sig .tc .vmem S2048x256 .f32 := Memref.whole cc2_scratch0

/-- THE ACCUMULATION. The accumulator after the body at position `n` (point n = 8·i + k): at k = 0 the product of
    this point's blocks added to the zero block; otherwise added to what the point before left. -/
def acc2 (c : Dev nD) : (n : ℕ) → n < cfg2.N → Vec F S2048x256 .f32
  | 0, hn => Gen.k2_pay2 (iblk2 V c 0 ⟨0, hn⟩) (iblk2 V c 1 ⟨0, hn⟩) (Gen.k2_pay1 (F := F))
  | n + 1, hn =>
    if (n + 1) % 8 = 0 then Gen.k2_pay2 (iblk2 V c 0 ⟨n + 1, hn⟩) (iblk2 V c 1 ⟨n + 1, hn⟩) (Gen.k2_pay1 (F := F))
    else Gen.k2_pay2 (iblk2 V c 0 ⟨n + 1, hn⟩) (iblk2 V c 1 ⟨n + 1, hn⟩) (acc2 c n (Nat.lt_of_succ_lt hn))

/-- At a point with k = 0 the accumulator restarts from zero. -/
theorem acc2_restart (c : Dev nD) (t : Fin cfg2.N) (h : t.val % 8 = 0) :
    acc2 V c t.val t.isLt = Gen.k2_pay2 (iblk2 V c 0 t) (iblk2 V c 1 t) (Gen.k2_pay1 (F := F)) := by
  obtain ⟨n, hn⟩ := t
  cases n with
  | zero => rfl
  | succ n => exact if_pos h

/-- At a point with k ≠ 0 it continues from the point before. -/
theorem acc2_continue (c : Dev nD) (t : Fin cfg2.N) (h : ¬t.val % 8 = 0) :
    acc2 V c t.val t.isLt = Gen.k2_pay2 (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h
  | succ n => exact if_neg h

/-! ## The body's triple, case by case -/

/-- The zero offsets of a whole-buffer access, however spelt. -/
theorem zeroOff2 : (![0, 0] : Fin 2 → Nat) = fun _ => 0 := funext fun a => by fin_cases a <;> rfl

/-- After stores the last of which wrote the whole buffer, the buffer holds that store's value. -/
theorem read_afterWholeStore2 {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A load of a whole buffer reads the buffer's contents. -/
theorem readAt_whole2 {sp : Space} {S : Shape} {e : EltTy} (v : View sig .tc sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

/-- k = 0: the accumulator is zeroed and this point's product added; the result's buffer is handed back as found. -/
theorem kernel2_first (c : Dev nD) (E : Set ℕ) (i : grid2.Coords)
    (arg2 : Memref sig .tc .vmem S2048x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S2048x256 .bf16) (harg5 : arg5.IsWhole)
    (arg6 : Memref sig .tc .vmem S2048x256 .f32) (harg6 : arg6.IsWhole) (h1 : atFirstCol2 i) (h2 : ¬atLastCol2 i)
    (x0 : Vec F S2048x1024 .f32) (x1 : Vec F S1024x256 .bf16) (x2 : Vec F S1x256 .f32) (x3 : Vec F S2048x256 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (Gen.k2_pay2 x0 x1 (Gen.k2_pay1 (F := F)))) -∗ K ⟨⟩))
      ⊢ wp frame (wpE (defs₀ (F := F)) Variants.none c none) E (cc2_kernel i arg2 harg2 arg3 harg3 arg4 harg4 arg5 harg5 arg6 harg6) K := by
  simp only [Gen.cc2_kernel_eq_skeleton]; unfold Gen.cc2_kernel_skel
  unfold owns
  iintro ⟨⟨%f0, %hf0, H0⟩, ⟨%f1, %hf1, H1⟩, ⟨%f2, %hf2, H2⟩, ⟨%f3, %hf3, H3⟩, ⟨%da, %fa, -, HA⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HA
  ipureintro
  sl_unfold_run_names
  rw [read_afterWholeStore2 arg6.view fa zeroOff2, View.readCov_unit_zero arg6.view zeroOff2,
    readAt_whole2 arg2.view f0 zeroOff2, readAt_whole2 arg3.view f1 zeroOff2]

/-- 0 < k < 7: this point's product is added to the accumulator; the result's buffer is handed back as found. -/
theorem kernel2_middle (c : Dev nD) (E : Set ℕ) (i : grid2.Coords)
    (arg2 : Memref sig .tc .vmem S2048x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S2048x256 .bf16) (harg5 : arg5.IsWhole)
    (arg6 : Memref sig .tc .vmem S2048x256 .f32) (harg6 : arg6.IsWhole) (h1 : ¬atFirstCol2 i) (h2 : ¬atLastCol2 i)
    (x0 : Vec F S2048x1024 .f32) (x1 : Vec F S1024x256 .bf16) (x2 : Vec F S1x256 .f32) (x3 : Vec F S2048x256 .bf16)
    (xa : Vec F S2048x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xa
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (Gen.k2_pay2 x0 x1 xa)) -∗ K ⟨⟩))
      ⊢ wp frame (wpE (defs₀ (F := F)) Variants.none c none) E (cc2_kernel i arg2 harg2 arg3 harg3 arg4 harg4 arg5 harg5 arg6 harg6) K := by
  simp only [Gen.cc2_kernel_eq_skeleton]; unfold Gen.cc2_kernel_skel
  unfold owns
  iintro ⟨⟨%f0, %hf0, H0⟩, ⟨%f1, %hf1, H1⟩, ⟨%f2, %hf2, H2⟩, ⟨%f3, %hf3, H3⟩, ⟨%fa, %hfa, HA⟩, Hk⟩
  subst hf0; subst hf1; subst hf2; subst hf3; subst hfa
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HA
  ipureintro
  rw [read_afterWholeStore2 arg6.view fa zeroOff2,
    readAt_whole2 arg2.view f0 zeroOff2, readAt_whole2 arg3.view f1 zeroOff2, readAt_whole2 arg6.view fa zeroOff2]

/-- k = 7: this point's product is added to the accumulator, and the accumulator plus the bias row is stored into
    the result's buffer. -/
theorem kernel2_last (c : Dev nD) (E : Set ℕ) (i : grid2.Coords)
    (arg2 : Memref sig .tc .vmem S2048x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S2048x256 .bf16) (harg5 : arg5.IsWhole)
    (arg6 : Memref sig .tc .vmem S2048x256 .f32) (harg6 : arg6.IsWhole) (h1 : ¬atFirstCol2 i) (h2 : atLastCol2 i)
    (x0 : Vec F S2048x1024 .f32) (x1 : Vec F S1024x256 .bf16) (x2 : Vec F S1x256 .f32)
    (xa : Vec F S2048x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xa
        ∗ (iprop(owns (c : Thread nD τ) arg2 fullShare x0 ∗ owns (c : Thread nD τ) arg3 fullShare x1 ∗ owns (c : Thread nD τ) arg4 fullShare x2
            ∗ owns (c : Thread nD τ) arg5 fullShare (Gen.k2_pay3 (Gen.k2_pay2 x0 x1 xa) x2)
            ∗ owns (c : Thread nD τ) arg6 fullShare (Gen.k2_pay2 x0 x1 xa)) -∗ K ⟨⟩))
      ⊢ wp frame (wpE (defs₀ (F := F)) Variants.none c none) E (cc2_kernel i arg2 harg2 arg3 harg3 arg4 harg4 arg5 harg5 arg6 harg6) K := by
  simp only [Gen.cc2_kernel_eq_skeleton]; unfold Gen.cc2_kernel_skel
  unfold owns
  iintro ⟨⟨%f0, %hf0, H0⟩, ⟨%f1, %hf1, H1⟩, ⟨%f2, %hf2, H2⟩, ⟨%d3, %f3, -, H3⟩, ⟨%fa, %hfa, HA⟩, Hk⟩
  subst hf0; subst hf1; subst hf2; subst hfa
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_afterWholeStore2 arg5.view f3 zeroOff2, View.readCov_unit_zero arg6.view zeroOff2,
      readAt_whole2 arg2.view f0 zeroOff2, readAt_whole2 arg3.view f1 zeroOff2, readAt_whole2 arg6.view fa zeroOff2,
      readAt_whole2 arg4.view f2 zeroOff2]
  iexists _; isplitr
  swap; · iexact HA
  ipureintro
  sl_unfold_run_names
  rw [read_afterWholeStore2 arg6.view fa zeroOff2,
    readAt_whole2 arg2.view f0 zeroOff2, readAt_whole2 arg3.view f1 zeroOff2, readAt_whole2 arg6.view fa zeroOff2]

/-! ## The region's invariant -/

/-- Before the first point: what the launch hands the region (every scoped buffer that is no staging buffer at some
    contents, and the generator register). Before any later point: the same with the accumulator's buffer at what
    the point before left in it; the other scoped buffers are carried along unopened. -/
def Phi2 (c : Dev nD) : (n : ℕ) → n ≤ cfg2.N → sProp 𝕄
  | 0, _ => Pipeline.ΦA spec2 c
  | n + 1, hn => iprop(iprop(owns (c : Thread nD τ) acc2M fullShare (acc2 V c n hn) ∗ Pipeline.scopedRestBut spec2 c [cc2_scratch0]) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) acc2M fullShare (acc2 V c n hn) ∗ Pipeline.scopedRestBut spec2 c [cc2_scratch0]) ∗ (∃ r, prngReg c r)) := rfl

theorem Phi2_pos (c : Dev nD) (n : ℕ) (h : n ≤ cfg2.N) (hz : n ≠ 0) :
    Phi2 V c n h = iprop(iprop(owns (c : Thread nD τ) acc2M fullShare (acc2 V c (n - 1) (by omega)) ∗ Pipeline.scopedRestBut spec2 c [cc2_scratch0]) ∗ (∃ r, prngReg c r)) := by
  cases n with
  | zero => exact absurd rfl hz
  | succ n => rfl

/-- What the launch hands the region, with the accumulator's buffer split off the other scoped buffers. -/
theorem PhiA2_eq (c : Dev nD) :
    (Pipeline.ΦA spec2 c : sProp 𝕄)
      = iprop(iprop((∃ d, owns (c : Thread nD τ) acc2M fullShare d) ∗ Pipeline.scopedRestBut spec2 c [cc2_scratch0]) ∗ (∃ r, prngReg c r)) := by
  unfold Pipeline.ΦA; rw [Gen.scopedRest2_split]; simp only [acc2M, owns_whole]; try rfl

/-! ## The proof data -/

/-- The arrays as the region finds them; after the body each input's buffer at its block, and the result's buffer at
    the accumulator plus the bias row (consulted only at k = 7: elsewhere the window is idle and not written back);
    the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => Gen.k2_pay3 (acc2 V c t.val t.isLt) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
/-- The result's buffer after the body: the accumulator plus the bias row. -/
theorem after2_3 (c : Dev nD) (t : Fin cfg2.N) :
    (dat2 V c).after 3 t = Gen.k2_pay3 (acc2 V c t.val t.isLt) (iblk2 V c 2 t) := by dsimp only [dat2]

theorem found2_0 (c : Dev nD) (t : Fin cfg2.N) (d) : (dat2 V c).before 0 t d = iblk2 V c 0 t :=
  found2_0_of V (dat2 V c) (A_eq2 V c 0) (after2_0 V c) t d
theorem found2_1 (c : Dev nD) (t : Fin cfg2.N) (d) : (dat2 V c).before 1 t d = iblk2 V c 1 t :=
  found2_1_of V (dat2 V c) (A_eq2 V c 1) (after2_1 V c) t d
theorem found2_2 (c : Dev nD) (t : Fin cfg2.N) (d) : (dat2 V c).before 2 t d = iblk2 V c 2 t :=
  found2_2_of V (dat2 V c) (A_eq2 V c 2) (after2_2 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (Gen.st2_0 t) fullShare ((dat2 V c).before 0 t d))
    ∗ (∃ d, owns (c : Thread nD τ) (Gen.st2_1 t) fullShare ((dat2 V c).before 1 t d))
    ∗ (∃ d, owns (c : Thread nD τ) (Gen.st2_2 t) fullShare ((dat2 V c).before 2 t d))
    ∗ (∃ d, owns (c : Thread nD τ) (Gen.st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- The body at any point. The inputs' buffers hold their blocks; the column coordinate says which case the point is
    in. The invariant hands the body the accumulator's buffer at what the point before left (at anything at the very
    first point) and takes it back at this point's accumulator; the other scoped buffers, the generator register and
    what the core owes pass through untouched. Away from k = 7 the result's buffer is handed back as found. -/
theorem sound_body2 (c : Dev nD) (t : Fin cfg2.N) :
    bodyPre2 V c t ⊢ wp frame (wpE (defs₀ (F := F)) Variants.none c none) Set.univ (Gen.bodyAt2 t) (fun _ => bodyPost2 V c t) := by
  unfold bodyPre2 bodyPost2 Gen.bodyAt2
  simp only [found2_0, found2_1, found2_2]
  rw [show (dat2 V c).owesAt () t.succ = (dat2 V c).owesAt () t.castSucc from rfl]
  rw [show (dat2 V c).Φ t.succ = Phi2 V c (t.val + 1) t.isLt from rfl, Phi2_succ]
  have hN : t.val < 32 := lt_of_lt_of_eq t.isLt (show cfg2.N = 32 from Gen.N_2)
  rw [show (dat2 V c).leavesExact 0 t = owns (c : Thread nD τ) (Gen.st2_0 t) fullShare ((dat2 V c).after 0 t) from by
    unfold Dat.leavesExact; rw [live2_0 t], after2_0]
  rw [show (dat2 V c).leavesExact 1 t = owns (c : Thread nD τ) (Gen.st2_1 t) fullShare ((dat2 V c).after 1 t) from by
    unfold Dat.leavesExact; rw [live2_1 t], after2_1]
  rw [show (dat2 V c).leavesExact 2 t = owns (c : Thread nD τ) (Gen.st2_2 t) fullShare ((dat2 V c).after 2 t) from by
    unfold Dat.leavesExact; rw [live2_2 t], after2_2]
  by_cases h0 : t.val % 8 = 0
  · -- k = 0
    have hF : atFirstCol2 (grid2.coords t) := (atFirstCol2_iff t).mpr h0
    have hL : ¬atLastCol2 (grid2.coords t) := fun h => by have := (atLastCol2_iff t).mp h; omega
    rw [Dat.leavesExact_idle (dat2 V c) 3 t (idle2_3 t hL) (noFlush2_3 t hL)]
    rw [acc2_restart V c t h0]
    by_cases hz : t.val = 0
    · rw [Phi2_castSucc V c t, Phi2_zero V c _ _ hz, PhiA2_eq]
      iintro ⟨⟨⟨HS, HR⟩, Hg⟩, Ho, ⟨%d0, H0⟩, ⟨%d1, H1⟩, ⟨%d2, H2⟩, ⟨%d3, H3⟩⟩
      iapply (kernel2_first c Set.univ (grid2.coords t) _ _ _ _ _ _ _ _ _ _ hF hL (iblk2 V c 0 t) (iblk2 V c 1 t) (iblk2 V c 2 t) ((dat2 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi2_castSucc V c t, Phi2_pos V c _ _ hz]
      iintro ⟨⟨⟨HS, HR⟩, Hg⟩, Ho, ⟨%d0, H0⟩, ⟨%d1, H1⟩, ⟨%d2, H2⟩, ⟨%d3, H3⟩⟩
      iapply (kernel2_first c Set.univ (grid2.coords t) _ _ _ _ _ _ _ _ _ _ hF hL (iblk2 V c 0 t) (iblk2 V c 1 t) (iblk2 V c 2 t) ((dat2 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hF : ¬atFirstCol2 (grid2.coords t) := fun h => h0 ((atFirstCol2_iff t).mp h)
    have hz : t.val ≠ 0 := fun e => h0 (by rw [e])
    rw [acc2_continue V c t h0]
    rw [Phi2_castSucc V c t, Phi2_pos V c _ _ hz]
    by_cases h7 : t.val % 8 = 7
    · -- k = 7
      have hL : atLastCol2 (grid2.coords t) := (atLastCol2_iff t).mpr h7
      rw [show (dat2 V c).leavesExact 3 t = owns (c : Thread nD τ) (Gen.st2_3 t) fullShare ((dat2 V c).after 3 t) from by
        unfold Dat.leavesExact; rw [live2_3 t hL], after2_3, acc2_continue V c t h0]
      iintro ⟨⟨⟨HS, HR⟩, Hg⟩, Ho, ⟨%d0, H0⟩, ⟨%d1, H1⟩, ⟨%d2, H2⟩, ⟨%d3, H3⟩⟩
      iapply (kernel2_last c Set.univ (grid2.coords t) _ _ _ _ _ _ _ _ _ _ hF hL (iblk2 V c 0 t) (iblk2 V c 1 t) (iblk2 V c 2 t)
        (acc2 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- 0 < k < 7
      have hL : ¬atLastCol2 (grid2.coords t) := fun h => h7 ((atLastCol2_iff t).mp h)
      rw [Dat.leavesExact_idle (dat2 V c) 3 t (idle2_3 t hL) (noFlush2_3 t hL)]
      iintro ⟨⟨⟨HS, HR⟩, Hg⟩, Ho, ⟨%d0, H0⟩, ⟨%d1, H1⟩, ⟨%d2, H2⟩, ⟨%d3, H3⟩⟩
      iapply (kernel2_middle c Set.univ (grid2.coords t) _ _ _ _ _ _ _ _ _ _ hF hL (iblk2 V c 0 t) (iblk2 V c 1 t) (iblk2 V c 2 t) ((dat2 V c).before 3 t d3)
        (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [Gen.bigSep_W2, Gen.bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point the invariant gives the launch's back: what the accumulator holds is forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, HR⟩, Hg⟩
  isplitl [HS HR]
  · isplitl [HS]
    · iexists _; iexact HS
    iexact HR
  iexact Hg

theorem hout2 (c : Dev nD) : (dat2 V c).Φ (Fin.last cfg2.N) ⊢ Pipeline.ΦA spec2 c :=
  Phi2_out V c _ (by rw [Fin.val_last]; have : cfg2.N = 32 := Gen.N_2; omega)

end Cert.KernelIdeal.Hand

end
-- ==== Proof.KernelIdeal.Region3.lean ====
/-
  The fourth pallas_call: the three-layer perceptron and the row-wise log-softmax, on a grid of 16 points.
  At point t the body reads rows 512·t … 512·t + 511 of H2 and of the target features, the two halves La, Lb
  of the first weight matrix, the weight matrices L2, L3 and the three bias rows c1, c2, c3 (each of these a
  whole array), and writes rows 512·t … of the output. Every point behaves alike: one control case.

  This file gives, for any float instance, each window's block at a point, what every staging buffer holds when
  the body starts and when it ends, and the body's triple; the value of the output block is a pure function
  (the payloads of the skeleton) of the nine input blocks.
-/
import proofs.«130687_j53085795778708_2_alg».proof.Proof.Gen.KernelIdeal.Launch
import proofs.«130687_j53085795778708_2_alg».proof.Proof.Gen.KernelIdeal.Skeleton
import proofs.«130687_j53085795778708_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point, whether the point fetched it or not: a
    window that is not fetched has not moved, so the block the previous point left there is this point's block.
    The two row-block windows are fetched at every point; the seven whole windows at the first point only. -/

/-- Input window 0 (the row block of H2). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the row block of the target features). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (La (the first 256 rows of L1)). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 (Lb (the last 512 rows of L1)). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4 (the bias row c1). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5 (L2). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6 (the bias row c2). -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7 (L3). -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8 (the bias row c3). -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a buffer whole -/

abbrev rect3_0 : Rect S512x256 := Rect.unit (s := S512x256) ![0, 0] S512x256.size inb_S512x256_S512x256_0_0
abbrev rect3_1 : Rect S512x512 := Rect.unit (s := S512x512) ![0, 0] S512x512.size inb_S512x512_S512x512_0_0
abbrev rect3_2 : Rect S256x768 := Rect.unit (s := S256x768) ![0, 0] S256x768.size inb_S256x768_S256x768_0_0
abbrev rect3_3 : Rect S512x768 := Rect.unit (s := S512x768) ![0, 0] S512x768.size inb_S512x768_S512x768_0_0
abbrev rect3_4 : Rect S1x768 := Rect.unit (s := S1x768) ![0, 0] S1x768.size inb_S1x768_S1x768_0_0
abbrev rect3_5 : Rect S768x768 := Rect.unit (s := S768x768) ![0, 0] S768x768.size inb_S768x768_S768x768_0_0
abbrev rect3_6 : Rect S1x768 := Rect.unit (s := S1x768) ![0, 0] S1x768.size inb_S1x768_S1x768_0_0
abbrev rect3_7 : Rect S768x512 := Rect.unit (s := S768x512) ![0, 0] S768x512.size inb_S768x512_S768x512_0_0
abbrev rect3_8 : Rect S1x512 := Rect.unit (s := S1x512) ![0, 0] S1x512.size inb_S1x512_S1x512_0_0
abbrev rect3_9 : Rect S512x512 := Rect.unit (s := S512x512) ![0, 0] S512x512.size inb_S512x512_S512x512_0_0

/-! ## What the body leaves in the output's buffer -/

/-- The output block as a function of the nine input blocks: the log-softmax payload of the logits
    (the three dense layers on the block's rows) and the last bias row, stored over the whole buffer. -/
def out3_9 (x0 : Vec F S512x256 .bf16) (x1 : Vec F S512x512 .f32) (x2 : Vec F S256x768 .f32) (x3 : Vec F S512x768 .f32) (x4 : Vec F S1x768 .f32) (x5 : Vec F S768x768 .f32) (x6 : Vec F S1x768 .f32) (x7 : Vec F S768x512 .f32) (x8 : Vec F S1x512 .f32) : Vec F S512x512 .f32 :=
  View.canon [⟨rect3_9, k3_pay1 (k3_pay2 (View.ld x0 rect3_0) (View.ld x1 rect3_1) (View.ld x2 rect3_2) (View.ld x3 rect3_3) (View.ld x4 rect3_4) (View.ld x5 rect3_5) (View.ld x6 rect3_6) (View.ld x7 rect3_7)) (k3_pay3 (View.ld x8 rect3_8))⟩]

/-- The one store covers the buffer. -/
theorem cover3_9 (p0 : Vec F S512x512 .f32) (y : S512x512.Idx) :
    ∃ pc ∈ ([⟨rect3_9, p0⟩] : List (View.Piece (Elt F) S512x512 .f32)), y ∈ pc.1.set :=
  View.cover_of_tiled [⟨rect3_9, p0⟩] S512x512.size (by rfl) y

/-! ## The body's triple -/

set_option maxHeartbeats 1000000 in
/-- The body on whole staging buffers, the nine inputs at contents `x·` and the output at anything, runs to a
    state with the inputs unchanged and the output at `out3_9` of the inputs: nine whole loads (in the part that
    computes the logits), a whole load of the output buffer whose value is not used, and one whole store. -/
theorem sound_kernel3 (c : Dev nD) (E : Set ℕ) (i : grid3.Coords) (arg1 : Memref sig .tc .vmem S512x256 .bf16) (harg1 : arg1.IsWhole) (arg2 : Memref sig .tc .vmem S512x512 .f32) (harg2 : arg2.IsWhole) (arg3 : Memref sig .tc .vmem S256x768 .f32) (harg3 : arg3.IsWhole) (arg4 : Memref sig .tc .vmem S512x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x512 .f32) (harg8 : arg8.IsWhole) (arg9 : Memref sig .tc .vmem S1x512 .f32) (harg9 : arg9.IsWhole) (arg10 : Memref sig .tc .vmem S512x512 .f32) (harg10 : arg10.IsWhole)
    (x0 : Vec F S512x256 .bf16) (x1 : Vec F S512x512 .f32) (x2 : Vec F S256x768 .f32) (x3 : Vec F S512x768 .f32) (x4 : Vec F S1x768 .f32) (x5 : Vec F S768x768 .f32) (x6 : Vec F S1x768 .f32) (x7 : Vec F S768x512 .f32) (x8 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8)) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9 arg10 harg10) K := by
  simp only [cc3_kernel_eq_skeleton]; unfold cc3_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-! ## The pipeline's proof data -/

/-- The proof data of this pipeline on core `c`: the arrays as the region finds them; after the body at point `t`
    each input's buffer still at its block and the output's at `out3_9` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends: it is the class invariant itself at every point -/

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.KernelIdeal.Hand

end
-- ==== Proof.KernelIdeal.Run.lean ====
/-
  The whole program run: four kernel regions among three short stretches of host operations (a bias vector laid out
  as a row; the two row slices of L1; three more bias rows).

  Between two items a core holds every buffer that outlives a region at known contents: the launch contents, then,
  item by item, what a host stretch computes or what a region's write-backs leave in its arrays (its inputs as
  found). Each region is entered from those contents and left at the next ones; no item writes an argument array, so
  each ends as launched, and the last region's result array ends at what its blocks wrote.
-/
import proofs.«130687_j53085795778708_2_alg».proof.Proof.KernelIdeal.Region0
import proofs.«130687_j53085795778708_2_alg».proof.Proof.KernelIdeal.Region1
import proofs.«130687_j53085795778708_2_alg».proof.Proof.KernelIdeal.Region2
import proofs.«130687_j53085795778708_2_alg».proof.Proof.KernelIdeal.Region3
import proofs.«130687_j53085795778708_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch that follows (the next region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After region 1: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host stretch that follows (the next region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After region 2: its arrays at what its write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the host stretch that follows (the next region's entry). -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

/-- After region 3: its arrays at what its write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-! ## What each item leaves unchanged -/

/-- Region 0 changes only its result array: an input array is read back as it was found, a bypassing buffer is untouched. -/
theorem W1_step (c : Dev nD) (b : Ref sig .tc) (hb : b ≠ main_v0) :
    W1 m ρ c (Proc.devRef .tc b) = W0 m ρ c (Proc.devRef .tc b) := by
  by_cases h : ∃ w, Pipeline.arrRef spec0 w = b
  · obtain ⟨w, rfl⟩ := h
    rw [W1_arr]
    match w with
    | ⟨0, _⟩ => exact ((dat0 (V0 m ρ) c).arrAt_in ⟨0, by decide⟩ rfl _).trans (A_eq0 (V0 m ρ) c ⟨0, by decide⟩)
    | ⟨1, _⟩ => exact ((dat0 (V0 m ρ) c).arrAt_in ⟨1, by decide⟩ rfl _).trans (A_eq0 (V0 m ρ) c ⟨1, by decide⟩)
    | ⟨2, _⟩ => exact absurd rfl hb
  · exact W1_of_ne m ρ c b (fun w e => h ⟨w, e⟩)

/-- Region 1 changes only its result array: an input array is read back as it was found, a bypassing buffer is untouched. -/
theorem W3_step (c : Dev nD) (b : Ref sig .tc) (hb : b ≠ main_v2) :
    W3 m ρ c (Proc.devRef .tc b) = W2 m ρ c (Proc.devRef .tc b) := by
  by_cases h : ∃ w, Pipeline.arrRef spec1 w = b
  · obtain ⟨w, rfl⟩ := h
    rw [W3_arr]
    match w with
    | ⟨0, _⟩ => exact ((dat1 (V2 m ρ) c).arrAt_in ⟨0, by decide⟩ rfl _).trans (A_eq1 (V2 m ρ) c ⟨0, by decide⟩)
    | ⟨1, _⟩ => exact ((dat1 (V2 m ρ) c).arrAt_in ⟨1, by decide⟩ rfl _).trans (A_eq1 (V2 m ρ) c ⟨1, by decide⟩)
    | ⟨2, _⟩ => exact ((dat1 (V2 m ρ) c).arrAt_in ⟨2, by decide⟩ rfl _).trans (A_eq1 (V2 m ρ) c ⟨2, by decide⟩)
    | ⟨3, _⟩ => exact ((dat1 (V2 m ρ) c).arrAt_in ⟨3, by decide⟩ rfl _).trans (A_eq1 (V2 m ρ) c ⟨3, by decide⟩)
    | ⟨4, _⟩ => exact absurd rfl hb
  · exact W3_of_ne m ρ c b (fun w e => h ⟨w, e⟩)

/-- Region 2 changes only its result array: an input array is read back as it was found, a bypassing buffer is untouched. -/
theorem W5_step (c : Dev nD) (b : Ref sig .tc) (hb : b ≠ main_v4) :
    W5 m ρ c (Proc.devRef .tc b) = W4 m ρ c (Proc.devRef .tc b) := by
  by_cases h : ∃ w, Pipeline.arrRef spec2 w = b
  · obtain ⟨w, rfl⟩ := h
    rw [W5_arr]
    match w with
    | ⟨0, _⟩ => exact ((dat2 (V4 m ρ) c).arrAt_in ⟨0, by decide⟩ rfl _).trans (A_eq2 (V4 m ρ) c ⟨0, by decide⟩)
    | ⟨1, _⟩ => exact ((dat2 (V4 m ρ) c).arrAt_in ⟨1, by decide⟩ rfl _).trans (A_eq2 (V4 m ρ) c ⟨1, by decide⟩)
    | ⟨2, _⟩ => exact ((dat2 (V4 m ρ) c).arrAt_in ⟨2, by decide⟩ rfl _).trans (A_eq2 (V4 m ρ) c ⟨2, by decide⟩)
    | ⟨3, _⟩ => exact absurd rfl hb
  · exact W5_of_ne m ρ c b (fun w e => h ⟨w, e⟩)

/-- Region 3 changes only its result array: an input array is read back as it was found, a bypassing buffer is untouched. -/
theorem W7_step (c : Dev nD) (b : Ref sig .tc) (hb : b ≠ main_v10) :
    W7 m ρ c (Proc.devRef .tc b) = W6 m ρ c (Proc.devRef .tc b) := by
  by_cases h : ∃ w, Pipeline.arrRef spec3 w = b
  · obtain ⟨w, rfl⟩ := h
    rw [W7_arr]
    match w with
    | ⟨0, _⟩ => exact ((dat3 (V6 m ρ) c).arrAt_in ⟨0, by decide⟩ rfl _).trans (A_eq3 (V6 m ρ) c ⟨0, by decide⟩)
    | ⟨1, _⟩ => exact ((dat3 (V6 m ρ) c).arrAt_in ⟨1, by decide⟩ rfl _).trans (A_eq3 (V6 m ρ) c ⟨1, by decide⟩)
    | ⟨2, _⟩ => exact ((dat3 (V6 m ρ) c).arrAt_in ⟨2, by decide⟩ rfl _).trans (A_eq3 (V6 m ρ) c ⟨2, by decide⟩)
    | ⟨3, _⟩ => exact ((dat3 (V6 m ρ) c).arrAt_in ⟨3, by decide⟩ rfl _).trans (A_eq3 (V6 m ρ) c ⟨3, by decide⟩)
    | ⟨4, _⟩ => exact ((dat3 (V6 m ρ) c).arrAt_in ⟨4, by decide⟩ rfl _).trans (A_eq3 (V6 m ρ) c ⟨4, by decide⟩)
    | ⟨5, _⟩ => exact ((dat3 (V6 m ρ) c).arrAt_in ⟨5, by decide⟩ rfl _).trans (A_eq3 (V6 m ρ) c ⟨5, by decide⟩)
    | ⟨6, _⟩ => exact ((dat3 (V6 m ρ) c).arrAt_in ⟨6, by decide⟩ rfl _).trans (A_eq3 (V6 m ρ) c ⟨6, by decide⟩)
    | ⟨7, _⟩ => exact ((dat3 (V6 m ρ) c).arrAt_in ⟨7, by decide⟩ rfl _).trans (A_eq3 (V6 m ρ) c ⟨7, by decide⟩)
    | ⟨8, _⟩ => exact ((dat3 (V6 m ρ) c).arrAt_in ⟨8, by decide⟩ rfl _).trans (A_eq3 (V6 m ρ) c ⟨8, by decide⟩)
    | ⟨9, _⟩ => exact absurd rfl hb
  · exact W7_of_ne m ρ c b (fun w e => h ⟨w, e⟩)

/-- A buffer no earlier item writes is, at each boundary, as launched. -/
theorem W1_arg (c : Dev nD) (b : Ref sig .tc) (h0 : b ≠ main_v0) : W1 m ρ c (Proc.devRef .tc b) = m ((c : Thread nD τ).loc b) :=
  (W1_step m ρ c b h0).trans rfl
theorem W2_arg (c : Dev nD) (b : Ref sig .tc) (h0 : b ≠ main_v0) (h1 : b ∉ hostOps1_W) :
    W2 m ρ c (Proc.devRef .tc b) = m ((c : Thread nD τ).loc b) :=
  (StableHlo.after_of_writes_sub hostOps1 _ hostOps1_writes h1).trans (W1_arg m ρ c b h0)
theorem W3_arg (c : Dev nD) (b : Ref sig .tc) (h0 : b ≠ main_v0) (h1 : b ∉ hostOps1_W) (h2 : b ≠ main_v2) :
    W3 m ρ c (Proc.devRef .tc b) = m ((c : Thread nD τ).loc b) :=
  (W3_step m ρ c b h2).trans (W2_arg m ρ c b h0 h1)
theorem W4_arg (c : Dev nD) (b : Ref sig .tc) (h0 : b ≠ main_v0) (h1 : b ∉ hostOps1_W) (h2 : b ≠ main_v2) (h3 : b ∉ hostOps2_W) :
    W4 m ρ c (Proc.devRef .tc b) = m ((c : Thread nD τ).loc b) :=
  (StableHlo.after_of_writes_sub hostOps2 _ hostOps2_writes h3).trans (W3_arg m ρ c b h0 h1 h2)
theorem W5_arg (c : Dev nD) (b : Ref sig .tc) (h0 : b ≠ main_v0) (h1 : b ∉ hostOps1_W) (h2 : b ≠ main_v2) (h3 : b ∉ hostOps2_W)
    (h4 : b ≠ main_v4) : W5 m ρ c (Proc.devRef .tc b) = m ((c : Thread nD τ).loc b) :=
  (W5_step m ρ c b h4).trans (W4_arg m ρ c b h0 h1 h2 h3)
theorem W6_arg (c : Dev nD) (b : Ref sig .tc) (h0 : b ≠ main_v0) (h1 : b ∉ hostOps1_W) (h2 : b ≠ main_v2) (h3 : b ∉ hostOps2_W)
    (h4 : b ≠ main_v4) (h5 : b ∉ hostOps3_W) : W6 m ρ c (Proc.devRef .tc b) = m ((c : Thread nD τ).loc b) :=
  (StableHlo.after_of_writes_sub hostOps3 _ hostOps3_writes h5).trans (W5_arg m ρ c b h0 h1 h2 h3 h4)
/-- A buffer that no region writes back and no host stretch writes reaches the end as launched. -/
theorem W7_keeps (c : Dev nD) (b : Ref sig .tc) (h0 : b ≠ main_v0) (h1 : b ∉ hostOps1_W) (h2 : b ≠ main_v2) (h3 : b ∉ hostOps2_W)
    (h4 : b ≠ main_v4) (h5 : b ∉ hostOps3_W) (h6 : b ≠ main_v10) :
    W7 m ρ c (Proc.devRef .tc b) = m ((c : Thread nD τ).loc b) :=
  (W7_step m ρ c b h6).trans (W6_arg m ρ c b h0 h1 h2 h3 h4 h5)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the buffers that outlive regions. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every such buffer at the last contents, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0: entered from every buffer at the contents before it, left at the contents after it. Its arrays are split
    out of the buffers and put back at what the write-backs leave; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every buffer at the contents before it, left at the contents after it. Its arrays are split
    out of the buffers and put back at what the write-backs leave; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every buffer at the contents before it, left at the contents after it. Its arrays are split
    out of the buffers and put back at what the write-backs leave; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine BIBase.Entails.trans (hout2 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every buffer at the contents before it, left at the contents after it. Its arrays are split
    out of the buffers and put back at what the write-backs leave; the generator register goes into the invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V6 m ρ) c)
    unfold Pipeline.ΦA
    iintro ⟨Hp, -, Hr⟩
    isplitl [Hr]; · iexact Hr
    iexact Hp
  hout c := by
    rw [Pipeline.ownSems0_none]
    refine BIBase.Entails.trans (hout3 (V6 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]
/-- @main is the run of those items. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every buffer that outlives a region at the last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame claim, at any values: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W7_keeps m ρ c main_arg0 (by decide) (by decide) (by decide) (by decide) (by decide) (by decide) (by decide)),
      (h c _ (mem_uc main_arg1 (by decide))).trans (W7_keeps m ρ c main_arg1 (by decide) (by decide) (by decide) (by decide) (by decide) (by decide) (by decide)),
      (h c _ (mem_uc main_arg2 (by decide))).trans (W7_keeps m ρ c main_arg2 (by decide) (by decide) (by decide) (by decide) (by decide) (by decide) (by decide)),
      (h c _ (mem_uc main_arg3 (by decide))).trans (W7_keeps m ρ c main_arg3 (by decide) (by decide) (by decide) (by decide) (by decide) (by decide) (by decide)),
      (h c _ (mem_uc main_arg4 (by decide))).trans (W7_keeps m ρ c main_arg4 (by decide) (by decide) (by decide) (by decide) (by decide) (by decide) (by decide)),
      (h c _ (mem_uc main_arg5 (by decide))).trans (W7_keeps m ρ c main_arg5 (by decide) (by decide) (by decide) (by decide) (by decide) (by decide) (by decide)),
      (h c _ (mem_uc main_arg6 (by decide))).trans (W7_keeps m ρ c main_arg6 (by decide) (by decide) (by decide) (by decide) (by decide) (by decide) (by decide)),
      (h c _ (mem_uc main_arg7 (by decide))).trans (W7_keeps m ρ c main_arg7 (by decide) (by decide) (by decide) (by decide) (by decide) (by decide) (by decide)),
      (h c _ (mem_uc main_arg8 (by decide))).trans (W7_keeps m ρ c main_arg8 (by decide) (by decide) (by decide) (by decide) (by decide) (by decide) (by decide)),
      (h c _ (mem_uc main_arg9 (by decide))).trans (W7_keeps m ρ c main_arg9 (by decide) (by decide) (by decide) (by decide) (by decide) (by decide) (by decide)),
      (h c _ (mem_uc main_arg10 (by decide))).trans (W7_keeps m ρ c main_arg10 (by decide) (by decide) (by decide) (by decide) (by decide) (by decide) (by decide)),
      (h c _ (mem_uc main_arg11 (by decide))).trans (W7_keeps m ρ c main_arg11 (by decide) (by decide) (by decide) (by decide) (by decide) (by decide) (by decide)),
      (h c _ (mem_uc main_arg12 (by decide))).trans (W7_keeps m ρ c main_arg12 (by decide) (by decide) (by decide) (by decide) (by decide) (by decide) (by decide)),
      (h c _ (mem_uc main_arg13 (by decide))).trans (W7_keeps m ρ c main_arg13 (by decide) (by decide) (by decide) (by decide) (by decide) (by decide) (by decide))⟩) (run_main m ρ)

/-- The result array ends at what the last region's write-backs leave, and every argument array as launched. -/
theorem run_result : θ_run defs (onTc (τ := τ) (main (F := F))) ⟨m, fun _ => 0, ρ⟩ (fun r => ∀ c : Dev nD,
      r.2.mem ((c.tc : Thread nD τ).loc main_v10) = (dat3 (V6 m ρ) c).arrAt 9 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v10 (by decide))).trans (W7_arr m ρ c 9),
      (h c _ (mem_uc main_arg0 (by decide))).trans (W7_keeps m ρ c main_arg0 (by decide) (by decide) (by decide) (by decide) (by decide) (by decide) (by decide)),
      (h c _ (mem_uc main_arg1 (by decide))).trans (W7_keeps m ρ c main_arg1 (by decide) (by decide) (by decide) (by decide) (by decide) (by decide) (by decide)),
      (h c _ (mem_uc main_arg2 (by decide))).trans (W7_keeps m ρ c main_arg2 (by decide) (by decide) (by decide) (by decide) (by decide) (by decide) (by decide)),
      (h c _ (mem_uc main_arg3 (by decide))).trans (W7_keeps m ρ c main_arg3 (by decide) (by decide) (by decide) (by decide) (by decide) (by decide) (by decide)),
      (h c _ (mem_uc main_arg4 (by decide))).trans (W7_keeps m ρ c main_arg4 (by decide) (by decide) (by decide) (by decide) (by decide) (by decide) (by decide)),
      (h c _ (mem_uc main_arg5 (by decide))).trans (W7_keeps m ρ c main_arg5 (by decide) (by decide) (by decide) (by decide) (by decide) (by decide) (by decide)),
      (h c _ (mem_uc main_arg6 (by decide))).trans (W7_keeps m ρ c main_arg6 (by decide) (by decide) (by decide) (by decide) (by decide) (by decide) (by decide)),
      (h c _ (mem_uc main_arg7 (by decide))).trans (W7_keeps m ρ c main_arg7 (by decide) (by decide) (by decide) (by decide) (by decide) (by decide) (by decide)),
      (h c _ (mem_uc main_arg8 (by decide))).trans (W7_keeps m ρ c main_arg8 (by decide) (by decide) (by decide) (by decide) (by decide) (by decide) (by decide)),
      (h c _ (mem_uc main_arg9 (by decide))).trans (W7_keeps m ρ c main_arg9 (by decide) (by decide) (by decide) (by decide) (by decide) (by decide) (by decide)),
      (h c _ (mem_uc main_arg10 (by decide))).trans (W7_keeps m ρ c main_arg10 (by decide) (by decide) (by decide) (by decide) (by decide) (by decide) (by decide)),
      (h c _ (mem_uc main_arg11 (by decide))).trans (W7_keeps m ρ c main_arg11 (by decide) (by decide) (by decide) (by decide) (by decide) (by decide) (by decide)),
      (h c _ (mem_uc main_arg12 (by decide))).trans (W7_keeps m ρ c main_arg12 (by decide) (by decide) (by decide) (by decide) (by decide) (by decide) (by decide)),
      (h c _ (mem_uc main_arg13 (by decide))).trans (W7_keeps m ρ c main_arg13 (by decide) (by decide) (by decide) (by decide) (by decide) (by decide) (by decide))⟩) (run_main m ρ)

end Cert.KernelIdeal.Hand

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«130687_j53085795778708_2_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.LibExactProduct.lean ====
/-
  The exact matrix product as one function of its two operands, entry by entry:
  (x · w)(r, c) = Σ_k x(r, k) · w(k, c) on the extended reals, for an M × K and a K × N matrix.
  The host's contraction of axis 1 against axis 0 (no batch axis) is this function, and so is a product computed row
  block by row block, whatever the tiling of the rows. Also the product plus a bias row added to every row, and the
  host's spelling of that sum: a bias vector laid out as one row, copied into every row, and added.
-/
import proofs.«130687_j53085795778708_2_alg».proof.Proof.LibPlainDot
import Idealize.ShloMosaic.Lib.ValueLayout
import Idealize.ShloMosaic.Lib.Pipeline.Value

noncomputable section

namespace ExactProduct

open Idealize.ShloMosaic Idealize.ShloMosaic.ValueIdx

/-- The exact product of an M × K matrix and a K × N matrix. -/
def mm {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem mm_apply {M K N : ℕ} (x : (⟨2, ![M, K]⟩ : Shape).Idx → EReal) (w : (⟨2, ![K, N]⟩ : Shape).Idx → EReal)
    (r : Fin M) (c : Fin N) : mm x w (ix2 r c) = ∑ k : Fin K, x (ix2 r k) * w (ix2 k c) := rfl

/-- The host's contraction of axis 1 against axis 0, no batch axis, is the exact product. -/
theorem hostDot_eq_mm {M K N : ℕ} (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral (F := Ideal) d prec x w = mm x w := by
  subst hd
  funext i
  obtain ⟨r, c, rfl⟩ : ∃ (r : Fin M) (c : Fin N), i = ix2 r c := ⟨i 0, i 1, eq_ix2 i⟩
  exact PlainDot.apply prec x w r c

/-- The exact product plus a bias row added to every row. -/
def proj {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => mm x w i + b (ix2 (0 : Fin 1) (i 1))

/-- A bias vector laid out as one row and copied into every row reads, at (r, c), the vector at c. -/
theorem rowOfVector_apply {M N : ℕ} (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 bp) (ix2 r c) = bp (ix1 c) := by
  have hc : c.val < N := c.isLt
  refine (broadcastInDim_apply ![0, 1] h2 _ (ix2 r c) (ix2 (0 : Fin 1) c) (fun a => ?_)).trans
    (broadcastInDim_apply ![1] h1 bp (ix2 (0 : Fin 1) c) (ix1 c) (fun a => ?_))
  · match a with
    | ⟨0, _⟩ => rfl
    | ⟨1, _⟩ =>
      show c.val = if N = 1 then 0 else c.val
      split
      · omega
      · rfl
  · match a with
    | ⟨0, _⟩ =>
      show c.val = if N = 1 then 0 else c.val
      split
      · omega
      · rfl

/-- The host's product plus the bias vector copied into every row is the projection with the vector cast to a row. -/
theorem addRow_eq_proj {M K N : ℕ} (x : (⟨2, ![M, K]⟩ : Shape).Idx → EReal) (w : (⟨2, ![K, N]⟩ : Shape).Idx → EReal)
    (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (F := Ideal) (φ := .f32) (mm x w) (broadcastInDim ⟨2, ![M, N]⟩ ![0, 1] h2 (broadcastInDim ⟨2, ![1, N]⟩ ![1] h1 bp))
      = proj x w (shapeCast ⟨2, ![1, N]⟩ bp hc) := by
  funext i
  obtain ⟨r, c, rfl⟩ : ∃ (r : Fin M) (c : Fin N), i = ix2 r c := ⟨i 0, i 1, eq_ix2 i⟩
  show mm x w (ix2 r c) + _ = mm x w (ix2 r c) + shapeCast ⟨2, ![1, N]⟩ bp hc (ix2 (0 : Fin 1) c)
  exact congrArg (mm x w (ix2 r c) + ·) ((rowOfVector_apply bp h1 h2 r c).trans (shapeCast_a_1a_apply bp hc (0 : Fin 1) c).symm)

end ExactProduct

end
-- ==== Proof.Spec.lean ====
/-
  The network as one function of its fourteen arguments, on the extended reals.

  Two graph-convolution layers followed by a three-layer perceptron and a row-wise log-softmax:
    T0 = X·W1,   T1 = relu(A0·T0 + b1)·W2,   H2 = A1·T1 + b2,
    O4 = relu(H2·La + G·Lb + c1),  O5 = relu(O4·L2 + c2),  O6 = O5·L3 + c3,
    out(r, ·) = z − log Σ_k exp z_k  with  z = O6(r, ·) − max_k O6(r, k),
  where La is the first 256 rows of L1 and Lb its last 512 rows, so that H2·La + G·Lb is the product of the
  row-wise concatenation [H2 | G] with L1. Every product is the exact one, Σ_k x(r,k)·w(k,c); a bias vector is
  added to every row. The float words 0.0 and −inf are kept as their words' values.
-/
import proofs.«130687_j53085795778708_2_alg».proof.Proof.LibExactProduct
import Idealize.ShloMosaic.PureOps.Ideal

noncomputable section

namespace Gcn

open Idealize.ShloMosaic Idealize.ShloMosaic.ValueIdx ExactProduct

/-- An a × b matrix of extended reals. -/
abbrev Mat (a b : ℕ) : Type := (⟨2, ![a, b]⟩ : Shape).Idx → EReal
/-- A vector of a extended reals. -/
abbrev Vect (a : ℕ) : Type := (⟨1, ![a]⟩ : Shape).Idx → EReal

/-- The word 0.0 as an extended real. -/
def zeroW : EReal := Ideal.ofBits .f32 0x00000000#32
/-- The word −inf as an extended real. -/
def negInfW : EReal := Ideal.ofBits .f32 0xFF800000#32

/-- max(x, 0.0), entry by entry. -/
def relu {a b : ℕ} (x : Mat a b) : Mat a b := fun i => max (x i) zeroW

/-- A vector laid out as one row. -/
def row {n : ℕ} (v : Vect n) : Mat 1 n := fun i => v (ix1 (i 1))

/-- The a rows of a matrix that start at row lo. -/
def rowsFrom {n b : ℕ} (a lo : ℕ) (h : lo + a ≤ n) (w : Mat n b) : Mat a b :=
  fun i => w (ix2 ⟨lo + (i 0).val, by have := idx2_lt0 i; omega⟩ (i 1))

/-- The row-wise log-softmax: with m the maximum of the row (folded from −inf) and z = x − m,
    the entry is z − log Σ_k exp z_k. -/
def logSoftmax {a b : ℕ} (x : Mat a b) : Mat a b := fun i =>
  (x i - (Finset.univ : Finset (Fin b)).fold max negInfW (fun k => x (ix2 (i 0) k)))
    - Ideal.log (∑ k : Fin b, Ideal.exp (x (ix2 (i 0) k)
        - (Finset.univ : Finset (Fin b)).fold max negInfW (fun k' => x (ix2 (i 0) k'))))

/-- T0 = X·W1. -/
def t0 {a : ℕ} (x : Mat a 512) (w1 : Mat 512 256) : Mat a 256 := mm x w1

/-- T1 = relu(A0·T0 + b1)·W2, the bias as a row. -/
def t1 {a n : ℕ} (adj0 : Mat a n) (t0 : Mat n 256) (b1 : Mat 1 256) (w2 : Mat 256 256) : Mat a 256 :=
  mm (relu (proj adj0 t0 b1)) w2

/-- H2 = A1·T1 + b2, the bias as a row. -/
def h2 {a n : ℕ} (adj1 : Mat a n) (t1 : Mat n 256) (b2 : Mat 1 256) : Mat a 256 := proj adj1 t1 b2

/-- The first perceptron layer before its activation: H2·La + G·Lb + c1. -/
def pre4 {a : ℕ} (h : Mat a 256) (g : Mat a 512) (la : Mat 256 768) (lb : Mat 512 768) (c1 : Mat 1 768) : Mat a 768 :=
  fun i => (mm h la i + mm g lb i) + c1 (ix2 (0 : Fin 1) (i 1))

/-- The perceptron and the log-softmax on the rows of H2 and G. -/
def tail {a : ℕ} (h : Mat a 256) (g : Mat a 512) (la : Mat 256 768) (lb : Mat 512 768) (c1 : Mat 1 768)
    (l2 : Mat 768 768) (c2 : Mat 1 768) (l3 : Mat 768 512) (c3 : Mat 1 512) : Mat a 512 :=
  logSoftmax (proj (relu (proj (relu (pre4 h g la lb c1)) l2 c2)) l3 c3)

/-- The whole network, of the arguments in the programs' order. -/
def net (x g : Mat 8192 512) (adj0 adj1 : Mat 8192 8192) (w1 : Mat 512 256) (b1 : Vect 256) (w2 : Mat 256 256)
    (b2 : Vect 256) (l1 : Mat 768 768) (c1 : Vect 768) (l2 : Mat 768 768) (c2 : Vect 768) (l3 : Mat 768 512)
    (c3 : Vect 512) : Mat 8192 512 :=
  tail (h2 adj1 (t1 adj0 (t0 x w1) (row b1) w2) (row b2)) g
    (rowsFrom 256 0 (by norm_num) l1) (rowsFrom 512 256 (by norm_num) l1) (row c1) l2 (row c2) l3 (row c3)

end Gcn

end
-- ==== Proof.Value.Value0.lean ====
/-
  What the first region leaves in its result array: T0 = X·W1, entry by entry.

  The block written back at point t holds, at (r, c), Σ_k xblock(r, k) · W1(k, c); the block of X at point t is rows
  1024·t … 1024·t + 1023 of X, and W1 is read whole, so the block written back is rows 1024·t … of the exact product
  X·W1. The eight blocks tile the 8192 rows, so the array ends holding the product.
-/
import proofs.«130687_j53085795778708_2_alg».proof.Proof.KernelIdeal.Region0
import proofs.«130687_j53085795778708_2_alg».proof.Proof.Spec
import proofs.«130687_j53085795778708_2_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The product block at (r, c): Σ_k x0(r, k) · x1(k, c). -/
theorem out0_2_apply (x0 : FVec Ideal S1024x512 .f32) (x1 : FVec Ideal S512x256 .f32) (r : Fin 1024) (c : Fin 256) :
    out0_2 (F := Ideal) x0 x1 (ix2 r c) = ∑ k : Fin 512, x0 (ix2 r k) * x1 (ix2 k c) := by
  unfold out0_2
  rw [View.canon_unit_zero zero_offsets]
  simp only [View.ld_unit_zero (S := S1024x512) zero_offsets, View.ld_unit_zero (S := S512x256) zero_offsets]
  exact PlainMatmul.apply_zero (M := 1024) (K := 512) (N := 256) (φ₁ := .bf16) (φ₂ := .bf16) x0 x1 r c

/-- The printed index maps over the eight points: the rows of X move with the output's rows; every other block
    index is zero. -/
theorem index_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point t writes back is block t of X·W1. -/
theorem flushed0_eq (c : Dev nD) (t : Fin cfg0.N) :
    (dat0 (F := Ideal) V c).flushed 2 t = ((cfg0.win 2).blk t).view.read (Elt Ideal) (Gcn.t0 (V c main_arg0) (V c main_arg4)) := by
  show (cfg0.win 2).cut (grid0.coords t) ((dat0 V c).after 2 t) = _
  rw [after0_2]
  obtain ⟨e0, e1, e2, e3, e4, e5⟩ := index_facts0 t
  funext j
  obtain ⟨r, q, rfl⟩ : ∃ (r : Fin 1024) (q : Fin 256), j = ix2 r q := ⟨j 0, j 1, eq_ix2 j⟩
  refine (out0_2_apply _ _ r q).trans ?_
  rw [View.read_apply]
  unfold Gcn.t0 ExactProduct.mm
  refine Finset.sum_congr rfl fun k _ => ?_
  have hx : iblk0 V c 0 t (ix2 r k) = V c main_arg0 (ix2 (((cfg0.win 2).blk t).view.emb (ix2 r q) 0) k) := by
    show V c main_arg0 (((cfg0.win 0).blk t).view.emb (ix2 r k)) = _
    refine congrArg (V c main_arg0) (funext fun a => Fin.ext ?_)
    match a with
    | ⟨0, _⟩ => show win0_0.index t (0 : Fin 2) * 1024 + 1 * r.val = win0_2.index t (0 : Fin 2) * 1024 + 1 * r.val; omega
    | ⟨1, _⟩ => show win0_0.index t (1 : Fin 2) * 512 + 1 * k.val = k.val; omega
  have hw : iblk0 V c 1 t (ix2 k q) = V c main_arg4 (ix2 k (((cfg0.win 2).blk t).view.emb (ix2 r q) 1)) := by
    show V c main_arg4 (((cfg0.win 1).blk t).view.emb (ix2 k q)) = _
    refine congrArg (V c main_arg4) (funext fun a => Fin.ext ?_)
    match a with
    | ⟨0, _⟩ => show win0_1.index t (0 : Fin 2) * 512 + 1 * k.val = k.val; omega
    | ⟨1, _⟩ => show win0_1.index t (1 : Fin 2) * 256 + 1 * q.val = win0_2.index t (1 : Fin 2) * 256 + 1 * q.val; omega
  rw [hx, hw]

/-- An index lies in point t's block iff each coordinate lies in the block's range. -/
theorem mem_blk0 (t : Fin cfg0.N) (i : S8192x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v0).slice (win0_2.rect t)).set ↔ _
  rw [View.set_slice_whole, Rect.mem_set_unit]
  exact Iff.rfl

/-- Row r lies in the block of point r / 1024. -/
theorem cover0 (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 8 := N_0
  have ht : (i 0).val / 1024 < cfg0.N := by rw [hN]; omega
  refine ⟨⟨(i 0).val / 1024, ht⟩, flush0_2 _, ?_⟩
  rw [mem_blk0]
  obtain ⟨e0, e1, e2, e3, e4, e5⟩ := index_facts0 ⟨(i 0).val / 1024, ht⟩
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    rw [e5]; show (i 0).val / 1024 * 1024 ≤ (i 0).val ∧ (i 0).val < (i 0).val / 1024 * 1024 + 1024; omega
  | ⟨1, _⟩ =>
    show win0_2.index ⟨(i 0).val / 1024, ht⟩ (1 : Fin 2) * 256 ≤ (i 1).val ∧ (i 1).val < win0_2.index ⟨(i 0).val / 1024, ht⟩ (1 : Fin 2) * 256 + 256
    rw [e4]; omega

/-- The result array after the region is the exact product X·W1. -/
theorem final0 (c : Dev nD) : (dat0 (F := Ideal) V c).arrAt 2 cfg0.N = Gcn.t0 (V c main_arg0) (V c main_arg4) :=
  (dat0 V c).arrAt_eq_of_cover 2 _ (fun t _ => flushed0_eq V c t) cover0

end Cert.KernelIdeal.HandValue

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.Value.Value1.lean ====
/-
  What the second region leaves in its result array: T1 = relu(A0·T0 + b1)·W2, entry by entry.

  With t = 8·i + k, the accumulator after point t holds, at (r, c), the partial row sum over the first k + 1 column
  blocks of A0, Σ_{k' ≤ k} Σ_{j < 1024} A0(2048·i + r, 1024·k' + j) · T0(1024·k' + j, c): zero plus the first block's
  product at k = 0, one more block's product added at each later k. At k = 7 the eight blocks are the whole row, so
  the accumulator is rows 2048·i … of A0·T0, and the block written back is those rows of relu(A0·T0 + b1)·W2. The four
  written blocks tile the 8192 rows.
-/
import proofs.«130687_j53085795778708_2_alg».proof.Proof.KernelIdeal.Region1
import proofs.«130687_j53085795778708_2_alg».proof.Proof.Spec
import proofs.«130687_j53085795778708_2_alg».proof.Proof.LibPlainMatmul
import proofs.«130687_j53085795778708_2_alg».proof.Proof.LibBlockSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The region's inputs, as matrices of extended reals -/

/-- The adjacency operator A0, the first product T0, the bias row and the weights W2, as the region finds them. -/
abbrev inA1 (c : Dev nD) : Gcn.Mat 8192 8192 := V c main_arg2
abbrev inT1 (c : Dev nD) : Gcn.Mat 8192 256 := V c main_v0
abbrev inB1 (c : Dev nD) : Gcn.Mat 1 256 := V c main_v1
abbrev inW1 (c : Dev nD) : Gcn.Mat 256 256 := V c main_arg6
/-- Their blocks at point t. -/
abbrev blkA1 (c : Dev nD) (t : Fin cfg1.N) : FVec Ideal S2048x1024 .f32 := iblk1 V c 0 t
abbrev blkT1 (c : Dev nD) (t : Fin cfg1.N) : FVec Ideal S1024x256 .bf16 := iblk1 V c 1 t
abbrev blkB1 (c : Dev nD) (t : Fin cfg1.N) : FVec Ideal S1x256 .f32 := iblk1 V c 2 t
abbrev blkW1 (c : Dev nD) (t : Fin cfg1.N) : FVec Ideal S256x256 .f32 := iblk1 V c 3 t

/-! ## The three payloads at an entry -/

/-- The reset value is zero everywhere. -/
theorem zeros1_apply (j : S2048x256.Idx) : k1_pay1 (F := Ideal) j = 0 := by
  unfold k1_pay1
  rw [shapeCast_self]
  exact Ideal.ofBits_zero_f32

/-- One accumulation step at (r, c): the accumulator plus Σ_j x0(r, j) · x1(j, c). -/
theorem step1_apply (x0 : FVec Ideal S2048x1024 .f32) (x1 : FVec Ideal S1024x256 .bf16) (a : FVec Ideal S2048x256 .f32)
    (r : Fin 2048) (c : Fin 256) :
    k1_pay2 (F := Ideal) x0 x1 a (ix2 r c) = a (ix2 r c) + ∑ j : Fin 1024, x0 (ix2 r j) * x1 (ix2 j c) := by
  unfold k1_pay2
  rw [shapeCast_self, shapeCast_self]
  exact congrArg (a (ix2 r c) + ·) (PlainMatmul.apply_zero (M := 2048) (K := 1024) (N := 256) (φ₁ := .bf16) (φ₂ := .bf16) x0 x1 r c)

/-- The epilogue at (r, c): Σ_j max(a(r, j) + bias(0, j), 0.0) · w(j, c). -/
theorem epilogue1_apply (a : FVec Ideal S2048x256 .f32) (b : FVec Ideal S1x256 .f32) (w : FVec Ideal S256x256 .f32)
    (r : Fin 2048) (c : Fin 256) :
    k1_pay3 (F := Ideal) a b w (ix2 r c) = ∑ j : Fin 256, max (a (ix2 r j) + b (ix2 (0 : Fin 1) j)) Gcn.zeroW * w (ix2 j c) := by
  unfold k1_pay3
  rw [shapeCast_self]
  refine (PlainMatmul.apply_zero (M := 2048) (K := 256) (N := 256) (φ₁ := .bf16) (φ₂ := .bf16) _ _ r c).trans ?_
  refine Finset.sum_congr rfl fun j _ => ?_
  refine congrArg (· * w (ix2 j c)) ?_
  show max (a (ix2 r j) + broadcastTo S2048x256 b broadcasts_S1x256_S2048x256 (ix2 r j)) _ = _
  rw [broadcastTo_1b_ab_apply]
  rfl

/-! ## The accumulator as a partial row sum -/

/-- The printed index maps over the 32 points t = 8·i + k: A0's block is (i, k), T0's is (k, 0), the bias row and
    the weights are whole, the output's block is (i, 0). -/
theorem index_facts1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 8 ∧ win1_4.index t (1 : Fin 2) = 0 :=
  (by decide +kernel : ∀ t : Fin grid1.N, _)

/-- The n-th term of entry (R, q) of A0·T0, by position: A0(R, n) · T0(n, q); zero past the ends. -/
def term1 (c : Dev nD) (q : Fin 256) (R n : ℕ) : EReal :=
  if h : R < 8192 ∧ n < 8192 then (inA1 V c) (ix2 ⟨R, h.1⟩ ⟨n, h.2⟩) * (inT1 V c) (ix2 ⟨n, h.2⟩ q) else 0

/-- A summand of the block product at point t is a term of the row: row 2048·(t / 8) + r, position 1024·(t % 8) + j. -/
theorem block_term1 (c : Dev nD) (t : Fin cfg1.N) (r : Fin 2048) (q : Fin 256) (j : Fin 1024) :
    (blkA1 V c t) (ix2 r j) * (blkT1 V c t) (ix2 j q)
      = term1 V c q (2048 * (t.val / 8) + r.val) (t.val % 8 * 1024 + j.val) := by
  obtain ⟨e00, e01, e10, e11, -⟩ := index_facts1 t
  have ht : t.val < 32 := lt_of_lt_of_eq t.isLt (show cfg1.N = 32 from N_1)
  have hR : 2048 * (t.val / 8) + r.val < 8192 := by have := r.isLt; omega
  have hn : t.val % 8 * 1024 + j.val < 8192 := by have := j.isLt; omega
  unfold term1
  rw [dif_pos ⟨hR, hn⟩]
  have hx : (blkA1 V c t) (ix2 r j) = (inA1 V c) (ix2 ⟨_, hR⟩ ⟨_, hn⟩) := by
    show (inA1 V c) (((cfg1.win 0).blk t).view.emb (ix2 r j)) = _
    refine congrArg (inA1 V c) (funext fun a => Fin.ext ?_)
    match a with
    | ⟨0, _⟩ => show win1_0.index t (0 : Fin 2) * 2048 + 1 * r.val = 2048 * (t.val / 8) + r.val; omega
    | ⟨1, _⟩ => show win1_0.index t (1 : Fin 2) * 1024 + 1 * j.val = t.val % 8 * 1024 + j.val; omega
  have hy : (blkT1 V c t) (ix2 j q) = (inT1 V c) (ix2 ⟨_, hn⟩ q) := by
    show (inT1 V c) (((cfg1.win 1).blk t).view.emb (ix2 j q)) = _
    refine congrArg (inT1 V c) (funext fun a => Fin.ext ?_)
    match a with
    | ⟨0, _⟩ => show win1_1.index t (0 : Fin 2) * 1024 + 1 * j.val = t.val % 8 * 1024 + j.val; omega
    | ⟨1, _⟩ => show win1_1.index t (1 : Fin 2) * 256 + 1 * q.val = q.val; omega
  rw [hx, hy]

/-- After point n the accumulator holds, at (r, q), the terms of the first n % 8 + 1 column blocks of the row. -/
theorem acc1_apply (c : Dev nD) : ∀ (n : ℕ) (hn : n < cfg1.N) (r : Fin 2048) (q : Fin 256),
    acc1 (F := Ideal) V c n hn (ix2 r q)
      = ∑ k ∈ Finset.range (n % 8 + 1), ∑ j : Fin 1024, term1 V c q (2048 * (n / 8) + r.val) (k * 1024 + j.val) := by
  intro n
  induction n with
  | zero =>
    intro hn r q
    rw [acc1_first V c ⟨0, hn⟩ rfl, step1_apply, zeros1_apply, zero_add, Finset.sum_range_one]
    exact Finset.sum_congr rfl fun j _ => block_term1 V c ⟨0, hn⟩ r q j
  | succ n ih =>
    intro hn r q
    by_cases h0 : (n + 1) % 8 = 0
    · rw [acc1_first V c ⟨n + 1, hn⟩ h0, step1_apply, zeros1_apply, zero_add, h0, Finset.sum_range_one]
      refine Finset.sum_congr rfl fun j _ => ?_
      refine (block_term1 V c ⟨n + 1, hn⟩ r q j).trans ?_
      show term1 V c q (2048 * ((n + 1) / 8) + r.val) ((n + 1) % 8 * 1024 + j.val) = _
      rw [h0]
    · rw [acc1_next V c ⟨n + 1, hn⟩ h0, step1_apply]
      have hq : (n + 1) / 8 = n / 8 := by omega
      have hm : (n + 1) % 8 = n % 8 + 1 := by omega
      rw [show acc1 V c ((⟨n + 1, hn⟩ : Fin cfg1.N).val - 1) _ = acc1 V c n (Nat.lt_of_succ_lt hn) from rfl,
        ih (Nat.lt_of_succ_lt hn) r q, hm, Finset.sum_range_succ (n := n % 8 + 1), hq]
      refine congrArg (_ + ·) (Finset.sum_congr rfl fun j _ => ?_)
      refine (block_term1 V c ⟨n + 1, hn⟩ r q j).trans ?_
      show term1 V c q (2048 * ((n + 1) / 8) + r.val) ((n + 1) % 8 * 1024 + j.val) = _
      rw [hq, hm]

/-- The eight column blocks are the whole row: at k = 7 the accumulator holds the row of A0·T0. -/
theorem acc1_last (c : Dev nD) (t : Fin cfg1.N) (h7 : t.val % 8 = 7) (r : Fin 2048) (q : Fin 256)
    (hR : 2048 * (t.val / 8) + r.val < 8192) :
    acc1 (F := Ideal) V c t.val t.isLt (ix2 r q)
      = ExactProduct.mm (inA1 V c) (inT1 V c) (ix2 ⟨2048 * (t.val / 8) + r.val, hR⟩ q) := by
  rw [acc1_apply V c t.val t.isLt r q, h7]
  show ∑ k ∈ Finset.range 8, _ = ∑ n : Fin 8192, (inA1 V c) (ix2 ⟨_, hR⟩ n) * (inT1 V c) (ix2 n q)
  rw [Finset.sum_range, BlockSums.sum_blocks (m := 8) (n := 1024) (N := 8192) rfl
    (fun i j => ⟨i.val * 1024 + j.val, by have := i.isLt; have := j.isLt; omega⟩) (fun _ _ => rfl)]
  refine Finset.sum_congr rfl fun k _ => Finset.sum_congr rfl fun j _ => ?_
  unfold term1
  rw [dif_pos ⟨hR, by have := k.isLt; have := j.isLt; omega⟩]

/-! ## From the written blocks to the array -/

/-- What a point with k = 7 writes back is its block of rows of relu(A0·T0 + b1)·W2. -/
theorem flushed1_eq (c : Dev nD) (t : Fin cfg1.N) (hf : (cfg1.win 4).flush t = true) :
    (dat1 (F := Ideal) V c).flushed 4 t
      = ((cfg1.win 4).blk t).view.read (Elt Ideal) (Gcn.t1 (V c main_arg2) (V c main_v0) (V c main_v1) (V c main_arg6)) := by
  have h7 : t.val % 8 = 7 := (flush1_4 t).mp hf
  show (cfg1.win 4).cut (grid1.coords t) ((dat1 V c).after 4 t) = _
  rw [show (dat1 V c).after 4 t = out1_4 V c t from by dsimp only [dat1]]
  obtain ⟨-, -, -, -, e20, e21, e30, e31, e40, e41⟩ := index_facts1 t
  have ht : t.val < 32 := lt_of_lt_of_eq t.isLt (show cfg1.N = 32 from N_1)
  funext i
  obtain ⟨r, q, rfl⟩ : ∃ (r : Fin 2048) (q : Fin 256), i = ix2 r q := ⟨i 0, i 1, eq_ix2 i⟩
  have hR : 2048 * (t.val / 8) + r.val < 8192 := by have := r.isLt; omega
  have hE0 : (((cfg1.win 4).blk t).view.emb (ix2 r q) 0).val = 2048 * (t.val / 8) + r.val := by
    show win1_4.index t (0 : Fin 2) * 2048 + 1 * r.val = _; omega
  have hE1 : (((cfg1.win 4).blk t).view.emb (ix2 r q) 1).val = q.val := by
    show win1_4.index t (1 : Fin 2) * 256 + 1 * q.val = _; omega
  unfold out1_4
  refine (epilogue1_apply _ _ _ r q).trans ?_
  rw [View.read_apply]
  show _ = ∑ j : Fin 256, max (ExactProduct.mm (inA1 V c) (inT1 V c)
        (ix2 (((cfg1.win 4).blk t).view.emb (ix2 r q) 0) j) + (inB1 V c) (ix2 (0 : Fin 1) j)) Gcn.zeroW
      * (inW1 V c) (ix2 j (((cfg1.win 4).blk t).view.emb (ix2 r q) 1))
  refine Finset.sum_congr rfl fun j _ => ?_
  have ha : acc1 (F := Ideal) V c t.val t.isLt (ix2 r j)
      = ExactProduct.mm (inA1 V c) (inT1 V c)
          (ix2 (((cfg1.win 4).blk t).view.emb (ix2 r q) 0) j) :=
    (acc1_last V c t h7 r j hR).trans (congrArg _ (funext fun a => Fin.ext (by
      match a with
      | ⟨0, _⟩ => exact hE0.symm
      | ⟨1, _⟩ => rfl)))
  have hb : (blkB1 V c t) (ix2 (0 : Fin 1) j) = (inB1 V c) (ix2 (0 : Fin 1) j) := by
    show (inB1 V c) (((cfg1.win 2).blk t).view.emb (ix2 (0 : Fin 1) j)) = _
    refine congrArg (inB1 V c) (funext fun a => Fin.ext ?_)
    match a with
    | ⟨0, _⟩ => show win1_2.index t (0 : Fin 2) * 1 + 1 * 0 = 0; omega
    | ⟨1, _⟩ => show win1_2.index t (1 : Fin 2) * 256 + 1 * j.val = j.val; omega
  have hw : (blkW1 V c t) (ix2 j q)
      = (inW1 V c) (ix2 j (((cfg1.win 4).blk t).view.emb (ix2 r q) 1)) := by
    show (inW1 V c) (((cfg1.win 3).blk t).view.emb (ix2 j q)) = _
    refine congrArg (inW1 V c) (funext fun a => Fin.ext ?_)
    match a with
    | ⟨0, _⟩ => show win1_3.index t (0 : Fin 2) * 256 + 1 * j.val = j.val; omega
    | ⟨1, _⟩ => show win1_3.index t (1 : Fin 2) * 256 + 1 * q.val = (((cfg1.win 4).blk t).view.emb (ix2 r q) 1).val; omega
  rw [ha]
  exact congrArg₂ (fun x y : EReal => max (ExactProduct.mm (inA1 V c) (inT1 V c)
    (ix2 (((cfg1.win 4).blk t).view.emb (ix2 r q) 0) j) + x) Gcn.zeroW * y) hb hw

/-- An index lies in point t's block iff each coordinate lies in the block's range. -/
theorem mem_blk1 (t : Fin cfg1.N) (i : S8192x256.Idx) :
    i ∈ ((cfg1.win 4).blk t).view.set ↔ ∀ a : Fin 2, win1_4.index t a * S2048x256.size a ≤ (i a).val ∧ (i a).val < win1_4.index t a * S2048x256.size a + S2048x256.size a := by
  show i ∈ ((View.whole main_v2).slice (win1_4.rect t)).set ↔ _
  rw [View.set_slice_whole, Rect.mem_set_unit]
  exact Iff.rfl

/-- Row R lies in the block written back at point 8·(R / 2048) + 7. -/
theorem cover1 (i : S8192x256.Idx) : ∃ t : Fin cfg1.N, (cfg1.win 4).flush t = true ∧ i ∈ ((cfg1.win 4).blk t).view.set := by
  have hi0 : (i 0).val < 8192 := (i 0).isLt
  have hi1 : (i 1).val < 256 := (i 1).isLt
  have hN : cfg1.N = 32 := N_1
  have ht : 8 * ((i 0).val / 2048) + 7 < cfg1.N := by rw [hN]; omega
  refine ⟨⟨8 * ((i 0).val / 2048) + 7, ht⟩, (flush1_4 _).mpr (by show (8 * ((i 0).val / 2048) + 7) % 8 = 7; omega), ?_⟩
  rw [mem_blk1]
  obtain ⟨-, -, -, -, -, -, -, -, e40, e41⟩ := index_facts1 ⟨8 * ((i 0).val / 2048) + 7, ht⟩
  intro a
  match a with
  | ⟨0, _⟩ =>
    show win1_4.index ⟨8 * ((i 0).val / 2048) + 7, ht⟩ (0 : Fin 2) * 2048 ≤ (i 0).val ∧ (i 0).val < win1_4.index ⟨8 * ((i 0).val / 2048) + 7, ht⟩ (0 : Fin 2) * 2048 + 2048
    rw [e40]; show (8 * ((i 0).val / 2048) + 7) / 8 * 2048 ≤ (i 0).val ∧ (i 0).val < (8 * ((i 0).val / 2048) + 7) / 8 * 2048 + 2048; omega
  | ⟨1, _⟩ =>
    show win1_4.index ⟨8 * ((i 0).val / 2048) + 7, ht⟩ (1 : Fin 2) * 256 ≤ (i 1).val ∧ (i 1).val < win1_4.index ⟨8 * ((i 0).val / 2048) + 7, ht⟩ (1 : Fin 2) * 256 + 256
    rw [e41]; omega

/-- The result array after the region is T1 = relu(A0·T0 + b1)·W2 of what the region finds. -/
theorem final1 (c : Dev nD) : (dat1 (F := Ideal) V c).arrAt 4 cfg1.N = Gcn.t1 (V c main_arg2) (V c main_v0) (V c main_v1) (V c main_arg6) :=
  (dat1 V c).arrAt_eq_of_cover 4 _ (fun t hf => flushed1_eq V c t hf) cover1

end Cert.KernelIdeal.HandValue

end
-- ==== Proof.LibPrefixSums.lean ====
/-
  Sums of an initial stretch of finitely many terms. For terms f 0, …, f (N−1) of a commutative additive monoid,
  upto f a  is the sum of the terms whose index is at most a — written as a sum over all indices with the later terms
  replaced by zero, so that no index arithmetic on the index type is needed. It starts at the first term, grows by one
  term at a time, and is the whole sum once a reaches N − 1. Nothing but commutative addition is used, so the statements
  hold on the extended reals without any finiteness.
-/
import Mathlib

noncomputable section

namespace PrefixSums

open Finset

variable {M : Type*} [AddCommMonoid M] {N : ℕ}

/-- The sum of the terms of index at most `a`. -/
def upto (f : Fin N → M) (a : ℕ) : M := ∑ j : Fin N, if j.val ≤ a then f j else 0

/-- One term alone, as a sum over all indices. -/
theorem single (f : Fin N → M) (b : ℕ) (hb : b < N) : (∑ j : Fin N, if j.val = b then f j else 0) = f ⟨b, hb⟩ := by
  rw [Finset.sum_eq_single (⟨b, hb⟩ : Fin N)]
  · exact if_pos rfl
  · intro j _ hj
    exact if_neg fun h => hj (Fin.ext h)
  · intro h; exact absurd (Finset.mem_univ _) h

/-- Up to index 0 there is the first term only. -/
theorem upto_zero (f : Fin N → M) (hN : 0 < N) : upto f 0 = f ⟨0, hN⟩ := by
  unfold upto
  rw [← single f 0 hN]
  refine Finset.sum_congr rfl fun j _ => ?_
  by_cases h : j.val = 0
  · rw [if_pos (by omega), if_pos h]
  · rw [if_neg (by omega), if_neg h]

/-- One more term. -/
theorem upto_succ (f : Fin N → M) (a : ℕ) (h : a + 1 < N) : upto f (a + 1) = upto f a + f ⟨a + 1, h⟩ := by
  unfold upto
  rw [← single f (a + 1) h, ← Finset.sum_add_distrib]
  refine Finset.sum_congr rfl fun j _ => ?_
  by_cases h1 : j.val ≤ a
  · rw [if_pos (by omega), if_pos h1, if_neg (by omega), add_zero]
  · by_cases h2 : j.val = a + 1
    · rw [if_pos (by omega), if_neg h1, if_pos h2, zero_add]
    · rw [if_neg (by omega), if_neg h1, if_neg h2, add_zero]

/-- From the last index on it is the whole sum. -/
theorem upto_all (f : Fin N → M) (a : ℕ) (h : N ≤ a + 1) : upto f a = ∑ j, f j := by
  unfold upto
  exact Finset.sum_congr rfl fun j _ => if_pos (by have := j.isLt; omega)

end PrefixSums

end
-- ==== Proof.Value.Value2.lean ====
/-
  The value of region 2: after the region, the result array is H2 = A1 · T1 + b2 of the arrays the region found.

  Point t = 8·i + k of the 4 × 8 grid adds to the accumulator the product of block (i, k) of A1 with row block k of
  T1; the accumulator starts from zero at k = 0. So after point 8·i + k the accumulator's entry (r, c) is the sum over
  the column blocks j ≤ k of  Σ_q A1(2048 i + r, 1024 j + q) · T1(1024 j + q, c),  and at k = 7 that is the whole row
  sum Σ_κ A1(2048 i + r, κ) · T1(κ, c): a sum over 8192 = 8 · 1024 indices regrouped into 8 blocks of 1024. At k = 7
  the bias row is added and the block is written back as rows 2048 i … 2048 i + 2047 of the result; the four points
  with k = 7 cover all 8192 rows. Only commutative addition is used: nothing is asked of the entries.
-/
import proofs.«130687_j53085795778708_2_alg».proof.Proof.KernelIdeal.Region2
import proofs.«130687_j53085795778708_2_alg».proof.Proof.Spec
import proofs.«130687_j53085795778708_2_alg».proof.Proof.LibPlainMatmul
import proofs.«130687_j53085795778708_2_alg».proof.Proof.LibBlockSums
import proofs.«130687_j53085795778708_2_alg».proof.Proof.LibPrefixSums
import Idealize.ShloMosaic.Lib.ValueLayout
import Idealize.ShloMosaic.Lib.Pipeline.Value

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal.Hand

variable (V : (c : Dev nD) → (b : Ref sig .tc) → Buf (Elt Ideal) ((c : Thread nD τ).loc b))

/-! ## The three stored values at an entry -/

/-- The zero block is 0 everywhere. -/
theorem zeroBlock_apply (j : S2048x256.Idx) : Gen.k2_pay1 (F := Ideal) j = 0 := by
  unfold Gen.k2_pay1
  rw [shapeCast_self]
  exact Ideal.ofBits_zero_f32

/-- Adding a block product: entry (r, c) of the new accumulator is the old entry plus Σ_q x0(r, q) · x1(q, c). -/
theorem addProduct_apply (x0 : Vec Ideal S2048x1024 .f32) (x1 : Vec Ideal S1024x256 .bf16) (xa : Vec Ideal S2048x256 .f32)
    (r : Fin 2048) (cc : Fin 256) :
    Gen.k2_pay2 x0 x1 xa (ix2 r cc) = xa (ix2 r cc) + ∑ q : Fin 1024, x0 (ix2 r q) * x1 (ix2 q cc) := by
  unfold Gen.k2_pay2
  rw [shapeCast_self, shapeCast_self]
  exact congrArg (xa (ix2 r cc) + ·)
    (PlainMatmul.apply_zero (M := 2048) (K := 1024) (N := 256) (φ₁ := .bf16) (φ₂ := .bf16) x0 x1 r cc)

/-- Adding the bias row: entry (r, c) is the accumulator's entry plus the row's entry c. -/
theorem addBias_apply (xa : Vec Ideal S2048x256 .f32) (b : Vec Ideal S1x256 .f32) (r : Fin 2048) (cc : Fin 256) :
    Gen.k2_pay3 xa b (ix2 r cc) = xa (ix2 r cc) + b (ix2 (0 : Fin 1) cc) := by
  unfold Gen.k2_pay3
  rw [shapeCast_self]
  exact congrArg (xa (ix2 r cc) + ·) (broadcastTo_1b_ab_apply (a := 2048) (b := 256) b _ r cc)

/-! ## Where the blocks sit -/

/-- The block positions at point t = 8·i + k: A1's block is (i, k), T1's row block is k, the bias row is whole, the
    result's row block is i. Decided over the 32 points. -/
theorem blockPos2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = 0 ∧ win2_2.index t (1 : Fin 2) = 0
    ∧ win2_3.index t (0 : Fin 2) = t.val / 8 ∧ win2_3.index t (1 : Fin 2) = 0 :=
  (by decide +kernel : ∀ t : Fin grid2.N, _)

/-- Entry (r, q) of A1's block at point t is A1(2048 (t / 8) + r, 1024 (t % 8) + q). -/
theorem blkA_apply (c : Dev nD) (t : Fin cfg2.N) (r : Fin 2048) (q : Fin 1024) (a b : Fin 8192)
    (ha : a.val = (t.val / 8) * 2048 + r.val) (hb : b.val = (t.val % 8) * 1024 + q.val) :
    iblk2 V c 0 t (ix2 r q) = V c main_arg3 (ix2 a b) := by
  obtain ⟨e0, e1, -⟩ := blockPos2 t
  show V c main_arg3 (((cfg2.win 0).blk t).view.emb (ix2 r q)) = V c main_arg3 (ix2 a b)
  refine congrArg (V c main_arg3) (funext fun ax => Fin.ext ?_)
  match ax with
  | ⟨0, _⟩ => show win2_0.index t (0 : Fin 2) * 2048 + 1 * r.val = a.val; omega
  | ⟨1, _⟩ => show win2_0.index t (1 : Fin 2) * 1024 + 1 * q.val = b.val; omega

/-- Entry (q, c) of T1's row block at point t is T1(1024 (t % 8) + q, c). -/
theorem blkT_apply (c : Dev nD) (t : Fin cfg2.N) (q : Fin 1024) (cc : Fin 256) (b : Fin 8192)
    (hb : b.val = (t.val % 8) * 1024 + q.val) :
    iblk2 V c 1 t (ix2 q cc) = V c main_v2 (ix2 b cc) := by
  obtain ⟨-, -, e2, e3, -⟩ := blockPos2 t
  show V c main_v2 (((cfg2.win 1).blk t).view.emb (ix2 q cc)) = V c main_v2 (ix2 b cc)
  refine congrArg (V c main_v2) (funext fun ax => Fin.ext ?_)
  match ax with
  | ⟨0, _⟩ => show win2_1.index t (0 : Fin 2) * 1024 + 1 * q.val = b.val; omega
  | ⟨1, _⟩ => show win2_1.index t (1 : Fin 2) * 256 + 1 * cc.val = cc.val; omega

/-- The bias row's block is the row itself. -/
theorem blkB_apply (c : Dev nD) (t : Fin cfg2.N) (cc : Fin 256) :
    iblk2 V c 2 t (ix2 (0 : Fin 1) cc) = V c main_v3 (ix2 (0 : Fin 1) cc) := by
  obtain ⟨-, -, -, -, e4, e5, -⟩ := blockPos2 t
  show V c main_v3 (((cfg2.win 2).blk t).view.emb (ix2 (0 : Fin 1) cc)) = V c main_v3 (ix2 (0 : Fin 1) cc)
  refine congrArg (V c main_v3) (funext fun ax => Fin.ext ?_)
  match ax with
  | ⟨0, _⟩ => show win2_2.index t (0 : Fin 2) * 1 + 1 * 0 = 0; omega
  | ⟨1, _⟩ => show win2_2.index t (1 : Fin 2) * 256 + 1 * cc.val = cc.val; omega

/-! ## The accumulator is a sum over column blocks -/

/-- Row r of row block i, among the 8192 = 4 · 2048 rows. -/
def rowAt (i : Fin 4) (r : Fin 2048) : Fin 8192 := ⟨i.val * 2048 + r.val, by have := i.isLt; have := r.isLt; omega⟩
/-- Column q of column block j, among the 8192 = 8 · 1024 columns. -/
def colAt (j : Fin 8) (q : Fin 1024) : Fin 8192 := ⟨j.val * 1024 + q.val, by have := j.isLt; have := q.isLt; omega⟩

/-- Column block j's share of entry (r, c) of row block i of A · T. -/
def blockTerm (A : Gcn.Mat 8192 8192) (T : Gcn.Mat 8192 256) (i : Fin 4) (r : Fin 2048) (cc : Fin 256) (j : Fin 8) : EReal :=
  ∑ q : Fin 1024, A (ix2 (rowAt i r) (colAt j q)) * T (ix2 (colAt j q) cc)

/-- A1's block at a point, as a 2048 × 1024 matrix, -/
abbrev blkA (c : Dev nD) (t : Fin cfg2.N) : Vec Ideal S2048x1024 .f32 := iblk2 V c 0 t
/-- and T1's row block, as a 1024 × 256 matrix. -/
abbrev blkT (c : Dev nD) (t : Fin cfg2.N) : Vec Ideal S1024x256 .bf16 := iblk2 V c 1 t

/-- The product of the blocks at point 8·i + k is column block k's share. -/
theorem product_eq_blockTerm (c : Dev nD) (i : Fin 4) (k : ℕ) (hk : k < 8) (hn : 8 * i.val + k < cfg2.N) (r : Fin 2048) (cc : Fin 256) :
    (∑ q : Fin 1024, blkA V c ⟨8 * i.val + k, hn⟩ (ix2 r q) * blkT V c ⟨8 * i.val + k, hn⟩ (ix2 q cc))
      = blockTerm (V c main_arg3) (V c main_v2) i r cc ⟨k, hk⟩ := by
  have hi := i.isLt
  unfold blockTerm
  refine Finset.sum_congr rfl fun q _ => ?_
  have hq := q.isLt; have hr := r.isLt
  exact congrArg₂ (· * ·)
    (blkA_apply V c ⟨8 * i.val + k, hn⟩ r q (rowAt i r) (colAt ⟨k, hk⟩ q)
      (by show i.val * 2048 + r.val = (8 * i.val + k) / 8 * 2048 + r.val; omega)
      (by show k * 1024 + q.val = (8 * i.val + k) % 8 * 1024 + q.val; omega))
    (blkT_apply V c ⟨8 * i.val + k, hn⟩ q cc (colAt ⟨k, hk⟩ q)
      (by show k * 1024 + q.val = (8 * i.val + k) % 8 * 1024 + q.val; omega))

/-- THE ACCUMULATION, READ. After point 8·i + k the accumulator's entry (r, c) is the sum of the shares of the column
    blocks j ≤ k. -/
theorem acc2_apply (c : Dev nD) (i : Fin 4) (r : Fin 2048) (cc : Fin 256) :
    ∀ (k : ℕ) (hk : k < 8) (hn : 8 * i.val + k < cfg2.N),
      acc2 V c (8 * i.val + k) hn (ix2 r cc) = PrefixSums.upto (blockTerm (V c main_arg3) (V c main_v2) i r cc) k := by
  intro k
  induction k with
  | zero =>
    intro hk hn
    have e := acc2_restart V c ⟨8 * i.val + 0, hn⟩ (by show (8 * i.val + 0) % 8 = 0; omega)
    rw [show acc2 V c (8 * i.val + 0) hn = _ from e, addProduct_apply, zeroBlock_apply, zero_add,
      PrefixSums.upto_zero _ (by norm_num)]
    exact product_eq_blockTerm V c i 0 hk hn r cc
  | succ k ih =>
    intro hk hn
    have hn' : 8 * i.val + k < cfg2.N := by omega
    have e := acc2_continue V c ⟨8 * i.val + (k + 1), hn⟩ (by show ¬(8 * i.val + (k + 1)) % 8 = 0; omega)
    rw [show acc2 V c (8 * i.val + (k + 1)) hn = _ from e, addProduct_apply]
    rw [show acc2 V c ((⟨8 * i.val + (k + 1), hn⟩ : Fin cfg2.N).val - 1) _ (ix2 r cc) = acc2 V c (8 * i.val + k) hn' (ix2 r cc) from rfl,
      ih (by omega) hn', PrefixSums.upto_succ _ k hk]
    exact congrArg (PrefixSums.upto (blockTerm (V c main_arg3) (V c main_v2) i r cc) k + ·)
      (product_eq_blockTerm V c i (k + 1) hk hn r cc)

/-- All eight shares together are the whole row sum: 8192 columns regrouped into 8 blocks of 1024. -/
theorem sum_blockTerm (A : Gcn.Mat 8192 8192) (T : Gcn.Mat 8192 256) (i : Fin 4) (r : Fin 2048) (cc : Fin 256) :
    ∑ j : Fin 8, blockTerm A T i r cc j = ∑ κ : Fin 8192, A (ix2 (rowAt i r) κ) * T (ix2 κ cc) :=
  (BlockSums.sum_blocks (m := 8) (n := 1024) (N := 8192) rfl colAt (fun _ _ => rfl)
    (fun κ => A (ix2 (rowAt i r) κ) * T (ix2 κ cc))).symm

/-! ## From the blocks to the array -/

/-- The point with k = 7 of row block i. -/
theorem lastCol_lt (i : ℕ) (hi : i < 4) : 8 * i + 7 < cfg2.N := by
  rw [show cfg2.N = 32 from Gen.N_2]; omega

/-- WHAT A POINT WITH k = 7 WRITES BACK is its block of H2 of the arrays the region found. -/
theorem flushed2_eq (c : Dev nD) (t : Fin cfg2.N) (hf : (cfg2.win 3).flush t = true) :
    (dat2 V c).flushed 3 t
      = ((cfg2.win 3).blk t).view.read (Elt Ideal) (Gcn.h2 (V c main_arg3) (V c main_v2) (V c main_v3)) := by
  have h7 : t.val % 8 = 7 := (Gen.flush2_3 t).mp hf
  have htN : t.val < 32 := lt_of_lt_of_eq t.isLt (show cfg2.N = 32 from Gen.N_2)
  obtain ⟨i, hi, rfl⟩ : ∃ (i : ℕ) (hi : i < 4), t = ⟨8 * i + 7, lastCol_lt i hi⟩ :=
    ⟨t.val / 8, by omega, Fin.ext (by show t.val = 8 * (t.val / 8) + 7; omega)⟩
  show (cfg2.win 3).cut (grid2.coords _) ((dat2 V c).after 3 _) = _
  rw [after2_3]
  funext y
  obtain ⟨r, cc, rfl⟩ : ∃ (r : Fin 2048) (cc : Fin 256), y = ix2 r cc := ⟨y 0, y 1, eq_ix2 y⟩
  obtain ⟨-, -, -, -, -, -, e6, e7⟩ := blockPos2 ⟨8 * i + 7, lastCol_lt i hi⟩
  have e6' : win2_3.index ⟨8 * i + 7, lastCol_lt i hi⟩ (0 : Fin 2) = (8 * i + 7) / 8 := e6
  have hr := r.isLt
  have hemb : ((cfg2.win 3).blk ⟨8 * i + 7, lastCol_lt i hi⟩).view.emb (ix2 r cc) = ix2 (rowAt ⟨i, hi⟩ r) cc :=
    funext fun ax => Fin.ext (by
      match ax with
      | ⟨0, _⟩ => show win2_3.index ⟨8 * i + 7, lastCol_lt i hi⟩ (0 : Fin 2) * 2048 + 1 * r.val = i * 2048 + r.val; omega
      | ⟨1, _⟩ => show win2_3.index ⟨8 * i + 7, lastCol_lt i hi⟩ (1 : Fin 2) * 256 + 1 * cc.val = cc.val; omega)
  show Gen.k2_pay3 (acc2 V c (8 * i + 7) (lastCol_lt i hi)) (iblk2 V c 2 ⟨8 * i + 7, lastCol_lt i hi⟩) (ix2 r cc)
    = Gcn.h2 (V c main_arg3) (V c main_v2) (V c main_v3) (((cfg2.win 3).blk ⟨8 * i + 7, lastCol_lt i hi⟩).view.emb (ix2 r cc))
  rw [hemb, addBias_apply, acc2_apply V c ⟨i, hi⟩ r cc 7 (by norm_num) (lastCol_lt i hi), PrefixSums.upto_all _ 7 (by norm_num),
    sum_blockTerm, blkB_apply]
  rfl

/-- A row of the result lies in the block of a point iff it lies in the block's row range (the block spans all
    columns). -/
theorem mem_resultBlock (t : Fin cfg2.N) (j : S8192x256.Idx) :
    j ∈ ((cfg2.win 3).blk t).view.set ↔ ∀ a : Fin 2, win2_3.index t a * S2048x256.size a ≤ (j a).val
      ∧ (j a).val < win2_3.index t a * S2048x256.size a + S2048x256.size a := by
  show j ∈ ((View.whole main_v4).slice (win2_3.rect t)).set ↔ _
  rw [View.set_slice_whole, Rect.mem_set_unit]
  exact Iff.rfl

/-- Every entry of the result is written back by the point with k = 7 of its row block. -/
theorem covered2 (j : S8192x256.Idx) :
    ∃ t : Fin cfg2.N, (cfg2.win 3).flush t = true ∧ j ∈ ((cfg2.win 3).blk t).view.set := by
  have h0 : (j 0).val < 8192 := (j 0).isLt
  have h1 : (j 1).val < 256 := (j 1).isLt
  have hi : (j 0).val / 2048 < 4 := by omega
  refine ⟨⟨8 * ((j 0).val / 2048) + 7, lastCol_lt _ hi⟩, (Gen.flush2_3 _).mpr (by show (8 * ((j 0).val / 2048) + 7) % 8 = 7; omega), ?_⟩
  obtain ⟨-, -, -, -, -, -, e6, e7⟩ := blockPos2 ⟨8 * ((j 0).val / 2048) + 7, lastCol_lt _ hi⟩
  have e6' : win2_3.index ⟨8 * ((j 0).val / 2048) + 7, lastCol_lt _ hi⟩ (0 : Fin 2) = (8 * ((j 0).val / 2048) + 7) / 8 := e6
  rw [mem_resultBlock]
  intro a
  match a with
  | ⟨0, _⟩ =>
    show win2_3.index ⟨8 * ((j 0).val / 2048) + 7, lastCol_lt _ hi⟩ (0 : Fin 2) * 2048 ≤ (j 0).val
      ∧ (j 0).val < win2_3.index ⟨8 * ((j 0).val / 2048) + 7, lastCol_lt _ hi⟩ (0 : Fin 2) * 2048 + 2048
    omega
  | ⟨1, _⟩ =>
    show win2_3.index ⟨8 * ((j 0).val / 2048) + 7, lastCol_lt _ hi⟩ (1 : Fin 2) * 256 ≤ (j 1).val
      ∧ (j 1).val < win2_3.index ⟨8 * ((j 0).val / 2048) + 7, lastCol_lt _ hi⟩ (1 : Fin 2) * 256 + 256
    omega

/-- THE ARRAY after the region: H2 = A1 · T1 + b2 of the arrays the region found. -/
theorem final2 (c : Dev nD) :
    (dat2 (F := Ideal) V c).arrAt 3 cfg2.N = Gcn.h2 (V c main_arg3) (V c main_v2) (V c main_v3) :=
  (dat2 V c).arrAt_eq_of_cover 3 (Gcn.h2 (V c main_arg3) (V c main_v2) (V c main_v3))
    (fun t hf => flushed2_eq V c t hf) covered2

end Cert.KernelIdeal.HandValue

end
-- ==== Proof.LibDenseLayer.lean ====
/-
  A dense layer with a rectified-linear activation, read at an entry, at the exact (extended-real) values.

  For an M×K matrix X, a K×N matrix W and a bias kept as one row [1, N] that is copied into every row of the product,
  the entry (r, c) of  max(X·W + bias, z)  is  max(Σ_k X(r, k)·W(k, c) + bias(0, c), z).
  Beside it: a [1, 1] array copied out to [a, b] reads its one entry everywhere.
-/
import Idealize.ShloMosaic.Lib.ValueLayout
import Idealize.ShloMosaic.PureOps.Ideal.Laws
import proofs.«130687_j53085795778708_2_alg».proof.Proof.LibPlainMatmul

noncomputable section

namespace Cert.LibDenseLayer

open Idealize.ShloMosaic Idealize.ShloMosaic.ValueIdx

/-- A `[1, 1]` array broadcast to `[a, b]` reads, at `(p, q)`, the operand's one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The entry (r, c) of max(X·W + bias row, z) is max(Σ_k X(r, k)·W(k, c) + bias(0, c), z). -/
theorem relu_dense_apply {M K N : ℕ} {φ₁ φ₂ : FTy} (X : FVec Ideal ⟨2, ![M, K]⟩ φ₁) (W : FVec Ideal ⟨2, ![K, N]⟩ φ₂)
    (bias : FVec Ideal ⟨2, ![1, N]⟩ .f32) (hb : (⟨2, ![1, N]⟩ : Shape).Broadcasts ⟨2, ![M, N]⟩) (z : EReal)
    (r : Fin M) (c : Fin N) :
    maximumf (addf (FloatOps.matmul (DotDims.plain M K N) none X W (constant (F := Ideal) ⟨2, ![M, N]⟩ .f32 0x00000000#32))
        (broadcastTo ⟨2, ![M, N]⟩ bias hb)) (broadcast ⟨2, ![M, N]⟩ z) (ix2 r c)
      = max ((∑ k : Fin K, X (ix2 r k) * W (ix2 k c)) + bias (ix2 (0 : Fin 1) c)) z := by
  rw [maximumf_apply, addf_apply, PlainMatmul.apply_zero, broadcastTo_1b_ab_apply]
  rfl

end Cert.LibDenseLayer

end
-- ==== Proof.LibRowReduce.lean ====
/-
  Reductions along the rows of a matrix, read at a row. At the exact values a lane reduction of an a×b matrix over its
  second axis is, at row r, the sum (for an add reduction) or the fold of max from the accumulator's value (for a
  maximum reduction) of the b entries (r, k) of that row; the host's reduce over the same axis is the same fold from its
  initial value, and its sum the initial value plus the same sum. A fold of max that starts at a value is at least that
  value, so taking the maximum with the start once more changes nothing.
-/
import Idealize.ShloMosaic.PureOps.Ideal.Laws
import Idealize.ShloMosaic.Lib.ValueIdx

noncomputable section

namespace RowReduce

open Idealize.ShloMosaic Idealize.ShloMosaic.ValueIdx

variable {a b : ℕ}

/-- The index a reduction over axis 1 reads at row `r` and position `k` is `(r, k)`. -/
theorem lift_eq (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- A lane sum over the second axis, at row `r`: the sum of that row's entries. -/
theorem laneSum_at (src : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_eq h r k))

/-- A lane maximum over the second axis, at row `r`: the fold of max over that row's entries from the accumulator's value. -/
theorem laneMax_at (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (Finset.fold max (Ideal.ofBits .f32 acc) · (Finset.univ : Finset (Fin b)))
      (funext fun k => congrArg src (lift_eq h r k)))

/-- The host's sum over the second axis, at row `r`: the initial value plus the sum of that row's entries. -/
theorem hostSum_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_eq h r k))

/-- The host's maximum over the second axis, at row `r`: the fold of max over that row's entries from the initial value. -/
theorem hostMax_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) :=
  (Host.reduce_eq_fold_single (FloatOps.maximumf (F := Ideal) (φ := .f32)) x init h' h hu (ix1 r)).trans
    (congrArg (Finset.fold max (init (Shape.Idx.first hu)) · (Finset.univ : Finset (Fin b)))
      (funext fun k => congrArg x (lift_eq h r k)))

/-- A fold of max from `m₀` is at least `m₀`: the maximum with `m₀` once more is the fold itself. -/
theorem max_fold_self {ι : Type} (s : Finset ι) (m₀ : EReal) (f : ι → EReal) :
    max m₀ (s.fold max m₀ f) = s.fold max m₀ f :=
  max_eq_right ((Finset.le_fold_max (s := s) (b := m₀) (f := f) (c := m₀)).2 (Or.inl le_rfl))

end RowReduce

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.Value.Value3.lean ====
/-
  The value of the fourth pallas_call: after its 16 grid points the output array holds, row by row, the
  three-layer perceptron followed by the row-wise log-softmax of the region's input arrays.

  At point t the output block is a pure function of the nine input blocks. Read at the exact values it is the
  perceptron-and-log-softmax of those blocks taken as 512-row matrices: three exact products with a bias row
  added and a maximum with 0.0 after the first two, then for each row the entries minus the row's maximum, minus
  the logarithm of the sum of their exponentials. Every entry of that function depends only on its own row of
  H2 and of the target features, and the row blocks at point t are rows 512·t … 512·t + 511 of those arrays,
  the weight and bias windows being whole arrays; so the block's value is the array's value on those rows.
  The 16 blocks cover the 8192 rows.
-/
import proofs.«130687_j53085795778708_2_alg».proof.Proof.KernelIdeal.Region3
import proofs.«130687_j53085795778708_2_alg».proof.Proof.Spec
import proofs.«130687_j53085795778708_2_alg».proof.Proof.LibPlainMatmul
import proofs.«130687_j53085795778708_2_alg».proof.Proof.LibDenseLayer
import proofs.«130687_j53085795778708_2_alg».proof.Proof.LibRowReduce
import proofs.«130687_j53085795778708_2_alg».proof.Proof.LibKeepdimsColumn
import Idealize.ShloMosaic.Lib.Pipeline.Value
import Idealize.ShloMosaic.Lib.ValueLayout
import Idealize.ShloMosaic.Lib.ValueIdx

set_option maxRecDepth 16384

noncomputable section

namespace Cert.KernelIdeal.HandValue

open Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! The lemmas of this file, up to the last, live in a namespace of their own. -/
namespace Perceptron

/-! ## Every entry depends only on its own row

Each layer of the specification, read at row R of one matrix and at row r of another, gives the same value when
the two rows agree: a product's entry (R, c) is a sum over row R of the left operand; a bias row and the maximum
with 0.0 act entry by entry; the log-softmax of an entry uses only the entries of its row. -/

section Rows
open Gcn ExactProduct

variable {a a' : ℕ}

/-- A product's entry uses one row of the left operand. -/
theorem mm_row_congr {K N : ℕ} (x : Mat a K) (x' : Mat a' K) (w : Mat K N) (R : Fin a) (r : Fin a')
    (h : ∀ k, x (ix2 R k) = x' (ix2 r k)) (c : Fin N) : mm x w (ix2 R c) = mm x' w (ix2 r c) := by
  rw [mm_apply, mm_apply]
  exact Finset.sum_congr rfl fun k _ => by rw [h k]

/-- So does a product with a bias row added. -/
theorem proj_row_congr {K N : ℕ} (x : Mat a K) (x' : Mat a' K) (w : Mat K N) (b : Mat 1 N) (R : Fin a) (r : Fin a')
    (h : ∀ k, x (ix2 R k) = x' (ix2 r k)) (c : Fin N) : proj x w b (ix2 R c) = proj x' w b (ix2 r c) :=
  congrArg (· + b (ix2 (0 : Fin 1) c)) (mm_row_congr x x' w R r h c)

/-- The maximum with 0.0 acts entry by entry. -/
theorem relu_row_congr {N : ℕ} (x : Mat a N) (x' : Mat a' N) (R : Fin a) (r : Fin a')
    (h : ∀ k, x (ix2 R k) = x' (ix2 r k)) (k : Fin N) : relu x (ix2 R k) = relu x' (ix2 r k) :=
  congrArg (max · zeroW) (h k)

/-- The log-softmax of a row, as a function of the row alone. -/
def logSoftmaxRow {b : ℕ} (z : Fin b → EReal) (c : Fin b) : EReal :=
  (z c - (Finset.univ : Finset (Fin b)).fold max negInfW z)
    - Ideal.log (∑ k : Fin b, Ideal.exp (z k - (Finset.univ : Finset (Fin b)).fold max negInfW z))

theorem logSoftmax_apply {b : ℕ} (x : Mat a b) (R : Fin a) (c : Fin b) :
    logSoftmax x (ix2 R c) = logSoftmaxRow (fun k => x (ix2 R k)) c := rfl

/-- The log-softmax of an entry uses only the entries of its row. -/
theorem logSoftmax_row_congr {b : ℕ} (x : Mat a b) (x' : Mat a' b) (R : Fin a) (r : Fin a')
    (h : ∀ k, x (ix2 R k) = x' (ix2 r k)) (c : Fin b) : logSoftmax x (ix2 R c) = logSoftmax x' (ix2 r c) := by
  rw [logSoftmax_apply, logSoftmax_apply]
  exact congrArg (logSoftmaxRow · c) (funext h)

/-- The perceptron and the log-softmax at row R use only row R of H2 and of the target features. -/
theorem tail_row_congr (H : Mat a 256) (G : Mat a 512) (H' : Mat a' 256) (G' : Mat a' 512)
    (la : Mat 256 768) (lb : Mat 512 768) (c1 : Mat 1 768) (l2 : Mat 768 768) (c2 : Mat 1 768) (l3 : Mat 768 512) (c3 : Mat 1 512)
    (R : Fin a) (r : Fin a') (hH : ∀ k, H (ix2 R k) = H' (ix2 r k)) (hG : ∀ k, G (ix2 R k) = G' (ix2 r k)) (c : Fin 512) :
    tail H G la lb c1 l2 c2 l3 c3 (ix2 R c) = tail H' G' la lb c1 l2 c2 l3 c3 (ix2 r c) := by
  unfold tail
  refine logSoftmax_row_congr _ _ R r (fun k => proj_row_congr _ _ l3 c3 R r (fun k => relu_row_congr _ _ R r
    (fun k => proj_row_congr _ _ l2 c2 R r (fun k => relu_row_congr _ _ R r (fun j => ?_) k) k) k) k) c
  show (mm H la (ix2 R j) + mm G lb (ix2 R j)) + c1 (ix2 (0 : Fin 1) j) = (mm H' la (ix2 r j) + mm G' lb (ix2 r j)) + c1 (ix2 (0 : Fin 1) j)
  rw [mm_row_congr H H' la R r hH j, mm_row_congr G G' lb R r hG j]

end Rows

/-! ## The output block at the exact values

The body's last stage on a row block: add the last bias row to every row of the logits, subtract each row's
maximum (folded from −inf), and subtract the logarithm of the row's sum of exponentials. -/

section Block
open Gcn ExactProduct

/-- The column of row maxima put back beside every entry of its row: at (p, q) the fold of max over row p. -/
theorem rowMax_beside (z : FVec Ideal S512x512 .f32) (p q : Fin 512) :
    broadcastTo S512x512 (shapeCast S512x1 (multiReduction .maximumf [1] S512 z 0xFF800000#32 reduces_S512x512_S512 (.inl rfl) rfl)
      shapeCasts_S512_S512x1) broadcasts_S512x1_S512x512 (ix2 p q)
      = (Finset.univ : Finset (Fin 512)).fold max negInfW (fun k => z (ix2 p k)) :=
  (KeepdimsColumn.broadcastTo_a1_ab_apply _ broadcasts_S512x1_S512x512 p q).trans
    ((KeepdimsColumn.shapeCast_a_a1_apply _ shapeCasts_S512_S512x1 p (0 : Fin 1)).trans
      (RowReduce.laneMax_at z 0xFF800000#32 reduces_S512x512_S512 (.inl rfl) rfl p))

/-- The column of logarithms of row sums put back beside every entry of its row: at (p, q) the logarithm of the
    sum over row p. -/
theorem logRowSum_beside (e : FVec Ideal S512x512 .f32) (p q : Fin 512) :
    broadcastTo S512x512 (log (shapeCast S512x1 (multiReduction .add [1] S512 e 0x00000000#32 reduces_S512x512_S512 (.inl rfl) rfl)
      shapeCasts_S512_S512x1)) broadcasts_S512x1_S512x512 (ix2 p q)
      = Ideal.log (∑ k : Fin 512, e (ix2 p k)) :=
  (KeepdimsColumn.broadcastTo_a1_ab_apply _ broadcasts_S512x1_S512x512 p q).trans
    (congrArg Ideal.log ((KeepdimsColumn.shapeCast_a_a1_apply _ shapeCasts_S512_S512x1 p (0 : Fin 1)).trans
      (RowReduce.laneSum_at e 0x00000000#32 reduces_S512x512_S512 (.inl rfl) rfl p)))

/-- The last stage at an entry: the log-softmax of the logits with the bias row added. -/
theorem logSoftmaxStage_apply (v32 : FVec Ideal S512x512 .f32) (v34 : FVec Ideal S1x512 .f32) (r c : Fin 512) :
    k3_pay1 v32 v34 (ix2 r c) = logSoftmaxRow (fun k => v32 (ix2 r k) + v34 (ix2 (0 : Fin 1) k)) c := by
  have hz : ∀ p q : Fin 512, addf v32 (broadcastTo S512x512 v34 broadcasts_S1x512_S512x512) (ix2 p q)
      = v32 (ix2 p q) + v34 (ix2 (0 : Fin 1) q) := fun p q =>
    congrArg (v32 (ix2 p q) + ·) (broadcastTo_1b_ab_apply v34 broadcasts_S1x512_S512x512 p q)
  unfold k3_pay1 logSoftmaxRow
  show (addf v32 (broadcastTo S512x512 v34 broadcasts_S1x512_S512x512) (ix2 r c) - _) - _ = _
  rw [rowMax_beside, logRowSum_beside]
  simp only [hz]
  refine congrArg (_ - ·) (congrArg Ideal.log (Finset.sum_congr rfl fun k _ => ?_))
  rw [show ∀ (v : FVec Ideal S512x512 .f32) (i : S512x512.Idx), exp v i = Ideal.exp (v i) from fun _ _ => rfl,
    subf_apply, rowMax_beside]
  simp only [hz]

end Block

/-! The first three stages on a row block: three exact products, each into a zero accumulator, with a bias row
    copied into every row and a maximum with 0.0 after the first two. A change of float format is the identity at
    the exact values, and a cast to the same shape changes nothing. -/

section Logits
open Gcn ExactProduct

/-- The word 0.0 read as a scalar is the specification's 0.0. -/
theorem zeroScalar_eq : (Scalar.ofBits .f32 0x00000000#32 : Ideal .f32) = zeroW := rfl

/-- The four printed products at an entry: Σ_k lhs(r, k) · rhs(k, c). -/
theorem prodHLa_apply (x : FVec Ideal S512x256 .bf16) (w : FVec Ideal S256x768 .bf16) (r : Fin 512) (j : Fin 768) :
    matmul dot_S512x256_S256x768_S512x768_1_0_0_1_n_n none x w (constant S512x768 .f32 0x00000000#32) (ix2 r j)
      = ∑ k : Fin 256, x (ix2 r k) * w (ix2 k j) :=
  PlainMatmul.apply_zero (M := 512) (K := 256) (N := 768) x w r j
theorem prodGLb_apply (x : FVec Ideal S512x512 .bf16) (w : FVec Ideal S512x768 .bf16) (r : Fin 512) (j : Fin 768) :
    matmul dot_S512x512_S512x768_S512x768_1_0_0_1_n_n none x w (constant S512x768 .f32 0x00000000#32) (ix2 r j)
      = ∑ k : Fin 512, x (ix2 r k) * w (ix2 k j) :=
  PlainMatmul.apply_zero (M := 512) (K := 512) (N := 768) x w r j
theorem prodL2_apply (x : FVec Ideal S512x768 .bf16) (w : FVec Ideal S768x768 .bf16) (r : Fin 512) (j : Fin 768) :
    matmul dot_S512x768_S768x768_S512x768_1_0_0_1_n_n none x w (constant S512x768 .f32 0x00000000#32) (ix2 r j)
      = ∑ k : Fin 768, x (ix2 r k) * w (ix2 k j) :=
  PlainMatmul.apply_zero (M := 512) (K := 768) (N := 768) x w r j
theorem prodL3_apply (x : FVec Ideal S512x768 .bf16) (w : FVec Ideal S768x512 .bf16) (r : Fin 512) (j : Fin 512) :
    matmul dot_S512x768_S768x512_S512x512_1_0_0_1_n_n none x w (constant S512x512 .f32 0x00000000#32) (ix2 r j)
      = ∑ k : Fin 768, x (ix2 r k) * w (ix2 k j) :=
  PlainMatmul.apply_zero (M := 512) (K := 768) (N := 512) x w r j

/-- The first hidden layer at an entry: max(H2·La + G·Lb + c1, 0.0). -/
theorem hidden1_apply (xh : FVec Ideal S512x256 .bf16) (xg : FVec Ideal S512x512 .bf16) (la : FVec Ideal S256x768 .bf16)
    (lb : FVec Ideal S512x768 .bf16) (c1 : FVec Ideal S1x768 .f32) (r : Fin 512) (j : Fin 768) :
    maximumf (addf (addf (matmul dot_S512x256_S256x768_S512x768_1_0_0_1_n_n none xh la (constant S512x768 .f32 0x00000000#32))
          (matmul dot_S512x512_S512x768_S512x768_1_0_0_1_n_n none xg lb (constant S512x768 .f32 0x00000000#32)))
        (broadcastTo S512x768 c1 broadcasts_S1x768_S512x768)) (broadcast S512x768 (Scalar.ofBits .f32 0x00000000#32)) (ix2 r j)
      = relu (pre4 xh xg la lb c1) (ix2 r j) := by
  rw [maximumf_apply, addf_apply, addf_apply, prodHLa_apply, prodGLb_apply, broadcastTo_1b_ab_apply]
  rfl

/-- The second hidden layer at an entry, from a first layer known row by row: max(O4·L2 + c2, 0.0). -/
theorem hidden2_apply (x : FVec Ideal S512x768 .bf16) (x' : Mat 512 768) (l2 : FVec Ideal S768x768 .bf16) (c2 : FVec Ideal S1x768 .f32)
    (r : Fin 512) (hx : ∀ k, x (ix2 r k) = x' (ix2 r k)) (j : Fin 768) :
    maximumf (addf (matmul dot_S512x768_S768x768_S512x768_1_0_0_1_n_n none x l2 (constant S512x768 .f32 0x00000000#32))
        (broadcastTo S512x768 c2 broadcasts_S1x768_S512x768)) (broadcast S512x768 (Scalar.ofBits .f32 0x00000000#32)) (ix2 r j)
      = relu (proj x' l2 c2) (ix2 r j) := by
  rw [maximumf_apply, addf_apply, prodL2_apply, broadcastTo_1b_ab_apply]
  simp only [hx]
  rfl

/-- The logits at an entry, from a second layer known row by row: O5·L3. -/
theorem logits_apply (x : FVec Ideal S512x768 .bf16) (x' : Mat 512 768) (l3 : FVec Ideal S768x512 .bf16)
    (r : Fin 512) (hx : ∀ k, x (ix2 r k) = x' (ix2 r k)) (c : Fin 512) :
    matmul dot_S512x768_S768x512_S512x512_1_0_0_1_n_n none x l3 (constant S512x512 .f32 0x00000000#32) (ix2 r c)
      = mm x' l3 (ix2 r c) := by
  rw [prodL3_apply]
  simp only [hx]
  rfl

/-- The logits of a row block are the third product of the specification's two hidden layers of the blocks. -/
theorem logitsStage_apply (xh : Vec Ideal S512x256 .bf16) (xg : Vec Ideal S512x512 .f32) (la : Vec Ideal S256x768 .f32)
    (lb : Vec Ideal S512x768 .f32) (c1 : Vec Ideal S1x768 .f32) (l2 : Vec Ideal S768x768 .f32) (c2 : Vec Ideal S1x768 .f32)
    (l3 : Vec Ideal S768x512 .f32) (r c : Fin 512) :
    k3_pay2 xh xg la lb c1 l2 c2 l3 (ix2 r c) = mm (relu (proj (relu (pre4 xh xg la lb c1)) l2 c2)) l3 (ix2 r c) := by
  unfold k3_pay2
  simp only [shapeCast_self]
  exact logits_apply _ (relu (proj (relu (pre4 xh xg la lb c1)) l2 c2)) _ r
    (fun k => hidden2_apply _ (relu (pre4 xh xg la lb c1)) _ c2 r (fun k' => hidden1_apply xh _ _ _ c1 r k') k) c

end Logits

/-! The whole block: the log-softmax stage of the logits stage is the specification's function of the nine blocks,
    read as 512-row matrices. -/

section Whole
open Gcn ExactProduct

theorem block_value (xh : Vec Ideal S512x256 .bf16) (xg : Vec Ideal S512x512 .f32) (la : Vec Ideal S256x768 .f32)
    (lb : Vec Ideal S512x768 .f32) (c1 : Vec Ideal S1x768 .f32) (l2 : Vec Ideal S768x768 .f32) (c2 : Vec Ideal S1x768 .f32)
    (l3 : Vec Ideal S768x512 .f32) (c3 : Vec Ideal S1x512 .f32) (r c : Fin 512) :
    k3_pay1 (k3_pay2 xh xg la lb c1 l2 c2 l3) (k3_pay3 c3) (ix2 r c) = tail xh xg la lb c1 l2 c2 l3 c3 (ix2 r c) := by
  rw [logSoftmaxStage_apply]
  unfold tail
  rw [logSoftmax_apply]
  refine congrArg (logSoftmaxRow · c) (funext fun k => ?_)
  rw [logitsStage_apply]
  unfold k3_pay3
  rw [shapeCast_self]
  rfl

/-- The same as an equation of functions on the block's index set. -/
theorem block_value_fun (xh : Vec Ideal S512x256 .bf16) (xg : Vec Ideal S512x512 .f32) (la : Vec Ideal S256x768 .f32)
    (lb : Vec Ideal S512x768 .f32) (c1 : Vec Ideal S1x768 .f32) (l2 : Vec Ideal S768x768 .f32) (c2 : Vec Ideal S1x768 .f32)
    (l3 : Vec Ideal S768x512 .f32) (c3 : Vec Ideal S1x512 .f32) :
    (k3_pay1 (k3_pay2 xh xg la lb c1 l2 c2 l3) (k3_pay3 c3) : S512x512.Idx → EReal) = tail xh xg la lb c1 l2 c2 l3 c3 :=
  funext fun i => by
    obtain ⟨r, c, rfl⟩ : ∃ (r : Fin 512) (c : Fin 512), i = ix2 r c := ⟨i 0, i 1, eq_ix2 i⟩
    exact block_value xh xg la lb c1 l2 c2 l3 c3 r c

end Whole

/-! ## From the blocks to the array

The row-block windows (H2, the target features, the output) move down 512 rows per point and stay in column 0;
the seven whole windows never move. So at point t the two input row blocks are rows 512·t … of their arrays, the
whole windows are their arrays, and the output block lands on rows 512·t … of the output. -/

section Array
open Gcn ExactProduct

theorem zeroOff3 : (![0, 0] : Fin 2 → Nat) = fun _ => 0 := funext fun a => by fin_cases a <;> rfl

/-- Where each window's block sits at each of the 16 points. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_9.index t (0 : Fin 2) = t.val ∧ win3_9.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0 :=
  (by decide +kernel : ∀ t : Fin grid3.N, _)

/-- The specification's function of a row block and whole weights is the function of the arrays on the block's rows:
    stated over variables, the blocks' contents given row by row. -/
theorem tail_of_rows {n : ℕ} (H : Mat n 256) (G : Mat n 512) (xh : Mat 512 256) (xg : Mat 512 512)
    (la xla : Mat 256 768) (lb xlb : Mat 512 768) (c1 xc1 : Mat 1 768) (l2 xl2 : Mat 768 768) (c2 xc2 : Mat 1 768)
    (l3 xl3 : Mat 768 512) (c3 xc3 : Mat 1 512)
    (hla : xla = la) (hlb : xlb = lb) (hc1 : xc1 = c1) (hl2 : xl2 = l2) (hc2 : xc2 = c2) (hl3 : xl3 = l3) (hc3 : xc3 = c3)
    (lo : ℕ) (hlo : lo + 512 ≤ n)
    (hH : ∀ (r : Fin 512) (k : Fin 256), xh (ix2 r k) = H (ix2 ⟨lo + r.val, by omega⟩ k))
    (hG : ∀ (r : Fin 512) (k : Fin 512), xg (ix2 r k) = G (ix2 ⟨lo + r.val, by omega⟩ k))
    (y : (⟨2, ![512, 512]⟩ : Shape).Idx) (i : (⟨2, ![n, 512]⟩ : Shape).Idx)
    (h0 : (i 0).val = lo + (y 0).val) (h1 : (i 1).val = (y 1).val) :
    tail xh xg xla xlb xc1 xl2 xc2 xl3 xc3 y = tail H G la lb c1 l2 c2 l3 c3 i := by
  subst hla hlb hc1 hl2 hc2 hl3 hc3
  obtain ⟨r, q, rfl⟩ : ∃ (r : Fin 512) (q : Fin 512), y = ix2 r q := ⟨y 0, y 1, eq_ix2 y⟩
  have hi : i = ix2 (i 0) (i 1) := eq_ix2 i
  have hQ : i 1 = q := Fin.ext h1
  have hR : ∀ pf, (⟨lo + r.val, pf⟩ : Fin n) = i 0 := fun pf => Fin.ext h0.symm
  rw [hi, hQ]
  exact (tail_row_congr H G xh xg xla xlb xc1 xl2 xc2 xl3 xc3 (i 0) r
    (fun k => by rw [hH r k, hR]) (fun k => by rw [hG r k, hR]) q).symm

variable (c : Dev nD) (t : Fin cfg3.N)

/-- The seven whole windows' blocks are their arrays. -/
theorem whole3_2 : (iblk3 (F := Ideal) V c 2 t : S256x768.Idx → EReal) = V c main_v5 := by
  obtain ⟨-, -, -, -, -, -, e0, e1, -, -, -, -, -, -, -, -, -, -, -, -⟩ := idx_facts3 t
  funext y
  show V c main_v5 (((cfg3.win 2).blk t).view.emb y) = V c main_v5 y
  refine congrArg (V c main_v5) (funext fun a => Fin.ext ?_)
  match a with
  | ⟨0, _⟩ => show win3_2.index t (0 : Fin 2) * 256 + 1 * (y 0).val = (y 0).val; omega
  | ⟨1, _⟩ => show win3_2.index t (1 : Fin 2) * 768 + 1 * (y 1).val = (y 1).val; omega
theorem whole3_3 : (iblk3 (F := Ideal) V c 3 t : S512x768.Idx → EReal) = V c main_v6 := by
  obtain ⟨-, -, -, -, -, -, -, -, e0, e1, -, -, -, -, -, -, -, -, -, -⟩ := idx_facts3 t
  funext y
  show V c main_v6 (((cfg3.win 3).blk t).view.emb y) = V c main_v6 y
  refine congrArg (V c main_v6) (funext fun a => Fin.ext ?_)
  match a with
  | ⟨0, _⟩ => show win3_3.index t (0 : Fin 2) * 512 + 1 * (y 0).val = (y 0).val; omega
  | ⟨1, _⟩ => show win3_3.index t (1 : Fin 2) * 768 + 1 * (y 1).val = (y 1).val; omega
theorem whole3_4 : (iblk3 (F := Ideal) V c 4 t : S1x768.Idx → EReal) = V c main_v7 := by
  obtain ⟨-, -, -, -, -, -, -, -, -, -, e0, e1, -, -, -, -, -, -, -, -⟩ := idx_facts3 t
  funext y
  show V c main_v7 (((cfg3.win 4).blk t).view.emb y) = V c main_v7 y
  refine congrArg (V c main_v7) (funext fun a => Fin.ext ?_)
  match a with
  | ⟨0, _⟩ => show win3_4.index t (0 : Fin 2) * 1 + 1 * (y 0).val = (y 0).val; omega
  | ⟨1, _⟩ => show win3_4.index t (1 : Fin 2) * 768 + 1 * (y 1).val = (y 1).val; omega
theorem whole3_5 : (iblk3 (F := Ideal) V c 5 t : S768x768.Idx → EReal) = V c main_arg10 := by
  obtain ⟨-, -, -, -, -, -, -, -, -, -, -, -, e0, e1, -, -, -, -, -, -⟩ := idx_facts3 t
  funext y
  show V c main_arg10 (((cfg3.win 5).blk t).view.emb y) = V c main_arg10 y
  refine congrArg (V c main_arg10) (funext fun a => Fin.ext ?_)
  match a with
  | ⟨0, _⟩ => show win3_5.index t (0 : Fin 2) * 768 + 1 * (y 0).val = (y 0).val; omega
  | ⟨1, _⟩ => show win3_5.index t (1 : Fin 2) * 768 + 1 * (y 1).val = (y 1).val; omega
theorem whole3_6 : (iblk3 (F := Ideal) V c 6 t : S1x768.Idx → EReal) = V c main_v8 := by
  obtain ⟨-, -, -, -, -, -, -, -, -, -, -, -, -, -, e0, e1, -, -, -, -⟩ := idx_facts3 t
  funext y
  show V c main_v8 (((cfg3.win 6).blk t).view.emb y) = V c main_v8 y
  refine congrArg (V c main_v8) (funext fun a => Fin.ext ?_)
  match a with
  | ⟨0, _⟩ => show win3_6.index t (0 : Fin 2) * 1 + 1 * (y 0).val = (y 0).val; omega
  | ⟨1, _⟩ => show win3_6.index t (1 : Fin 2) * 768 + 1 * (y 1).val = (y 1).val; omega
theorem whole3_7 : (iblk3 (F := Ideal) V c 7 t : S768x512.Idx → EReal) = V c main_arg12 := by
  obtain ⟨-, -, -, -, -, -, -, -, -, -, -, -, -, -, -, -, e0, e1, -, -⟩ := idx_facts3 t
  funext y
  show V c main_arg12 (((cfg3.win 7).blk t).view.emb y) = V c main_arg12 y
  refine congrArg (V c main_arg12) (funext fun a => Fin.ext ?_)
  match a with
  | ⟨0, _⟩ => show win3_7.index t (0 : Fin 2) * 768 + 1 * (y 0).val = (y 0).val; omega
  | ⟨1, _⟩ => show win3_7.index t (1 : Fin 2) * 512 + 1 * (y 1).val = (y 1).val; omega
theorem whole3_8 : (iblk3 (F := Ideal) V c 8 t : S1x512.Idx → EReal) = V c main_v9 := by
  obtain ⟨-, -, -, -, -, -, -, -, -, -, -, -, -, -, -, -, -, -, e0, e1⟩ := idx_facts3 t
  funext y
  show V c main_v9 (((cfg3.win 8).blk t).view.emb y) = V c main_v9 y
  refine congrArg (V c main_v9) (funext fun a => Fin.ext ?_)
  match a with
  | ⟨0, _⟩ => show win3_8.index t (0 : Fin 2) * 1 + 1 * (y 0).val = (y 0).val; omega
  | ⟨1, _⟩ => show win3_8.index t (1 : Fin 2) * 512 + 1 * (y 1).val = (y 1).val; omega

/-- The block point t writes back is block t of the specification's function of the arrays as the region finds them. -/
theorem flushed3_eq :
    (dat3 (F := Ideal) V c).flushed 9 t = ((cfg3.win 9).blk t).view.read (Elt Ideal)
      (tail (V c main_v4) (V c main_arg1) (V c main_v5) (V c main_v6) (V c main_v7) (V c main_arg10) (V c main_v8) (V c main_arg12) (V c main_v9)) := by
  show (cfg3.win 9).cut (grid3.coords t) ((dat3 (F := Ideal) V c).after 9 t) = _
  rw [after3_9]
  unfold out3_9
  rw [View.canon_unit_zero zeroOff3]
  simp only [View.ld_unit_zero (S := S512x256) zeroOff3, View.ld_unit_zero (S := S512x512) zeroOff3, View.ld_unit_zero (S := S256x768) zeroOff3,
    View.ld_unit_zero (S := S512x768) zeroOff3, View.ld_unit_zero (S := S1x768) zeroOff3, View.ld_unit_zero (S := S768x768) zeroOff3,
    View.ld_unit_zero (S := S768x512) zeroOff3, View.ld_unit_zero (S := S1x512) zeroOff3]
  obtain ⟨e00, e01, e10, e11, e90, e91, -⟩ := idx_facts3 t
  have hN : t.val < 16 := lt_of_lt_of_eq t.isLt N_3
  refine (congrArg ((cfg3.win 9).cut (grid3.coords t)) (block_value_fun (iblk3 V c 0 t) (iblk3 V c 1 t) (iblk3 V c 2 t) (iblk3 V c 3 t)
    (iblk3 V c 4 t) (iblk3 V c 5 t) (iblk3 V c 6 t) (iblk3 V c 7 t) (iblk3 V c 8 t))).trans ?_
  -- the two row blocks, entry by entry: row r of the block is row 512·t + r of the array
  have hH : ∀ (r : Fin 512) (k : Fin 256), iblk3 (F := Ideal) V c 0 t (ix2 r k) = V c main_v4 (ix2 ⟨512 * t.val + r.val, by omega⟩ k) := fun r k => by
    show V c main_v4 (((cfg3.win 0).blk t).view.emb (ix2 r k)) = _
    refine congrArg (V c main_v4) (funext fun a => Fin.ext ?_)
    match a with
    | ⟨0, _⟩ => show win3_0.index t (0 : Fin 2) * 512 + 1 * r.val = 512 * t.val + r.val; omega
    | ⟨1, _⟩ => show win3_0.index t (1 : Fin 2) * 256 + 1 * k.val = k.val; omega
  have hG : ∀ (r : Fin 512) (k : Fin 512), iblk3 (F := Ideal) V c 1 t (ix2 r k) = V c main_arg1 (ix2 ⟨512 * t.val + r.val, by omega⟩ k) := fun r k => by
    show V c main_arg1 (((cfg3.win 1).blk t).view.emb (ix2 r k)) = _
    refine congrArg (V c main_arg1) (funext fun a => Fin.ext ?_)
    match a with
    | ⟨0, _⟩ => show win3_1.index t (0 : Fin 2) * 512 + 1 * r.val = 512 * t.val + r.val; omega
    | ⟨1, _⟩ => show win3_1.index t (1 : Fin 2) * 512 + 1 * k.val = k.val; omega
  funext y
  have hy0 : (y 0).val < 512 := (y 0).isLt
  have hy1 : (y 1).val < 512 := (y 1).isLt
  exact tail_of_rows (V c main_v4) (V c main_arg1) (iblk3 V c 0 t) (iblk3 V c 1 t)
    (V c main_v5) (iblk3 V c 2 t) (V c main_v6) (iblk3 V c 3 t) (V c main_v7) (iblk3 V c 4 t) (V c main_arg10) (iblk3 V c 5 t)
    (V c main_v8) (iblk3 V c 6 t) (V c main_arg12) (iblk3 V c 7 t) (V c main_v9) (iblk3 V c 8 t)
    (whole3_2 V c t) (whole3_3 V c t) (whole3_4 V c t) (whole3_5 V c t) (whole3_6 V c t) (whole3_7 V c t) (whole3_8 V c t)
    (512 * t.val) (by omega) hH hG y (((cfg3.win 9).blk t).view.emb y)
    (show win3_9.index t (0 : Fin 2) * 512 + 1 * (y 0).val = 512 * t.val + (y 0).val by omega)
    (show win3_9.index t (1 : Fin 2) * 512 + 1 * (y 1).val = (y 1).val by omega)

/-- An index of the output array is in point t's block iff each coordinate is in the block's range on its axis. -/
theorem mem_blk3 (i : S8192x512.Idx) :
    i ∈ ((cfg3.win 9).blk t).view.set ↔ ∀ a : Fin 2, win3_9.index t a * S512x512.size a ≤ (i a).val ∧ (i a).val < win3_9.index t a * S512x512.size a + S512x512.size a := by
  show i ∈ ((View.whole main_v10).slice (win3_9.rect t)).set ↔ _
  rw [View.set_slice_whole, Rect.mem_set_unit]
  exact Iff.rfl

/-- The 16 blocks cover the array: row r is in the block of point r / 512. -/
theorem cover3 (i : S8192x512.Idx) : ∃ t : Fin cfg3.N, (cfg3.win 9).flush t = true ∧ i ∈ ((cfg3.win 9).blk t).view.set := by
  have hi0 : (i 0).val < 8192 := (i 0).isLt
  have hi1 : (i 1).val < 512 := (i 1).isLt
  have hp : (i 0).val / 512 < cfg3.N := lt_of_lt_of_eq (by omega : (i 0).val / 512 < 16) N_3.symm
  obtain ⟨-, -, -, -, e90, e91, -⟩ := idx_facts3 ⟨(i 0).val / 512, hp⟩
  refine ⟨⟨(i 0).val / 512, hp⟩, flush3_9 _, ?_⟩
  rw [mem_blk3]
  intro a
  match a with
  | ⟨0, _⟩ => show win3_9.index ⟨(i 0).val / 512, hp⟩ (0 : Fin 2) * 512 ≤ (i 0).val ∧ (i 0).val < win3_9.index ⟨(i 0).val / 512, hp⟩ (0 : Fin 2) * 512 + 512; simp only [e90]; omega
  | ⟨1, _⟩ => show win3_9.index ⟨(i 0).val / 512, hp⟩ (1 : Fin 2) * 512 ≤ (i 1).val ∧ (i 1).val < win3_9.index ⟨(i 0).val / 512, hp⟩ (1 : Fin 2) * 512 + 512; simp only [e91]; omega

end Array

end Perceptron

/-- After the region the output array is the perceptron and the row-wise log-softmax of the region's input arrays. -/
theorem final3 (c : Dev nD) : (dat3 (F := Ideal) V c).arrAt 9 cfg3.N = Gcn.tail (V c main_v4) (V c main_arg1) (V c main_v5) (V c main_v6) (V c main_v7) (V c main_arg10) (V c main_v8) (V c main_arg12) (V c main_v9) :=
  (dat3 (F := Ideal) V c).arrAt_eq_of_cover 9 _ (fun t _ => Perceptron.flushed3_eq V c t) Perceptron.cover3

end Cert.KernelIdeal.HandValue

end
-- ==== Proof.SpecLayout.lean ====
/-
  The two layout facts between the programs' spellings and the specification's: a vector reshaped to one row is the
  row of that vector, and a unit-stride slice of a matrix that keeps every column and takes a rows from row lo on is
  those rows.
-/
import proofs.«130687_j53085795778708_2_alg».proof.Proof.Spec
import Idealize.ShloMosaic.Lib.ValueLayout
import Idealize.ShloMosaic.Lib.Pipeline.Value

noncomputable section

namespace Gcn

open Idealize.ShloMosaic Idealize.ShloMosaic.ValueIdx

/-- A vector reshaped to one row reads, at (0, c), the vector at c. -/
theorem shapeCast_row {n : ℕ} (v : Vect n) (h : (⟨1, ![n]⟩ : Shape).ShapeCasts ⟨2, ![1, n]⟩) :
    shapeCast ⟨2, ![1, n]⟩ v h = row v := by
  funext i
  obtain ⟨u, c, rfl⟩ : ∃ (u : Fin 1) (c : Fin n), i = ix2 u c := ⟨i 0, i 1, eq_ix2 i⟩
  exact shapeCast_a_1a_apply v h u c

/-- The a rows from row lo of a matrix, taken as a unit-stride slice that keeps every column. -/
theorem slice_rows {n b a lo : ℕ} (hle : lo + a ≤ n) (x : Mat n b)
    (h : (⟨2, ![n, b]⟩ : Shape).Slices ![lo, 0] ⟨2, ![a, b]⟩) :
    extractStridedSlice ⟨2, ![a, b]⟩ ![lo, 0] x h = rowsFrom a lo hle x := by
  funext j
  refine extractStridedSlice_apply ![lo, 0] x h j _ (fun ax => ?_)
  match ax with
  | ⟨0, _⟩ => rfl
  | ⟨1, _⟩ => show (j 1).val = 0 + (j 1).val; omega

end Gcn

end
-- ==== Proof.Value.Net.lean ====
/-
  The idealized kernel program's result as the network of its arguments.

  Each region finds in its input arrays what the items before it left: the first product T0; T1 and the bias rows; H2;
  the two row slices of L1. Region by region the result array is the next stage of the network of what the region finds,
  so the last region's result array is the whole network of the launch arguments.
-/
import proofs.«130687_j53085795778708_2_alg».proof.Proof.KernelIdeal.Run
import proofs.«130687_j53085795778708_2_alg».proof.Proof.Value.Value0
import proofs.«130687_j53085795778708_2_alg».proof.Proof.Value.Value1
import proofs.«130687_j53085795778708_2_alg».proof.Proof.Value.Value2
import proofs.«130687_j53085795778708_2_alg».proof.Proof.Value.Value3
import proofs.«130687_j53085795778708_2_alg».proof.Proof.SpecLayout
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The host stretches: a bias vector as a row, the two row slices of L1 -/

theorem host1_row (W : Valuation τ sig (Elt Ideal)) :
    StableHlo.after hostOps1 W (Proc.devRef .tc main_v1) = Gcn.row (W (Proc.devRef .tc main_arg5)) := by
  after_results
  exact Gcn.shapeCast_row _ _
theorem host2_row (W : Valuation τ sig (Elt Ideal)) :
    StableHlo.after hostOps2 W (Proc.devRef .tc main_v3) = Gcn.row (W (Proc.devRef .tc main_arg7)) := by
  after_results
  exact Gcn.shapeCast_row _ _
theorem host3_la (W : Valuation τ sig (Elt Ideal)) :
    StableHlo.after hostOps3 W (Proc.devRef .tc main_v5) = Gcn.rowsFrom 256 0 (by norm_num) (W (Proc.devRef .tc main_arg8)) := by
  after_results
  exact Gcn.slice_rows _ _ _
theorem host3_lb (W : Valuation τ sig (Elt Ideal)) :
    StableHlo.after hostOps3 W (Proc.devRef .tc main_v6) = Gcn.rowsFrom 512 256 (by norm_num) (W (Proc.devRef .tc main_arg8)) := by
  after_results
  exact Gcn.slice_rows _ _ _
theorem host3_c1 (W : Valuation τ sig (Elt Ideal)) :
    StableHlo.after hostOps3 W (Proc.devRef .tc main_v7) = Gcn.row (W (Proc.devRef .tc main_arg9)) := by
  after_results
  exact Gcn.shapeCast_row _ _
theorem host3_c2 (W : Valuation τ sig (Elt Ideal)) :
    StableHlo.after hostOps3 W (Proc.devRef .tc main_v8) = Gcn.row (W (Proc.devRef .tc main_arg11)) := by
  after_results
  exact Gcn.shapeCast_row _ _
theorem host3_c3 (W : Valuation τ sig (Elt Ideal)) :
    StableHlo.after hostOps3 W (Proc.devRef .tc main_v9) = Gcn.row (W (Proc.devRef .tc main_arg13)) := by
  after_results
  exact Gcn.shapeCast_row _ _

/-! ## What each region finds, in terms of the launch arguments -/

/-- The second region finds T0 = X·W1 in the first region's result array. -/
theorem found_t0 (c : Dev nD) : V2 m ρ c main_v0 = Gcn.t0 (m ((c.tc : Thread nD τ).loc main_arg0)) (m ((c.tc : Thread nD τ).loc main_arg4)) := by
  refine (StableHlo.after_of_writes_sub hostOps1 _ hostOps1_writes (by decide)).trans ?_
  exact (W1_arr m ρ c 2).trans (final0 (V0 m ρ) c)

/-- and the first bias as a row. -/
theorem found_b1 (c : Dev nD) : V2 m ρ c main_v1 = Gcn.row (m ((c.tc : Thread nD τ).loc main_arg5)) :=
  (host1_row (W1 m ρ c)).trans (congrArg Gcn.row (W1_arg m ρ c main_arg5 (by decide)))

/-- The third region finds T1 in the second region's result array. -/
theorem found_t1 (c : Dev nD) : V4 m ρ c main_v2
    = Gcn.t1 (m ((c.tc : Thread nD τ).loc main_arg2)) (Gcn.t0 (m ((c.tc : Thread nD τ).loc main_arg0)) (m ((c.tc : Thread nD τ).loc main_arg4))) (Gcn.row (m ((c.tc : Thread nD τ).loc main_arg5))) (m ((c.tc : Thread nD τ).loc main_arg6)) := by
  refine (StableHlo.after_of_writes_sub hostOps2 _ hostOps2_writes (by decide)).trans ?_
  refine (W3_arr m ρ c 4).trans ?_
  have e2 : V2 m ρ c main_arg2 = (m ((c.tc : Thread nD τ).loc main_arg2)) := W2_arg m ρ c main_arg2 (by decide) (by decide)
  have e6 : V2 m ρ c main_arg6 = (m ((c.tc : Thread nD τ).loc main_arg6)) := W2_arg m ρ c main_arg6 (by decide) (by decide)
  rw [final1 (V2 m ρ) c, e2, e6, found_t0 m ρ c, found_b1 m ρ c]

/-- and the second bias as a row. -/
theorem found_b2 (c : Dev nD) : V4 m ρ c main_v3 = Gcn.row (m ((c.tc : Thread nD τ).loc main_arg7)) :=
  (host2_row (W3 m ρ c)).trans (congrArg Gcn.row (W3_arg m ρ c main_arg7 (by decide) (by decide) (by decide)))

/-- The last region finds H2 in the third region's result array. -/
theorem found_h2 (c : Dev nD) : V6 m ρ c main_v4
    = Gcn.h2 (m ((c.tc : Thread nD τ).loc main_arg3)) (Gcn.t1 (m ((c.tc : Thread nD τ).loc main_arg2)) (Gcn.t0 (m ((c.tc : Thread nD τ).loc main_arg0)) (m ((c.tc : Thread nD τ).loc main_arg4))) (Gcn.row (m ((c.tc : Thread nD τ).loc main_arg5))) (m ((c.tc : Thread nD τ).loc main_arg6))) (Gcn.row (m ((c.tc : Thread nD τ).loc main_arg7))) := by
  refine (StableHlo.after_of_writes_sub hostOps3 _ hostOps3_writes (by decide)).trans ?_
  refine (W5_arr m ρ c 3).trans ?_
  have e3 : V4 m ρ c main_arg3 = (m ((c.tc : Thread nD τ).loc main_arg3)) := W4_arg m ρ c main_arg3 (by decide) (by decide) (by decide) (by decide)
  rw [final2 (V4 m ρ) c, e3, found_t1 m ρ c, found_b2 m ρ c]

/-- The result array after the last region is the network of the launch arguments. -/
theorem result_eq (c : Dev nD) : (dat3 (F := Ideal) (V6 m ρ) c).arrAt 9 cfg3.N
    = Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  have e1 : V6 m ρ c main_arg1 = (m ((c.tc : Thread nD τ).loc main_arg1)) := W6_arg m ρ c main_arg1 (by decide) (by decide) (by decide) (by decide) (by decide) (by decide)
  have e10 : V6 m ρ c main_arg10 = (m ((c.tc : Thread nD τ).loc main_arg10)) := W6_arg m ρ c main_arg10 (by decide) (by decide) (by decide) (by decide) (by decide) (by decide)
  have e12 : V6 m ρ c main_arg12 = (m ((c.tc : Thread nD τ).loc main_arg12)) := W6_arg m ρ c main_arg12 (by decide) (by decide) (by decide) (by decide) (by decide) (by decide)
  have a8 : W5 m ρ c (Proc.devRef .tc main_arg8) = (m ((c.tc : Thread nD τ).loc main_arg8)) := W5_arg m ρ c main_arg8 (by decide) (by decide) (by decide) (by decide) (by decide)
  have a9 : W5 m ρ c (Proc.devRef .tc main_arg9) = (m ((c.tc : Thread nD τ).loc main_arg9)) := W5_arg m ρ c main_arg9 (by decide) (by decide) (by decide) (by decide) (by decide)
  have a11 : W5 m ρ c (Proc.devRef .tc main_arg11) = (m ((c.tc : Thread nD τ).loc main_arg11)) := W5_arg m ρ c main_arg11 (by decide) (by decide) (by decide) (by decide) (by decide)
  have a13 : W5 m ρ c (Proc.devRef .tc main_arg13) = (m ((c.tc : Thread nD τ).loc main_arg13)) := W5_arg m ρ c main_arg13 (by decide) (by decide) (by decide) (by decide) (by decide)
  have e5 : V6 m ρ c main_v5 = Gcn.rowsFrom 256 0 (by norm_num) (m ((c.tc : Thread nD τ).loc main_arg8)) := (host3_la (W5 m ρ c)).trans (congrArg _ a8)
  have e6 : V6 m ρ c main_v6 = Gcn.rowsFrom 512 256 (by norm_num) (m ((c.tc : Thread nD τ).loc main_arg8)) := (host3_lb (W5 m ρ c)).trans (congrArg _ a8)
  have e7 : V6 m ρ c main_v7 = Gcn.row (m ((c.tc : Thread nD τ).loc main_arg9)) := (host3_c1 (W5 m ρ c)).trans (congrArg Gcn.row a9)
  have e8 : V6 m ρ c main_v8 = Gcn.row (m ((c.tc : Thread nD τ).loc main_arg11)) := (host3_c2 (W5 m ρ c)).trans (congrArg Gcn.row a11)
  have e9 : V6 m ρ c main_v9 = Gcn.row (m ((c.tc : Thread nD τ).loc main_arg13)) := (host3_c3 (W5 m ρ c)).trans (congrArg Gcn.row a13)
  rw [final3 (V6 m ρ) c, found_h2 m ρ c, e1, e5, e6, e7, e10, e8, e12, e9]
  rfl

/-- From any memory with zero counters the idealized kernel program runs to the network of its arguments in its result
    array, the arguments unchanged. -/
theorem run_value : θ_run (defs (F := Ideal)) (onTc (τ := τ) (main (F := Ideal))) ⟨m, fun _ => 0, ρ⟩ (fun r => ∀ c : Dev nD,
      r.2.mem ((c.tc : Thread nD τ).loc main_v10) = Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h c).1).trans (result_eq m ρ c), (h c).2⟩) (run_result m ρ)

end Cert.KernelIdeal.HandValue

end
-- ==== Proof.LibFoldAppend.lean ====
/-
  A fold of host operations over a concatenation of two lists is the fold over the first list followed by the fold
  over the second: the contents after a line are the contents after its stretches, composed.
-/
import Idealize.ShloMosaic.Lib.StableHlo.Run

namespace LibFoldAppend

open Idealize.ShloMosaic Idealize.ShloMosaic.StableHlo

variable {nD : Nat} {τ : Topo} {sig : RefSig} {Val : EltTy → Type}

/-- Folding over `l₁ ++ l₂` from `V` is folding over `l₂` from the fold over `l₁`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end LibFoldAppend
-- ==== Proof.Reference.RefRun.lean ====
/-
  The reference as a straight line of its 47 host operations, cut into seven stretches — the two graph layers, the
  three perceptron layers and the two halves of the row-wise log-softmax — and its run: every weakly fair execution terminates with
  each buffer at the fold of the operations over the launch contents.
-/
import proofs.«130687_j53085795778708_2_alg».proof.Proof.Gen.ReferenceIdeal
import proofs.«130687_j53085795778708_2_alg».proof.Proof.LibFoldAppend
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first graph layer: T0 = X·W1, then A0·T0 plus the bias b1 in every row, then the maximum with 0.0. -/
abbrev layer1 : List (HloOp τ sig (Elt F)) :=
  [ binary main_arg0 main_arg4 main_v0 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    binary main_arg2 main_v0 main_v1 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    unary main_arg5 main_v2 (broadcastInDim S1x256 ![1] bcast_S256_S1x256_1 : (⟨S256, .f32⟩ : BufTy).Contents (Elt F) → (⟨S1x256, .f32⟩ : BufTy).Contents (Elt F)),
    unary main_v2 main_v3 (broadcastInDim S8192x256 ![0, 1] bcast_S1x256_S8192x256_0_1 : (⟨S1x256, .f32⟩ : BufTy).Contents (Elt F) → (⟨S8192x256, .f32⟩ : BufTy).Contents (Elt F)),
    binary main_v1 main_v3 main_v4 (addf : (⟨S8192x256, .f32⟩ : BufTy).Contents (Elt F) → (⟨S8192x256, .f32⟩ : BufTy).Contents (Elt F) → (⟨S8192x256, .f32⟩ : BufTy).Contents (Elt F)),
    TRef.nullary main_call0.cst (constant S_ .f32 0x00000000#32),
    TRef.unary main_call0.cst main_call0.v0 (broadcastInDim S8192x256 ![] bcast_S_S8192x256),
    TRef.binary (.of main_v4 : TRef sig ⟨S8192x256, .f32⟩) main_call0.v0 main_call0.v1 maximumf ]

/-- The second graph layer: T1 = (first layer)·W2, then A1·T1 plus the bias b2 in every row. -/
abbrev layer2 : List (HloOp τ sig (Elt F)) :=
  [ binary main_v5 main_arg6 main_v6 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    binary main_arg3 main_v6 main_v7 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    unary main_arg7 main_v8 (broadcastInDim S1x256 ![1] bcast_S256_S1x256_1 : (⟨S256, .f32⟩ : BufTy).Contents (Elt F) → (⟨S1x256, .f32⟩ : BufTy).Contents (Elt F)),
    unary main_v8 main_v9 (broadcastInDim S8192x256 ![0, 1] bcast_S1x256_S8192x256_0_1 : (⟨S1x256, .f32⟩ : BufTy).Contents (Elt F) → (⟨S8192x256, .f32⟩ : BufTy).Contents (Elt F)),
    binary main_v7 main_v9 main_v10 (addf : (⟨S8192x256, .f32⟩ : BufTy).Contents (Elt F) → (⟨S8192x256, .f32⟩ : BufTy).Contents (Elt F) → (⟨S8192x256, .f32⟩ : BufTy).Contents (Elt F)) ]

/-- The first perceptron layer: the concatenation [H2 | G] times L1, plus the bias c1 in every row, then the maximum with 0.0. -/
abbrev dense1 : List (HloOp τ sig (Elt F)) :=
  [ binary main_v10 main_arg1 main_v11 ((fun a b => concatenate S8192x768 1 [⟨S8192x256, a⟩, ⟨S8192x512, b⟩] concatenates_S8192x256_S8192x512_S8192x768_d1) : (⟨S8192x256, .f32⟩ : BufTy).Contents (Elt F) → (⟨S8192x512, .f32⟩ : BufTy).Contents (Elt F) → (⟨S8192x768, .f32⟩ : BufTy).Contents (Elt F)),
    binary main_v11 main_arg8 main_v12 ((fun l r => Host.dotGeneral dot_S8192x768_S768x768_S8192x768_1_0_0_1_n_n none l r) : (⟨S8192x768, .f32⟩ : BufTy).Contents (Elt F) → (⟨S768x768, .f32⟩ : BufTy).Contents (Elt F) → (⟨S8192x768, .f32⟩ : BufTy).Contents (Elt F)),
    unary main_arg9 main_v13 (broadcastInDim S1x768 ![1] bcast_S768_S1x768_1 : (⟨S768, .f32⟩ : BufTy).Contents (Elt F) → (⟨S1x768, .f32⟩ : BufTy).Contents (Elt F)),
    unary main_v13 main_v14 (broadcastInDim S8192x768 ![0, 1] bcast_S1x768_S8192x768_0_1 : (⟨S1x768, .f32⟩ : BufTy).Contents (Elt F) → (⟨S8192x768, .f32⟩ : BufTy).Contents (Elt F)),
    binary main_v12 main_v14 main_v15 (addf : (⟨S8192x768, .f32⟩ : BufTy).Contents (Elt F) → (⟨S8192x768, .f32⟩ : BufTy).Contents (Elt F) → (⟨S8192x768, .f32⟩ : BufTy).Contents (Elt F)),
    TRef.nullary main_call1.cst (constant S_ .f32 0x00000000#32),
    TRef.unary main_call1.cst main_call1.v0 (broadcastInDim S8192x768 ![] bcast_S_S8192x768),
    TRef.binary (.of main_v15 : TRef sig ⟨S8192x768, .f32⟩) main_call1.v0 main_call1.v1 maximumf ]

/-- The second perceptron layer: the product with L2, plus the bias c2 in every row, then the maximum with 0.0. -/
abbrev dense2 : List (HloOp τ sig (Elt F)) :=
  [ binary main_v16 main_arg10 main_v17 ((fun l r => Host.dotGeneral dot_S8192x768_S768x768_S8192x768_1_0_0_1_n_n none l r) : (⟨S8192x768, .f32⟩ : BufTy).Contents (Elt F) → (⟨S768x768, .f32⟩ : BufTy).Contents (Elt F) → (⟨S8192x768, .f32⟩ : BufTy).Contents (Elt F)),
    unary main_arg11 main_v18 (broadcastInDim S1x768 ![1] bcast_S768_S1x768_1 : (⟨S768, .f32⟩ : BufTy).Contents (Elt F) → (⟨S1x768, .f32⟩ : BufTy).Contents (Elt F)),
    unary main_v18 main_v19 (broadcastInDim S8192x768 ![0, 1] bcast_S1x768_S8192x768_0_1 : (⟨S1x768, .f32⟩ : BufTy).Contents (Elt F) → (⟨S8192x768, .f32⟩ : BufTy).Contents (Elt F)),
    binary main_v17 main_v19 main_v20 (addf : (⟨S8192x768, .f32⟩ : BufTy).Contents (Elt F) → (⟨S8192x768, .f32⟩ : BufTy).Contents (Elt F) → (⟨S8192x768, .f32⟩ : BufTy).Contents (Elt F)),
    TRef.nullary main_call2.cst (constant S_ .f32 0x00000000#32),
    TRef.unary main_call2.cst main_call2.v0 (broadcastInDim S8192x768 ![] bcast_S_S8192x768),
    TRef.binary (.of main_v20 : TRef sig ⟨S8192x768, .f32⟩) main_call2.v0 main_call2.v1 maximumf ]

/-- The third perceptron layer: the product with L3, plus the bias c3 in every row. -/
abbrev dense3 : List (HloOp τ sig (Elt F)) :=
  [ binary main_v21 main_arg12 main_v22 ((fun l r => Host.dotGeneral dot_S8192x768_S768x512_S8192x512_1_0_0_1_n_n none l r) : (⟨S8192x768, .f32⟩ : BufTy).Contents (Elt F) → (⟨S768x512, .f32⟩ : BufTy).Contents (Elt F) → (⟨S8192x512, .f32⟩ : BufTy).Contents (Elt F)),
    unary main_arg13 main_v23 (broadcastInDim S1x512 ![1] bcast_S512_S1x512_1 : (⟨S512, .f32⟩ : BufTy).Contents (Elt F) → (⟨S1x512, .f32⟩ : BufTy).Contents (Elt F)),
    unary main_v23 main_v24 (broadcastInDim S8192x512 ![0, 1] bcast_S1x512_S8192x512_0_1 : (⟨S1x512, .f32⟩ : BufTy).Contents (Elt F) → (⟨S8192x512, .f32⟩ : BufTy).Contents (Elt F)),
    binary main_v22 main_v24 main_v25 (addf : (⟨S8192x512, .f32⟩ : BufTy).Contents (Elt F) → (⟨S8192x512, .f32⟩ : BufTy).Contents (Elt F) → (⟨S8192x512, .f32⟩ : BufTy).Contents (Elt F)) ]

/-- The log-softmax's shift: each row's maximum folded from −inf (and the maximum with −inf once more), kept as a column, copied along the rows and subtracted. -/
abbrev shift : List (HloOp τ sig (Elt F)) :=
  [ TRef.nullary main_call3.cst (constant S_ .f32 0xFF800000#32),
    TRef.binary (.of main_v25 : TRef sig ⟨S8192x512, .f32⟩) main_call3.cst main_call3.v0 (fun x v => Host.reduce FloatOps.maximumf x v reducesTo_S8192x512_S8192_d1 h_S_),
    TRef.nullary main_call3.cst_0 (constant S_ .f32 0xFF800000#32),
    TRef.unary main_call3.cst_0 main_call3.v1 (broadcastInDim S8192 ![] bcast_S_S8192),
    TRef.binary main_call3.v1 main_call3.v0 main_call3.v2 maximumf,
    TRef.unary main_call3.v2 main_call3.v3 (broadcastInDim S8192x1 ![0] bcast_S8192_S8192x1_0),
    TRef.unary main_call3.v3 main_call3.v4 (broadcastInDim S8192x512 ![0, 1] bcast_S8192x1_S8192x512_0_1),
    TRef.binary (.of main_v25 : TRef sig ⟨S8192x512, .f32⟩) main_call3.v4 main_call3.v5 subf ]

/-- The log-softmax's normalizer: the exponentials of the shifted entries, their row sums from 0.0, the logarithm, kept as a column, copied along the rows and subtracted. -/
abbrev logsum : List (HloOp τ sig (Elt F)) :=
  [ TRef.unary main_call3.v5 main_call3.v6 Host.exp,
    TRef.nullary main_call3.cst_1 (constant S_ .f32 0x00000000#32),
    TRef.binary main_call3.v6 main_call3.cst_1 main_call3.v7 (fun x v => Host.reduceAdd x v reducesTo_S8192x512_S8192_d1 h_S_),
    TRef.unary main_call3.v7 main_call3.v8 (broadcastInDim S8192x1 ![0] bcast_S8192_S8192x1_0),
    TRef.unary main_call3.v8 main_call3.v9 Host.log,
    TRef.unary main_call3.v9 main_call3.v10 (broadcastInDim S8192x512 ![0, 1] bcast_S8192x1_S8192x512_0_1),
    TRef.binary main_call3.v5 main_call3.v10 main_call3.v11 subf ]

/-- The whole line, in order. -/
abbrev ops : List (HloOp τ sig (Elt F)) :=
  [ binary main_arg0 main_arg4 main_v0 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    binary main_arg2 main_v0 main_v1 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    unary main_arg5 main_v2 (broadcastInDim S1x256 ![1] bcast_S256_S1x256_1 : (⟨S256, .f32⟩ : BufTy).Contents (Elt F) → (⟨S1x256, .f32⟩ : BufTy).Contents (Elt F)),
    unary main_v2 main_v3 (broadcastInDim S8192x256 ![0, 1] bcast_S1x256_S8192x256_0_1 : (⟨S1x256, .f32⟩ : BufTy).Contents (Elt F) → (⟨S8192x256, .f32⟩ : BufTy).Contents (Elt F)),
    binary main_v1 main_v3 main_v4 (addf : (⟨S8192x256, .f32⟩ : BufTy).Contents (Elt F) → (⟨S8192x256, .f32⟩ : BufTy).Contents (Elt F) → (⟨S8192x256, .f32⟩ : BufTy).Contents (Elt F)),
    TRef.nullary main_call0.cst (constant S_ .f32 0x00000000#32),
    TRef.unary main_call0.cst main_call0.v0 (broadcastInDim S8192x256 ![] bcast_S_S8192x256),
    TRef.binary (.of main_v4 : TRef sig ⟨S8192x256, .f32⟩) main_call0.v0 main_call0.v1 maximumf,
    binary main_v5 main_arg6 main_v6 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    binary main_arg3 main_v6 main_v7 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    unary main_arg7 main_v8 (broadcastInDim S1x256 ![1] bcast_S256_S1x256_1 : (⟨S256, .f32⟩ : BufTy).Contents (Elt F) → (⟨S1x256, .f32⟩ : BufTy).Contents (Elt F)),
    unary main_v8 main_v9 (broadcastInDim S8192x256 ![0, 1] bcast_S1x256_S8192x256_0_1 : (⟨S1x256, .f32⟩ : BufTy).Contents (Elt F) → (⟨S8192x256, .f32⟩ : BufTy).Contents (Elt F)),
    binary main_v7 main_v9 main_v10 (addf : (⟨S8192x256, .f32⟩ : BufTy).Contents (Elt F) → (⟨S8192x256, .f32⟩ : BufTy).Contents (Elt F) → (⟨S8192x256, .f32⟩ : BufTy).Contents (Elt F)),
    binary main_v10 main_arg1 main_v11 ((fun a b => concatenate S8192x768 1 [⟨S8192x256, a⟩, ⟨S8192x512, b⟩] concatenates_S8192x256_S8192x512_S8192x768_d1) : (⟨S8192x256, .f32⟩ : BufTy).Contents (Elt F) → (⟨S8192x512, .f32⟩ : BufTy).Contents (Elt F) → (⟨S8192x768, .f32⟩ : BufTy).Contents (Elt F)),
    binary main_v11 main_arg8 main_v12 ((fun l r => Host.dotGeneral dot_S8192x768_S768x768_S8192x768_1_0_0_1_n_n none l r) : (⟨S8192x768, .f32⟩ : BufTy).Contents (Elt F) → (⟨S768x768, .f32⟩ : BufTy).Contents (Elt F) → (⟨S8192x768, .f32⟩ : BufTy).Contents (Elt F)),
    unary main_arg9 main_v13 (broadcastInDim S1x768 ![1] bcast_S768_S1x768_1 : (⟨S768, .f32⟩ : BufTy).Contents (Elt F) → (⟨S1x768, .f32⟩ : BufTy).Contents (Elt F)),
    unary main_v13 main_v14 (broadcastInDim S8192x768 ![0, 1] bcast_S1x768_S8192x768_0_1 : (⟨S1x768, .f32⟩ : BufTy).Contents (Elt F) → (⟨S8192x768, .f32⟩ : BufTy).Contents (Elt F)),
    binary main_v12 main_v14 main_v15 (addf : (⟨S8192x768, .f32⟩ : BufTy).Contents (Elt F) → (⟨S8192x768, .f32⟩ : BufTy).Contents (Elt F) → (⟨S8192x768, .f32⟩ : BufTy).Contents (Elt F)),
    TRef.nullary main_call1.cst (constant S_ .f32 0x00000000#32),
    TRef.unary main_call1.cst main_call1.v0 (broadcastInDim S8192x768 ![] bcast_S_S8192x768),
    TRef.binary (.of main_v15 : TRef sig ⟨S8192x768, .f32⟩) main_call1.v0 main_call1.v1 maximumf,
    binary main_v16 main_arg10 main_v17 ((fun l r => Host.dotGeneral dot_S8192x768_S768x768_S8192x768_1_0_0_1_n_n none l r) : (⟨S8192x768, .f32⟩ : BufTy).Contents (Elt F) → (⟨S768x768, .f32⟩ : BufTy).Contents (Elt F) → (⟨S8192x768, .f32⟩ : BufTy).Contents (Elt F)),
    unary main_arg11 main_v18 (broadcastInDim S1x768 ![1] bcast_S768_S1x768_1 : (⟨S768, .f32⟩ : BufTy).Contents (Elt F) → (⟨S1x768, .f32⟩ : BufTy).Contents (Elt F)),
    unary main_v18 main_v19 (broadcastInDim S8192x768 ![0, 1] bcast_S1x768_S8192x768_0_1 : (⟨S1x768, .f32⟩ : BufTy).Contents (Elt F) → (⟨S8192x768, .f32⟩ : BufTy).Contents (Elt F)),
    binary main_v17 main_v19 main_v20 (addf : (⟨S8192x768, .f32⟩ : BufTy).Contents (Elt F) → (⟨S8192x768, .f32⟩ : BufTy).Contents (Elt F) → (⟨S8192x768, .f32⟩ : BufTy).Contents (Elt F)),
    TRef.nullary main_call2.cst (constant S_ .f32 0x00000000#32),
    TRef.unary main_call2.cst main_call2.v0 (broadcastInDim S8192x768 ![] bcast_S_S8192x768),
    TRef.binary (.of main_v20 : TRef sig ⟨S8192x768, .f32⟩) main_call2.v0 main_call2.v1 maximumf,
    binary main_v21 main_arg12 main_v22 ((fun l r => Host.dotGeneral dot_S8192x768_S768x512_S8192x512_1_0_0_1_n_n none l r) : (⟨S8192x768, .f32⟩ : BufTy).Contents (Elt F) → (⟨S768x512, .f32⟩ : BufTy).Contents (Elt F) → (⟨S8192x512, .f32⟩ : BufTy).Contents (Elt F)),
    unary main_arg13 main_v23 (broadcastInDim S1x512 ![1] bcast_S512_S1x512_1 : (⟨S512, .f32⟩ : BufTy).Contents (Elt F) → (⟨S1x512, .f32⟩ : BufTy).Contents (Elt F)),
    unary main_v23 main_v24 (broadcastInDim S8192x512 ![0, 1] bcast_S1x512_S8192x512_0_1 : (⟨S1x512, .f32⟩ : BufTy).Contents (Elt F) → (⟨S8192x512, .f32⟩ : BufTy).Contents (Elt F)),
    binary main_v22 main_v24 main_v25 (addf : (⟨S8192x512, .f32⟩ : BufTy).Contents (Elt F) → (⟨S8192x512, .f32⟩ : BufTy).Contents (Elt F) → (⟨S8192x512, .f32⟩ : BufTy).Contents (Elt F)),
    TRef.nullary main_call3.cst (constant S_ .f32 0xFF800000#32),
    TRef.binary (.of main_v25 : TRef sig ⟨S8192x512, .f32⟩) main_call3.cst main_call3.v0 (fun x v => Host.reduce FloatOps.maximumf x v reducesTo_S8192x512_S8192_d1 h_S_),
    TRef.nullary main_call3.cst_0 (constant S_ .f32 0xFF800000#32),
    TRef.unary main_call3.cst_0 main_call3.v1 (broadcastInDim S8192 ![] bcast_S_S8192),
    TRef.binary main_call3.v1 main_call3.v0 main_call3.v2 maximumf,
    TRef.unary main_call3.v2 main_call3.v3 (broadcastInDim S8192x1 ![0] bcast_S8192_S8192x1_0),
    TRef.unary main_call3.v3 main_call3.v4 (broadcastInDim S8192x512 ![0, 1] bcast_S8192x1_S8192x512_0_1),
    TRef.binary (.of main_v25 : TRef sig ⟨S8192x512, .f32⟩) main_call3.v4 main_call3.v5 subf,
    TRef.unary main_call3.v5 main_call3.v6 Host.exp,
    TRef.nullary main_call3.cst_1 (constant S_ .f32 0x00000000#32),
    TRef.binary main_call3.v6 main_call3.cst_1 main_call3.v7 (fun x v => Host.reduceAdd x v reducesTo_S8192x512_S8192_d1 h_S_),
    TRef.unary main_call3.v7 main_call3.v8 (broadcastInDim S8192x1 ![0] bcast_S8192_S8192x1_0),
    TRef.unary main_call3.v8 main_call3.v9 Host.log,
    TRef.unary main_call3.v9 main_call3.v10 (broadcastInDim S8192x512 ![0, 1] bcast_S8192x1_S8192x512_0_1),
    TRef.binary main_call3.v5 main_call3.v10 main_call3.v11 subf ]

/-- The line is its seven stretches, one after the other. -/
theorem ops_split : (ops : List (HloOp τ sig (Elt F))) = layer1 ++ (layer2 ++ (dense1 ++ (dense2 ++ (dense3 ++ (shift ++ logsum))))) := rfl

set_option maxRecDepth 8192 in
/-- @main is that line: the three outlined functions unfolded at their calls, sequencing reassociated. -/
theorem main_eq (c : Dev nD) : main (F := F) c = seq ops := by
  simp only [main, fn_relu.body, fn_relu_0.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every weakly fair execution of @main terminates with each buffer at the fold of the line over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.LibColumnBroadcast.lean ====
/-
  A per-row quantity put back beside every entry of its row, in the host's spelling: a vector of a entries kept as an
  a × 1 column (broadcast_in_dim along axis 0) reads its entry p at (p, 0); an a × 1 column copied along its unit
  axis into an a × b matrix (broadcast_in_dim along axes 0, 1) reads, at (p, d), the column's entry p.
-/
import Idealize.ShloMosaic.Lib.ValueLayout
import Idealize.ShloMosaic.Lib.Pipeline.Value

namespace ColumnBroadcast

open Idealize.ShloMosaic Idealize.ShloMosaic.ValueIdx

variable {α : Type}

/-- A vector kept as a column reads, at (p, u), the vector at p. -/
theorem column_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) (fun ax => ?_)
  match ax with
  | ⟨0, _⟩ =>
    show p.val = if a = 1 then 0 else p.val
    have := p.isLt
    split <;> omega

/-- A column copied along its unit axis reads, at (p, d), the column at (p, 0). -/
theorem columns_apply {a b : ℕ} (w : (⟨2, ![a, 1]⟩ : Shape).Idx → α)
    (h : (⟨2, ![a, 1]⟩ : Shape).BroadcastsInDim ⟨2, ![a, b]⟩ ![0, 1]) (p : Fin a) (d : Fin b) :
    broadcastInDim ⟨2, ![a, b]⟩ ![0, 1] h w (ix2 p d) = w (ix2 p (0 : Fin 1)) := by
  refine broadcastInDim_apply ![0, 1] h w (ix2 p d) (ix2 p (0 : Fin 1)) (fun ax => ?_)
  match ax with
  | ⟨0, _⟩ =>
    show p.val = if a = 1 then 0 else p.val
    have := p.isLt
    split <;> omega
  | ⟨1, _⟩ => rfl

end ColumnBroadcast
-- ==== Proof.Reference.RefStages.lean ====
/-
  The host's spelling of each stage of the network, as the stage itself, on the extended reals:
  a product plus a bias vector copied into every row is the projection with the vector as a row; the maximum with the
  0.0 word copied everywhere is the rectifier; the product of the row-wise concatenation [H | G] with L is
  H·(first rows of L) + G·(last rows of L), the sum over the 768 columns split at 256; and the row-wise log-softmax
  spelt with a row maximum folded from −inf, a row sum started at 0.0 and the two put back beside every entry.
-/
import proofs.«130687_j53085795778708_2_alg».proof.Proof.Spec
import proofs.«130687_j53085795778708_2_alg».proof.Proof.LibRowReduce
import proofs.«130687_j53085795778708_2_alg».proof.Proof.LibColumnBroadcast
import proofs.«130687_j53085795778708_2_alg».proof.Proof.SpecLayout
import Idealize.ShloMosaic.Lib.IdealHost
import Idealize.ShloMosaic.Lib.Pipeline.Value

noncomputable section

namespace Gcn.HostForm

open Idealize.ShloMosaic Idealize.ShloMosaic.ValueIdx ExactProduct Gcn

/-- The host's product plus a bias vector copied into every row: the projection with the vector as a row. -/
theorem dense_eq {M K N : ℕ} (d : DotDims ⟨2, ![M, K]⟩ ⟨2, ![K, N]⟩ ⟨2, ![M, N]⟩) (hd : d = DotDims.plain M K N)
    (x : Mat M K) (w : Mat K N) (b : Vect N)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (F := Ideal) (φ := .f32) (Host.dotGeneral (F := Ideal) (φ₁ := .f32) (φ₂ := .f32) d none x w)
        (broadcastInDim ⟨2, ![M, N]⟩ ![0, 1] h2 (broadcastInDim ⟨2, ![1, N]⟩ ![1] h1 b))
      = proj x w (row b) := by
  rw [hostDot_eq_mm d hd none x w, addRow_eq_proj x w b h1 h2 hc, shapeCast_row]

/-- The maximum with the 0.0 word copied everywhere is the rectifier. -/
theorem relu_eq {M N : ℕ} (y : Mat M N) (h0 : (⟨0, ![]⟩ : Shape).BroadcastsInDim ⟨2, ![M, N]⟩ ![]) :
    maximumf (F := Ideal) (φ := .f32) y
        (broadcastInDim ⟨2, ![M, N]⟩ ![] h0 (constant (F := Ideal) ⟨0, ![]⟩ .f32 0x00000000#32))
      = relu y := by
  funext i
  rw [maximumf_apply, broadcastInDim_scalar_apply]
  rfl

/-- The row-wise concatenation [H | G] times L, at an entry: the sum over the 768 columns split at 256 is
    H·(the first 256 rows of L) + G·(the last 512 rows of L). -/
theorem concat_mm {a : ℕ} (h : Mat a 256) (g : Mat a 512) (l : Mat 768 768)
    (hcat : Shape.Concatenates [(⟨2, ![a, 256]⟩ : Shape), ⟨2, ![a, 512]⟩] ⟨2, ![a, 768]⟩ 1)
    (i : (⟨2, ![a, 768]⟩ : Shape).Idx) :
    mm (concatenate ⟨2, ![a, 768]⟩ 1 [⟨⟨2, ![a, 256]⟩, h⟩, ⟨⟨2, ![a, 512]⟩, g⟩] hcat) l i
      = mm h (rowsFrom 256 0 (by norm_num) l) i + mm g (rowsFrom 512 256 (by norm_num) l) i := by
  obtain ⟨r, c, rfl⟩ : ∃ (r : Fin a) (c : Fin 768), i = ix2 r c := ⟨i 0, i 1, eq_ix2 i⟩
  show ∑ k : Fin (256 + 512), concatenate ⟨2, ![a, 768]⟩ 1 [⟨⟨2, ![a, 256]⟩, h⟩, ⟨⟨2, ![a, 512]⟩, g⟩] hcat (ix2 r k) * l (ix2 k c)
      = (∑ k : Fin 256, h (ix2 r k) * rowsFrom 256 0 (by norm_num) l (ix2 k c))
        + ∑ k : Fin 512, g (ix2 r k) * rowsFrom 512 256 (by norm_num) l (ix2 k c)
  rw [Fin.sum_univ_add]
  congr 1
  · refine Finset.sum_congr rfl fun k _ => ?_
    rw [concatenate_pair_apply_left (1 : Fin 2) h g hcat (ix2 r (Fin.castAdd 512 k)) rfl (ix2 r k)
      (fun b => by match b with | ⟨0, _⟩ => rfl | ⟨1, _⟩ => rfl)]
    exact congrArg (h (ix2 r k) * ·) (congrArg l (congrArg (ix2 · c) (Fin.ext (Nat.zero_add k.val).symm)))
  · refine Finset.sum_congr rfl fun k _ => ?_
    rw [concatenate_pair_apply_right (1 : Fin 2) h g hcat (ix2 r (Fin.natAdd 256 k)) rfl rfl (ix2 r k)
      (fun b hb => by match b with | ⟨0, _⟩ => rfl | ⟨1, _⟩ => exact absurd rfl hb)
      (by show k.val + 256 = 256 + k.val; omega)]
    rfl

/-- The host's first perceptron layer before its activation: [H | G]·L plus the bias in every row is
    H·La + G·Lb plus the bias as a row. -/
theorem pre4_eq {a : ℕ} (d : DotDims ⟨2, ![a, 768]⟩ ⟨2, ![768, 768]⟩ ⟨2, ![a, 768]⟩) (hd : d = DotDims.plain a 768 768)
    (h : Mat a 256) (g : Mat a 512) (l : Mat 768 768) (b : Vect 768)
    (hcat : Shape.Concatenates [(⟨2, ![a, 256]⟩ : Shape), ⟨2, ![a, 512]⟩] ⟨2, ![a, 768]⟩ 1)
    (h1 : (⟨1, ![768]⟩ : Shape).BroadcastsInDim ⟨2, ![1, 768]⟩ ![1])
    (h2 : (⟨2, ![1, 768]⟩ : Shape).BroadcastsInDim ⟨2, ![a, 768]⟩ ![0, 1])
    (hc : (⟨1, ![768]⟩ : Shape).ShapeCasts ⟨2, ![1, 768]⟩) :
    addf (F := Ideal) (φ := .f32)
        (Host.dotGeneral (F := Ideal) (φ₁ := .f32) (φ₂ := .f32) d none
          (concatenate (α := EReal) ⟨2, ![a, 768]⟩ 1 [⟨⟨2, ![a, 256]⟩, h⟩, ⟨⟨2, ![a, 512]⟩, g⟩] hcat) l)
        (broadcastInDim ⟨2, ![a, 768]⟩ ![0, 1] h2 (broadcastInDim ⟨2, ![1, 768]⟩ ![1] h1 b))
      = pre4 h g (rowsFrom 256 0 (by norm_num) l) (rowsFrom 512 256 (by norm_num) l) (row b) := by
  rw [hostDot_eq_mm d hd none _ l, addRow_eq_proj _ l b h1 h2 hc, shapeCast_row]
  funext i
  show mm _ l i + _ = (mm h _ i + mm g _ i) + _
  rw [concat_mm]

/-! ## The row-wise log-softmax in the host's spelling -/

section LogSoftmax

variable {a b : ℕ} (x : Mat a b)
  (hred : (⟨2, ![a, b]⟩ : Shape).ReducesTo [1] ⟨1, ![a]⟩) (hr : (⟨2, ![a, b]⟩ : Shape).Reduces [1] ⟨1, ![a]⟩)
  (hu : 0 < (⟨0, ![]⟩ : Shape).numel) (hs : (⟨0, ![]⟩ : Shape).BroadcastsInDim ⟨1, ![a]⟩ ![])
  (hcol : (⟨1, ![a]⟩ : Shape).BroadcastsInDim ⟨2, ![a, 1]⟩ ![0])
  (hcols : (⟨2, ![a, 1]⟩ : Shape).BroadcastsInDim ⟨2, ![a, b]⟩ ![0, 1])

/-- The rows' maxima as the host computes them: the reduce from −inf, then the maximum with −inf once more. -/
def hostRowMax : Vect a :=
  maximumf (F := Ideal) (φ := .f32) (broadcastInDim ⟨1, ![a]⟩ ![] hs (constant (F := Ideal) ⟨0, ![]⟩ .f32 0xFF800000#32))
    (Host.reduce (FloatOps.maximumf (F := Ideal) (φ := .f32)) x (constant (F := Ideal) ⟨0, ![]⟩ .f32 0xFF800000#32) hred hu)

/-- The entries less their row's maximum, the maxima kept as a column and copied along every row. -/
def hostShifted : Mat a b :=
  subf (F := Ideal) (φ := .f32) x
    (broadcastInDim ⟨2, ![a, b]⟩ ![0, 1] hcols (broadcastInDim ⟨2, ![a, 1]⟩ ![0] hcol (hostRowMax x hred hu hs)))

/-- The normalizer's half, of any matrix z: z less the logarithm of the row sum, from 0.0, of its exponentials,
    the logarithms kept as a column and copied along every row. -/
def hostLogSum (z : Mat a b) : Mat a b :=
  subf (F := Ideal) (φ := .f32) z
    (broadcastInDim ⟨2, ![a, b]⟩ ![0, 1] hcols
      (Host.log (F := Ideal) (φ := .f32) (broadcastInDim ⟨2, ![a, 1]⟩ ![0] hcol
        (Host.reduceAdd (F := Ideal) (φ := .f32) (Host.exp (F := Ideal) (φ := .f32) z)
          (constant (F := Ideal) ⟨0, ![]⟩ .f32 0x00000000#32) hred hu))))

include hr in
/-- The row's maximum is the fold of max from −inf over the row: a fold from −inf is at least −inf. -/
theorem hostRowMax_at (r : Fin a) :
    hostRowMax x hred hu hs (ix1 r) = (Finset.univ : Finset (Fin b)).fold max negInfW (fun k => x (ix2 r k)) := by
  unfold hostRowMax
  rw [maximumf_apply, broadcastInDim_scalar_apply, RowReduce.hostMax_at x _ hred hr hu r]
  exact RowReduce.max_fold_self _ _ _

include hr in
/-- A shifted entry is the entry less its row's maximum. -/
theorem hostShifted_at (r : Fin a) (c : Fin b) :
    hostShifted x hred hu hs hcol hcols (ix2 r c)
      = x (ix2 r c) - (Finset.univ : Finset (Fin b)).fold max negInfW (fun k => x (ix2 r k)) := by
  unfold hostShifted
  rw [subf_apply, ColumnBroadcast.columns_apply, ColumnBroadcast.column_apply, hostRowMax_at x hred hr hu hs r]

include hr in
/-- The normalizer's half at an entry: the row sum's initial word 0.0 is 0. -/
theorem hostLogSum_at (z : Mat a b) (r : Fin a) (c : Fin b) :
    hostLogSum hred hu hcol hcols z (ix2 r c) = z (ix2 r c) - Ideal.log (∑ k : Fin b, Ideal.exp (z (ix2 r k))) := by
  unfold hostLogSum
  rw [subf_apply, ColumnBroadcast.columns_apply]
  show _ - Ideal.log (broadcastInDim (s := ⟨1, ![a]⟩) ⟨2, ![a, 1]⟩ ![0] hcol _ (ix2 r (0 : Fin 1))) = _
  rw [ColumnBroadcast.column_apply, RowReduce.hostSum_at _ _ hred hr hu r]
  have h0 : constant (F := Ideal) ⟨0, ![]⟩ .f32 0x00000000#32 (Shape.Idx.first hu) = 0 := Ideal.ofBits_zero_f32
  rw [h0, zero_add]
  rfl

include hr in
/-- The two halves together are the row-wise log-softmax. -/
theorem hostLogSoftmax_eq :
    hostLogSum hred hu hcol hcols (hostShifted x hred hu hs hcol hcols) = logSoftmax x := by
  funext i
  obtain ⟨r, c, rfl⟩ : ∃ (r : Fin a) (c : Fin b), i = ix2 r c := ⟨i 0, i 1, eq_ix2 i⟩
  rw [hostLogSum_at hred hr hu hcol hcols _ r c, hostShifted_at x hred hr hu hs hcol hcols r c,
    Finset.sum_congr rfl fun k _ => congrArg Ideal.exp (hostShifted_at x hred hr hu hs hcol hcols r k)]
  rfl

end LogSoftmax

/-! ## The stretches of the reference, whole -/

/-- A graph layer with its activation: A·(X·W) plus the bias in every row, then the maximum with 0.0. -/
theorem graphRelu_eq {a n k m : ℕ} (d1 : DotDims ⟨2, ![n, k]⟩ ⟨2, ![k, m]⟩ ⟨2, ![n, m]⟩) (hd1 : d1 = DotDims.plain n k m)
    (d2 : DotDims ⟨2, ![a, n]⟩ ⟨2, ![n, m]⟩ ⟨2, ![a, m]⟩) (hd2 : d2 = DotDims.plain a n m)
    (adj : Mat a n) (x : Mat n k) (w : Mat k m) (b : Vect m)
    (h1 : (⟨1, ![m]⟩ : Shape).BroadcastsInDim ⟨2, ![1, m]⟩ ![1])
    (h2 : (⟨2, ![1, m]⟩ : Shape).BroadcastsInDim ⟨2, ![a, m]⟩ ![0, 1])
    (hc : (⟨1, ![m]⟩ : Shape).ShapeCasts ⟨2, ![1, m]⟩)
    (h0 : (⟨0, ![]⟩ : Shape).BroadcastsInDim ⟨2, ![a, m]⟩ ![]) :
    maximumf (F := Ideal) (φ := .f32)
        (addf (F := Ideal) (φ := .f32) (Host.dotGeneral (F := Ideal) (φ₁ := .f32) (φ₂ := .f32) d2 none adj (Host.dotGeneral (F := Ideal) (φ₁ := .f32) (φ₂ := .f32) d1 none x w)) (broadcastInDim ⟨2, ![a, m]⟩ ![0, 1] h2 (broadcastInDim ⟨2, ![1, m]⟩ ![1] h1 b)))
        (broadcastInDim ⟨2, ![a, m]⟩ ![] h0 (constant (F := Ideal) ⟨0, ![]⟩ .f32 0x00000000#32))
      = relu (proj adj (mm x w) (row b)) := by
  rw [hostDot_eq_mm d1 hd1 none x w, dense_eq d2 hd2 adj (mm x w) b h1 h2 hc, relu_eq]

/-- A graph layer without activation: A·(H·W) plus the bias in every row. -/
theorem graph_eq {a n k m : ℕ} (d1 : DotDims ⟨2, ![n, k]⟩ ⟨2, ![k, m]⟩ ⟨2, ![n, m]⟩) (hd1 : d1 = DotDims.plain n k m)
    (d2 : DotDims ⟨2, ![a, n]⟩ ⟨2, ![n, m]⟩ ⟨2, ![a, m]⟩) (hd2 : d2 = DotDims.plain a n m)
    (adj : Mat a n) (x : Mat n k) (w : Mat k m) (b : Vect m)
    (h1 : (⟨1, ![m]⟩ : Shape).BroadcastsInDim ⟨2, ![1, m]⟩ ![1])
    (h2 : (⟨2, ![1, m]⟩ : Shape).BroadcastsInDim ⟨2, ![a, m]⟩ ![0, 1])
    (hc : (⟨1, ![m]⟩ : Shape).ShapeCasts ⟨2, ![1, m]⟩) :
    addf (F := Ideal) (φ := .f32) (Host.dotGeneral (F := Ideal) (φ₁ := .f32) (φ₂ := .f32) d2 none adj (Host.dotGeneral (F := Ideal) (φ₁ := .f32) (φ₂ := .f32) d1 none x w)) (broadcastInDim ⟨2, ![a, m]⟩ ![0, 1] h2 (broadcastInDim ⟨2, ![1, m]⟩ ![1] h1 b))
      = proj adj (mm x w) (row b) := by
  rw [hostDot_eq_mm d1 hd1 none x w, dense_eq d2 hd2 adj (mm x w) b h1 h2 hc]

/-- A dense layer with its activation: X·W plus the bias in every row, then the maximum with 0.0. -/
theorem denseRelu_eq {M K N : ℕ} (d : DotDims ⟨2, ![M, K]⟩ ⟨2, ![K, N]⟩ ⟨2, ![M, N]⟩) (hd : d = DotDims.plain M K N)
    (x : Mat M K) (w : Mat K N) (b : Vect N)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩)
    (h0 : (⟨0, ![]⟩ : Shape).BroadcastsInDim ⟨2, ![M, N]⟩ ![]) :
    maximumf (F := Ideal) (φ := .f32)
        (addf (F := Ideal) (φ := .f32) (Host.dotGeneral (F := Ideal) (φ₁ := .f32) (φ₂ := .f32) d none x w) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = relu (proj x w (row b)) := by
  rw [dense_eq d hd x w b h1 h2 hc, relu_eq]

/-- The first perceptron layer with its activation, on the concatenation [H | G]. -/
theorem concatRelu_eq {a : ℕ} (d : DotDims ⟨2, ![a, 768]⟩ ⟨2, ![768, 768]⟩ ⟨2, ![a, 768]⟩) (hd : d = DotDims.plain a 768 768)
    (h : Mat a 256) (g : Mat a 512) (l : Mat 768 768) (b : Vect 768)
    (hcat : Shape.Concatenates [(⟨2, ![a, 256]⟩ : Shape), ⟨2, ![a, 512]⟩] ⟨2, ![a, 768]⟩ 1)
    (h1 : (⟨1, ![768]⟩ : Shape).BroadcastsInDim ⟨2, ![1, 768]⟩ ![1])
    (h2 : (⟨2, ![1, 768]⟩ : Shape).BroadcastsInDim ⟨2, ![a, 768]⟩ ![0, 1])
    (hc : (⟨1, ![768]⟩ : Shape).ShapeCasts ⟨2, ![1, 768]⟩)
    (h0 : (⟨0, ![]⟩ : Shape).BroadcastsInDim ⟨2, ![a, 768]⟩ ![]) :
    maximumf (F := Ideal) (φ := .f32)
        (addf (F := Ideal) (φ := .f32)
          (Host.dotGeneral (F := Ideal) (φ₁ := .f32) (φ₂ := .f32) d none
            (concatenate (α := EReal) ⟨2, ![a, 768]⟩ 1 [⟨⟨2, ![a, 256]⟩, h⟩, ⟨⟨2, ![a, 512]⟩, g⟩] hcat) l)
          (broadcastInDim ⟨2, ![a, 768]⟩ ![0, 1] h2 (broadcastInDim ⟨2, ![1, 768]⟩ ![1] h1 b)))
        (broadcastInDim ⟨2, ![a, 768]⟩ ![] h0 (constant (F := Ideal) ⟨0, ![]⟩ .f32 0x00000000#32))
      = relu (pre4 h g (rowsFrom 256 0 (by norm_num) l) (rowsFrom 512 256 (by norm_num) l) (row b)) := by
  rw [pre4_eq d hd h g l b hcat h1 h2 hc, relu_eq]

end Gcn.HostForm

end
-- ==== Proof.Reference.RefValue.lean ====
/-
  What the reference computes: stretch by stretch, from any contents W, the buffer the next stretch reads is the
  network's stage of W's buffers, and every buffer a stretch does not write keeps what W had there; composed, the
  result buffer after the whole line is the network of the arguments, and the arguments are unchanged.
-/
import proofs.«130687_j53085795778708_2_alg».proof.Proof.Reference.RefRun
import proofs.«130687_j53085795778708_2_alg».proof.Proof.Reference.RefStages

noncomputable section

namespace Cert.ReferenceIdeal.Hand

open Cert.ReferenceIdeal Cert.ReferenceIdeal.Gen Idealize.ShloMosaic Idealize.ShloMosaic.TcCoe Idealize.SL.Sem Idealize.ShloMosaic.StableHlo
open ExactProduct

/-! ## What each stretch writes -/

/-- The buffers the stretch `layer1` writes. -/
abbrev layer1_W : List (Ref sig .tc) := [main_v0, main_v1, main_v2, main_v3, main_v4, main_call0_cst, main_call0_v0, main_v5]
theorem layer1_writes : (layer1 (F := Ideal)).Forall fun op => op.writes ⊆ (layer1_W.map (Proc.devRef (τ := τ) .tc)).toFinset := by
  simp only [List.Forall]
  exact ⟨by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide)⟩
/-- A buffer the stretch does not write keeps its contents through it. -/
theorem layer1_keep (W : Valuation τ sig (Elt Ideal)) (r : Ref sig .tc) (h : r ∉ layer1_W) :
    after (layer1 (F := Ideal)) W (Proc.devRef .tc r) = W (Proc.devRef .tc r) :=
  after_of_writes_sub layer1 _ layer1_writes h

/-- The buffers the stretch `layer2` writes. -/
abbrev layer2_W : List (Ref sig .tc) := [main_v6, main_v7, main_v8, main_v9, main_v10]
theorem layer2_writes : (layer2 (F := Ideal)).Forall fun op => op.writes ⊆ (layer2_W.map (Proc.devRef (τ := τ) .tc)).toFinset := by
  simp only [List.Forall]
  exact ⟨by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide)⟩
/-- A buffer the stretch does not write keeps its contents through it. -/
theorem layer2_keep (W : Valuation τ sig (Elt Ideal)) (r : Ref sig .tc) (h : r ∉ layer2_W) :
    after (layer2 (F := Ideal)) W (Proc.devRef .tc r) = W (Proc.devRef .tc r) :=
  after_of_writes_sub layer2 _ layer2_writes h

/-- The buffers the stretch `dense1` writes. -/
abbrev dense1_W : List (Ref sig .tc) := [main_v11, main_v12, main_v13, main_v14, main_v15, main_call1_cst, main_call1_v0, main_v16]
theorem dense1_writes : (dense1 (F := Ideal)).Forall fun op => op.writes ⊆ (dense1_W.map (Proc.devRef (τ := τ) .tc)).toFinset := by
  simp only [List.Forall]
  exact ⟨by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide)⟩
/-- A buffer the stretch does not write keeps its contents through it. -/
theorem dense1_keep (W : Valuation τ sig (Elt Ideal)) (r : Ref sig .tc) (h : r ∉ dense1_W) :
    after (dense1 (F := Ideal)) W (Proc.devRef .tc r) = W (Proc.devRef .tc r) :=
  after_of_writes_sub dense1 _ dense1_writes h

/-- The buffers the stretch `dense2` writes. -/
abbrev dense2_W : List (Ref sig .tc) := [main_v17, main_v18, main_v19, main_v20, main_call2_cst, main_call2_v0, main_v21]
theorem dense2_writes : (dense2 (F := Ideal)).Forall fun op => op.writes ⊆ (dense2_W.map (Proc.devRef (τ := τ) .tc)).toFinset := by
  simp only [List.Forall]
  exact ⟨by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide)⟩
/-- A buffer the stretch does not write keeps its contents through it. -/
theorem dense2_keep (W : Valuation τ sig (Elt Ideal)) (r : Ref sig .tc) (h : r ∉ dense2_W) :
    after (dense2 (F := Ideal)) W (Proc.devRef .tc r) = W (Proc.devRef .tc r) :=
  after_of_writes_sub dense2 _ dense2_writes h

/-- The buffers the stretch `dense3` writes. -/
abbrev dense3_W : List (Ref sig .tc) := [main_v22, main_v23, main_v24, main_v25]
theorem dense3_writes : (dense3 (F := Ideal)).Forall fun op => op.writes ⊆ (dense3_W.map (Proc.devRef (τ := τ) .tc)).toFinset := by
  simp only [List.Forall]
  exact ⟨by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide)⟩
/-- A buffer the stretch does not write keeps its contents through it. -/
theorem dense3_keep (W : Valuation τ sig (Elt Ideal)) (r : Ref sig .tc) (h : r ∉ dense3_W) :
    after (dense3 (F := Ideal)) W (Proc.devRef .tc r) = W (Proc.devRef .tc r) :=
  after_of_writes_sub dense3 _ dense3_writes h

/-- The buffers the stretch `shift` writes. -/
abbrev shift_W : List (Ref sig .tc) := [main_call3_cst, main_call3_v0, main_call3_cst_0, main_call3_v1, main_call3_v2, main_call3_v3, main_call3_v4, main_call3_v5]
theorem shift_writes : (shift (F := Ideal)).Forall fun op => op.writes ⊆ (shift_W.map (Proc.devRef (τ := τ) .tc)).toFinset := by
  simp only [List.Forall]
  exact ⟨by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide)⟩
/-- A buffer the stretch does not write keeps its contents through it. -/
theorem shift_keep (W : Valuation τ sig (Elt Ideal)) (r : Ref sig .tc) (h : r ∉ shift_W) :
    after (shift (F := Ideal)) W (Proc.devRef .tc r) = W (Proc.devRef .tc r) :=
  after_of_writes_sub shift _ shift_writes h

/-- The buffers the stretch `logsum` writes. -/
abbrev logsum_W : List (Ref sig .tc) := [main_call3_v6, main_call3_cst_1, main_call3_v7, main_call3_v8, main_call3_v9, main_call3_v10, main_v26]
theorem logsum_writes : (logsum (F := Ideal)).Forall fun op => op.writes ⊆ (logsum_W.map (Proc.devRef (τ := τ) .tc)).toFinset := by
  simp only [List.Forall]
  exact ⟨by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide)⟩
/-- A buffer the stretch does not write keeps its contents through it. -/
theorem logsum_keep (W : Valuation τ sig (Elt Ideal)) (r : Ref sig .tc) (h : r ∉ logsum_W) :
    after (logsum (F := Ideal)) W (Proc.devRef .tc r) = W (Proc.devRef .tc r) :=
  after_of_writes_sub logsum _ logsum_writes h

/-! ## What each stretch computes -/

/-- Reducing the second axis of an 8192 × 512 matrix leaves 8192 entries. -/
theorem reduces_rows : S8192x512.Reduces [1] S8192 := by decide

/-- The first graph layer leaves relu(A0·(X·W1) + b1). -/
theorem layer1_out (W : Valuation τ sig (Elt Ideal)) :
    after (layer1 (F := Ideal)) W (Proc.devRef .tc main_v5)
      = Gcn.relu (proj (M := 8192) (K := 8192) (N := 256) (W (Proc.devRef .tc main_arg2))
          (mm (M := 8192) (K := 512) (N := 256) (W (Proc.devRef .tc main_arg0)) (W (Proc.devRef .tc main_arg4))) (Gcn.row (n := 256) (W (Proc.devRef .tc main_arg5)))) := by
  after_results
  exact Gcn.HostForm.graphRelu_eq dot_S8192x512_S512x256_S8192x256_1_0_0_1_n_n rfl dot_S8192x8192_S8192x256_S8192x256_1_0_0_1_n_n rfl _ _ _ _
    bcast_S256_S1x256_1 bcast_S1x256_S8192x256_0_1 (by decide) bcast_S_S8192x256

/-- The second graph layer leaves A1·((first layer)·W2) + b2. -/
theorem layer2_out (W : Valuation τ sig (Elt Ideal)) :
    after (layer2 (F := Ideal)) W (Proc.devRef .tc main_v10)
      = proj (M := 8192) (K := 8192) (N := 256) (W (Proc.devRef .tc main_arg3))
          (mm (M := 8192) (K := 256) (N := 256) (W (Proc.devRef .tc main_v5)) (W (Proc.devRef .tc main_arg6))) (Gcn.row (n := 256) (W (Proc.devRef .tc main_arg7))) := by
  after_results
  exact Gcn.HostForm.graph_eq dot_S8192x256_S256x256_S8192x256_1_0_0_1_n_n rfl dot_S8192x8192_S8192x256_S8192x256_1_0_0_1_n_n rfl _ _ _ _
    bcast_S256_S1x256_1 bcast_S1x256_S8192x256_0_1 (by decide)

/-- The first perceptron layer leaves relu(H2·La + G·Lb + c1). -/
theorem dense1_out (W : Valuation τ sig (Elt Ideal)) :
    after (dense1 (F := Ideal)) W (Proc.devRef .tc main_v16)
      = Gcn.relu (Gcn.pre4 (a := 8192) (W (Proc.devRef .tc main_v10)) (W (Proc.devRef .tc main_arg1))
          (Gcn.rowsFrom 256 0 (by norm_num) (W (Proc.devRef .tc main_arg8))) (Gcn.rowsFrom 512 256 (by norm_num) (W (Proc.devRef .tc main_arg8)))
          (Gcn.row (n := 768) (W (Proc.devRef .tc main_arg9)))) := by
  after_results
  exact Gcn.HostForm.concatRelu_eq dot_S8192x768_S768x768_S8192x768_1_0_0_1_n_n rfl _ _ _ _ concatenates_S8192x256_S8192x512_S8192x768_d1
    bcast_S768_S1x768_1 bcast_S1x768_S8192x768_0_1 (by decide) bcast_S_S8192x768

/-- The second perceptron layer leaves relu((first)·L2 + c2). -/
theorem dense2_out (W : Valuation τ sig (Elt Ideal)) :
    after (dense2 (F := Ideal)) W (Proc.devRef .tc main_v21)
      = Gcn.relu (proj (M := 8192) (K := 768) (N := 768) (W (Proc.devRef .tc main_v16)) (W (Proc.devRef .tc main_arg10)) (Gcn.row (n := 768) (W (Proc.devRef .tc main_arg11)))) := by
  after_results
  exact Gcn.HostForm.denseRelu_eq dot_S8192x768_S768x768_S8192x768_1_0_0_1_n_n rfl _ _ _
    bcast_S768_S1x768_1 bcast_S1x768_S8192x768_0_1 (by decide) bcast_S_S8192x768

/-- The third perceptron layer leaves (second)·L3 + c3. -/
theorem dense3_out (W : Valuation τ sig (Elt Ideal)) :
    after (dense3 (F := Ideal)) W (Proc.devRef .tc main_v25)
      = proj (M := 8192) (K := 768) (N := 512) (W (Proc.devRef .tc main_v21)) (W (Proc.devRef .tc main_arg12)) (Gcn.row (n := 512) (W (Proc.devRef .tc main_arg13))) := by
  after_results
  exact Gcn.HostForm.dense_eq dot_S8192x768_S768x512_S8192x512_1_0_0_1_n_n rfl _ _ _
    bcast_S512_S1x512_1 bcast_S1x512_S8192x512_0_1 (by decide)

/-! ### The log-softmax's two halves

Their operations carry each tensor value's type beside its buffer; a value written through one and read back through
it is the value (the two transports cancel), and at a literal reference a transport is the identity. -/

/-- A typed reference's transport into its buffer and back is the identity. -/
theorem ofBuf_toBuf {T : BufTy} {Val : EltTy → Type} (x : TRef sig T) (v : T.Contents Val) : x.ofBuf (x.toBuf v) = v := by
  simp only [TRef.ofBuf, TRef.toBuf, cast_cast, cast_eq]

/-- The third layer's buffer read through its typed reference is the buffer's contents. -/
theorem read_v25 (W : Valuation τ sig (Elt Ideal)) :
    (.of main_v25 : TRef sig ⟨S8192x512, .f32⟩).ofBuf (W (Proc.devRef .tc (.of main_v25 : TRef sig ⟨S8192x512, .f32⟩).ref)) = W (Proc.devRef .tc main_v25) := rfl

/-- The result buffer read through its typed reference is the buffer's contents. -/
theorem read_v26 (W : Valuation τ sig (Elt Ideal)) :
    main_call3.v11.ofBuf (W (Proc.devRef .tc main_call3.v11.ref)) = W (Proc.devRef .tc main_v26) := rfl

attribute [local irreducible] Host.reduce Host.reduceAdd in
/-- The shift leaves the third layer's entries less their row's maximum. -/
theorem shift_out (W : Valuation τ sig (Elt Ideal)) :
    main_call3.v5.ofBuf (after (shift (F := Ideal)) W (Proc.devRef .tc main_call3.v5.ref))
      = Gcn.HostForm.hostShifted (a := 8192) (b := 512) ((.of main_v25 : TRef sig ⟨S8192x512, .f32⟩).ofBuf (W (Proc.devRef .tc (.of main_v25 : TRef sig ⟨S8192x512, .f32⟩).ref)))
          reducesTo_S8192x512_S8192_d1 h_S_ bcast_S_S8192 bcast_S8192_S8192x1_0 bcast_S8192x1_S8192x512_0_1 := by
  after_results
  repeat rw [ofBuf_toBuf]
  rfl

attribute [local irreducible] Host.reduce Host.reduceAdd in
/-- The normalizer leaves its operand less the logarithm of the row sums of its exponentials. -/
theorem logsum_out (W : Valuation τ sig (Elt Ideal)) :
    main_call3.v11.ofBuf (after (logsum (F := Ideal)) W (Proc.devRef .tc main_call3.v11.ref))
      = Gcn.HostForm.hostLogSum (a := 8192) (b := 512) reducesTo_S8192x512_S8192_d1 h_S_
          bcast_S8192_S8192x1_0 bcast_S8192x1_S8192x512_0_1 (main_call3.v5.ofBuf (W (Proc.devRef .tc main_call3.v5.ref))) := by
  after_results
  repeat rw [ofBuf_toBuf]
  rfl

/-- The two halves, one after the other, leave the row-wise log-softmax of the third layer in the result buffer. -/
theorem softmax_value (W : Valuation τ sig (Elt Ideal)) :
    after (logsum (F := Ideal)) (after (shift (F := Ideal)) W) (Proc.devRef .tc main_v26)
      = Gcn.logSoftmax (a := 8192) (b := 512) (W (Proc.devRef .tc main_v25)) := by
  rw [← read_v26 (after (logsum (F := Ideal)) (after (shift (F := Ideal)) W)), logsum_out, shift_out, read_v25,
    Gcn.HostForm.hostLogSoftmax_eq _ _ reduces_rows]

/-! ## The whole line -/

/-- Every buffer the line writes. -/
abbrev ops_W : List (Ref sig .tc) := layer1_W ++ (layer2_W ++ (dense1_W ++ (dense2_W ++ (dense3_W ++ (shift_W ++ (logsum_W))))))

/-- A buffer the first stretches do not write keeps its contents through them. -/
theorem keep1 (V : Valuation τ sig (Elt Ideal)) (r : Ref sig .tc) (h : r ∉ layer1_W) :
    after (layer1 (F := Ideal)) V (Proc.devRef .tc r) = V (Proc.devRef .tc r) := by
  rw [layer1_keep _ r (fun hm => h hm)]
theorem keep2 (V : Valuation τ sig (Elt Ideal)) (r : Ref sig .tc) (h : r ∉ layer1_W ++ (layer2_W)) :
    after (layer2 (F := Ideal)) (after (layer1 (F := Ideal)) V) (Proc.devRef .tc r) = V (Proc.devRef .tc r) := by
  rw [layer2_keep _ r (fun hm => h (List.mem_append_right _ hm)),
    layer1_keep _ r (fun hm => h (List.mem_append_left _ hm))]
theorem keep3 (V : Valuation τ sig (Elt Ideal)) (r : Ref sig .tc) (h : r ∉ layer1_W ++ (layer2_W ++ (dense1_W))) :
    after (dense1 (F := Ideal)) (after (layer2 (F := Ideal)) (after (layer1 (F := Ideal)) V)) (Proc.devRef .tc r) = V (Proc.devRef .tc r) := by
  rw [dense1_keep _ r (fun hm => h (List.mem_append_right _ (List.mem_append_right _ hm))),
    layer2_keep _ r (fun hm => h (List.mem_append_right _ (List.mem_append_left _ hm))),
    layer1_keep _ r (fun hm => h (List.mem_append_left _ hm))]
theorem keep4 (V : Valuation τ sig (Elt Ideal)) (r : Ref sig .tc) (h : r ∉ layer1_W ++ (layer2_W ++ (dense1_W ++ (dense2_W)))) :
    after (dense2 (F := Ideal)) (after (dense1 (F := Ideal)) (after (layer2 (F := Ideal)) (after (layer1 (F := Ideal)) V))) (Proc.devRef .tc r) = V (Proc.devRef .tc r) := by
  rw [dense2_keep _ r (fun hm => h (List.mem_append_right _ (List.mem_append_right _ (List.mem_append_right _ hm)))),
    dense1_keep _ r (fun hm => h (List.mem_append_right _ (List.mem_append_right _ (List.mem_append_left _ hm)))),
    layer2_keep _ r (fun hm => h (List.mem_append_right _ (List.mem_append_left _ hm))),
    layer1_keep _ r (fun hm => h (List.mem_append_left _ hm))]
theorem keep7 (V : Valuation τ sig (Elt Ideal)) (r : Ref sig .tc) (h : r ∉ layer1_W ++ (layer2_W ++ (dense1_W ++ (dense2_W ++ (dense3_W ++ (shift_W ++ (logsum_W))))))) :
    after (logsum (F := Ideal)) (after (shift (F := Ideal)) (after (dense3 (F := Ideal)) (after (dense2 (F := Ideal)) (after (dense1 (F := Ideal)) (after (layer2 (F := Ideal)) (after (layer1 (F := Ideal)) V)))))) (Proc.devRef .tc r) = V (Proc.devRef .tc r) := by
  rw [logsum_keep _ r (fun hm => h (List.mem_append_right _ (List.mem_append_right _ (List.mem_append_right _ (List.mem_append_right _ (List.mem_append_right _ (List.mem_append_right _ hm))))))),
    shift_keep _ r (fun hm => h (List.mem_append_right _ (List.mem_append_right _ (List.mem_append_right _ (List.mem_append_right _ (List.mem_append_right _ (List.mem_append_left _ hm))))))),
    dense3_keep _ r (fun hm => h (List.mem_append_right _ (List.mem_append_right _ (List.mem_append_right _ (List.mem_append_right _ (List.mem_append_left _ hm)))))),
    dense2_keep _ r (fun hm => h (List.mem_append_right _ (List.mem_append_right _ (List.mem_append_right _ (List.mem_append_left _ hm))))),
    dense1_keep _ r (fun hm => h (List.mem_append_right _ (List.mem_append_right _ (List.mem_append_left _ hm)))),
    layer2_keep _ r (fun hm => h (List.mem_append_right _ (List.mem_append_left _ hm))),
    layer1_keep _ r (fun hm => h (List.mem_append_left _ hm))]

/-- A buffer the line does not write keeps its contents. -/
theorem ops_keep (V : Valuation τ sig (Elt Ideal)) (r : Ref sig .tc) (h : r ∉ ops_W) :
    after (ops (F := Ideal)) V (Proc.devRef .tc r) = V (Proc.devRef .tc r) := by
  rw [ops_split, LibFoldAppend.after_append, LibFoldAppend.after_append, LibFoldAppend.after_append,
    LibFoldAppend.after_append, LibFoldAppend.after_append, LibFoldAppend.after_append]
  exact keep7 V r h

/-- The result buffer after the whole line is the network of the arguments: each stretch's stage of the stretch
    before, the arguments read where no earlier stretch wrote. -/
theorem value (V : Valuation τ sig (Elt Ideal)) :
    after (ops (F := Ideal)) V (Proc.devRef .tc main_v26)
      = Gcn.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [ops_split, LibFoldAppend.after_append, LibFoldAppend.after_append, LibFoldAppend.after_append,
    LibFoldAppend.after_append, LibFoldAppend.after_append, LibFoldAppend.after_append,
    softmax_value,
    dense3_out, dense2_out, dense1_out, layer2_out, layer1_out,
    keep4 V main_arg12 (by decide), keep4 V main_arg13 (by decide),
    keep3 V main_arg10 (by decide), keep3 V main_arg11 (by decide),
    keep2 V main_arg1 (by decide), keep2 V main_arg8 (by decide), keep2 V main_arg9 (by decide),
    keep1 V main_arg3 (by decide), keep1 V main_arg6 (by decide), keep1 V main_arg7 (by decide)]
  rfl

/-- Every weakly fair execution of the reference terminates with the result buffer at the network of the arguments
    and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26) = Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v26).trans (value _),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide)),
      (h c main_arg13).trans (ops_keep _ main_arg13 (by decide))⟩)
    (run_fold m ρ)

end Cert.ReferenceIdeal.Hand

end
-- ==== Proof.lean ====
/-
  The certificate's five claims for the two-layer graph convolution with its perceptron and log-softmax.

  The kernel program runs four regions: T0 = X·W1 by row blocks; T1 = relu(A0·T0 + b1)·W2 and H2 = A1·T1 + b2, each
  accumulated over eight column blocks of the adjacency matrix in a buffer carried between grid points; and the
  perceptron with the row-wise log-softmax by row blocks, the first layer as H2·La + G·Lb for the two row slices La, Lb
  of L1. The reference computes the same network with whole products and the concatenation [H2 | G]·L1. On the extended
  reals the two agree entry by entry, by regrouping sums only: both results are the one function Gcn.net of the arguments.
  Each program terminates without a fault and leaves its arguments as launched; the idealization rewrote nothing.
-/
import proofs.«130687_j53085795778708_2_alg».proof.Defs
import proofs.«130687_j53085795778708_2_alg».proof.Proof.Gen.Kernel
import proofs.«130687_j53085795778708_2_alg».proof.Proof.Gen.KernelIdeal
import proofs.«130687_j53085795778708_2_alg».proof.Proof.Gen.ReferenceIdeal
import proofs.«130687_j53085795778708_2_alg».proof.Proof.Gen.Pre_finite_inputs
import proofs.«130687_j53085795778708_2_alg».proof.Proof.Kernel.Run
import proofs.«130687_j53085795778708_2_alg».proof.Proof.Value.Net
import proofs.«130687_j53085795778708_2_alg».proof.Proof.Reference.RefValue
import Idealize.ShloMosaic.Adequacy
import Idealize.ShloMosaic.Init

noncomputable section

namespace Cert.Proof

open Idealize.ShloMosaic Idealize.SL.Sem

/-- The kernel program, as printed: it runs and leaves its arguments as launched. -/
theorem frame_kernel : Cert.frame_Kernel := fun m ρ _ => Cert.Kernel.Hand.frame m ρ

/-- The same of its idealization. -/
theorem frame_kernelIdeal : Cert.frame_KernelIdeal := fun m ρ _ => Cert.KernelIdeal.Hand.frame m ρ

/-- The reference runs and leaves its arguments as launched: its value run with the result dropped. -/
theorem frame_referenceIdeal : Cert.frame_ReferenceIdeal := fun m ρ _ =>
  (θ_run Cert.ReferenceIdeal.defs _ _).mono (fun _ h c => (h c).2) (Cert.ReferenceIdeal.Hand.run_value m ρ)

/-- The idealization rewrote no operation. -/
theorem preserves : Cert.preserves_Kernel_KernelIdeal := trivial

/-- From memories that agree on the arguments both idealized programs end with the network of the arguments in their
    result arrays. -/
theorem algebraic : Cert.algebraic_KernelIdeal_ReferenceIdeal := by
  intro m ρ m' ρ' _ hagree
  refine ⟨fun c => Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.HandValue.run_value m ρ, ?_⟩
  refine (θ_run Cert.ReferenceIdeal.defs _ _).mono (fun _ h c => ⟨(h c).1.trans ?_, (h c).2⟩)
    (Cert.ReferenceIdeal.Hand.run_value m' ρ')
  obtain ⟨e0, e1, e2, e3, e4, e5, e6, e7, e8, e9, e10, e11, e12, e13⟩ := hagree c
  rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
